-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x28x28 : Shape := ⟨4, ![16384, 1, 28, 28]⟩
abbrev S5x28x256 : Shape := ⟨3, ![5, 28, 256]⟩
abbrev S1x128 : Shape := ⟨2, ![1, 128]⟩
abbrev S5x128x256 : Shape := ⟨3, ![5, 128, 256]⟩
abbrev S512x50 : Shape := ⟨2, ![512, 50]⟩
abbrev S1x50 : Shape := ⟨2, ![1, 50]⟩
abbrev S50x10 : Shape := ⟨2, ![50, 10]⟩
abbrev S1x10 : Shape := ⟨2, ![1, 10]⟩
abbrev S_ : Shape := ⟨0, ![]⟩

class Facts : Prop where
  bcast_S_S16384x1x28x28 : S_.BroadcastsInDim S16384x1x28x28 (![] : Fin 0 → Fin S16384x1x28x28.rank)
  reducesTo_S16384x1x28x28_S_d0_1_2_3 : S16384x1x28x28.ReducesTo [0, 1, 2, 3] S_
  h_S_ : 0 < S_.numel
  bcast_S_S5x28x256 : S_.BroadcastsInDim S5x28x256 (![] : Fin 0 → Fin S5x28x256.rank)
  reducesTo_S5x28x256_S_d0_1_2 : S5x28x256.ReducesTo [0, 1, 2] S_
  bcast_S_S1x128 : S_.BroadcastsInDim S1x128 (![] : Fin 0 → Fin S1x128.rank)
  reducesTo_S1x128_S_d0_1 : S1x128.ReducesTo [0, 1] S_
  bcast_S_S5x128x256 : S_.BroadcastsInDim S5x128x256 (![] : Fin 0 → Fin S5x128x256.rank)
  reducesTo_S5x128x256_S_d0_1_2 : S5x128x256.ReducesTo [0, 1, 2] S_
  bcast_S_S512x50 : S_.BroadcastsInDim S512x50 (![] : Fin 0 → Fin S512x50.rank)
  reducesTo_S512x50_S_d0_1 : S512x50.ReducesTo [0, 1] S_
  bcast_S_S1x50 : S_.BroadcastsInDim S1x50 (![] : Fin 0 → Fin S1x50.rank)
  reducesTo_S1x50_S_d0_1 : S1x50.ReducesTo [0, 1] S_
  bcast_S_S50x10 : S_.BroadcastsInDim S50x10 (![] : Fin 0 → Fin S50x10.rank)
  reducesTo_S50x10_S_d0_1 : S50x10.ReducesTo [0, 1] S_
  bcast_S_S1x10 : S_.BroadcastsInDim S1x10 (![] : Fin 0 → Fin S1x10.rank)
  reducesTo_S1x10_S_d0_1 : S1x10.ReducesTo [0, 1] S_

variable [Facts]

def fn_part2 {F : FTy → Type} [FloatOps F] (main_arg7 : FVec F S50x10 .f32) (main_arg8 : FVec F S1x10 .f32) (main_v33 : IVec S_ 1) : IVec S_ 1 :=
  let main_v34 : FVec F S50x10 .f32 := Host.absf main_arg7
  let main_cst_12 : FVec F S_ .f32 := constant S_ .f32 0x7F800000#32
  let main_v35 : FVec F S50x10 .f32 := broadcastInDim S50x10 ![] bcast_S_S50x10 main_cst_12
  let main_v36 : IVec S50x10 1 := cmpf .olt main_v34 main_v35
  let main_c_13 : IVec S_ 1 := constantI S_ 1 1#1
  let main_v37 : IVec S_ 1 := (fun x v => Host.reduce IntOp.andi x v reducesTo_S50x10_S_d0_1 h_S_) main_v36 main_c_13
  let main_v38 : IVec S_ 1 := andi main_v33 main_v37
  let main_v39 : FVec F S1x10 .f32 := Host.absf main_arg8
  let main_cst_14 : FVec F S_ .f32 := constant S_ .f32 0x7F800000#32
  let main_v40 : FVec F S1x10 .f32 := broadcastInDim S1x10 ![] bcast_S_S1x10 main_cst_14
  let main_v41 : IVec S1x10 1 := cmpf .olt main_v39 main_v40
  let main_c_15 : IVec S_ 1 := constantI S_ 1 1#1
  let main_v42 : IVec S_ 1 := (fun x v => Host.reduce IntOp.andi x v reducesTo_S1x10_S_d0_1 h_S_) main_v41 main_c_15
  let main_v43 : IVec S_ 1 := andi main_v38 main_v42
  main_v43

def fn_part1 {F : FTy → Type} [FloatOps F] (main_arg4 : FVec F S1x128 .f32) (main_arg5 : FVec F S512x50 .f32) (main_arg6 : FVec F S1x50 .f32) (main_arg7 : FVec F S50x10 .f32) (main_arg8 : FVec F S1x10 .f32) (main_v13 : IVec S_ 1) (main_v16 : IVec S5x128x256 1) : IVec S_ 1 :=
  let main_c_5 : IVec S_ 1 := constantI S_ 1 1#1
  let main_v17 : IVec S_ 1 := (fun x v => Host.reduce IntOp.andi x v reducesTo_S5x128x256_S_d0_1_2 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S512x50 .f32 := Host.absf main_arg5
  let main_cst_8 : FVec F S_ .f32 := constant S_ .f32 0x7F800000#32
  let main_v25 : FVec F S512x50 .f32 := broadcastInDim S512x50 ![] bcast_S_S512x50 main_cst_8
  let main_v26 : IVec S512x50 1 := cmpf .olt main_v24 main_v25
  let main_c_9 : IVec S_ 1 := constantI S_ 1 1#1
  let main_v27 : IVec S_ 1 := (fun x v => Host.reduce IntOp.andi x v reducesTo_S512x50_S_d0_1 h_S_) main_v26 main_c_9
  let main_v28 : IVec S_ 1 := andi main_v23 main_v27
  let main_v29 : FVec F S1x50 .f32 := Host.absf main_arg6
  let main_cst_10 : FVec F S_ .f32 := constant S_ .f32 0x7F800000#32
  let main_v30 : FVec F S1x50 .f32 := broadcastInDim S1x50 ![] bcast_S_S1x50 main_cst_10
  let main_v31 : IVec S1x50 1 := cmpf .olt main_v29 main_v30
  let main_c_11 : IVec S_ 1 := constantI S_ 1 1#1
  let main_v32 : IVec S_ 1 := (fun x v => Host.reduce IntOp.andi x v reducesTo_S1x50_S_d0_1 h_S_) main_v31 main_c_11
  let main_v33 : IVec S_ 1 := andi main_v28 main_v32
  fn_part2 (F := F) main_arg7 main_arg8 main_v33

def fn {F : FTy → Type} [FloatOps F] (main_arg0 : FVec F S16384x1x28x28 .f32) (main_arg1 : FVec F S5x28x256 .f32) (main_arg2 : FVec F S1x128 .f32) (main_arg3 : FVec F S5x128x256 .f32) (main_arg4 : FVec F S1x128 .f32) (main_arg5 : FVec F S512x50 .f32) (main_arg6 : FVec F S1x50 .f32) (main_arg7 : FVec F S50x10 .f32) (main_arg8 : FVec F S1x10 .f32) : IVec S_ 1 :=
  let main_v0 : FVec F S16384x1x28x28 .f32 := Host.absf main_arg0
  let main_cst : FVec F S_ .f32 := constant S_ .f32 0x7F800000#32
  let main_v1 : FVec F S16384x1x28x28 .f32 := broadcastInDim S16384x1x28x28 ![] bcast_S_S16384x1x28x28 main_cst
  let main_v2 : IVec S16384x1x28x28 1 := cmpf .olt main_v0 main_v1
  let main_c : IVec S_ 1 := constantI S_ 1 1#1
  let main_v3 : IVec S_ 1 := (fun x v => Host.reduce IntOp.andi x v reducesTo_S16384x1x28x28_S_d0_1_2_3 h_S_) main_v2 main_c
  let main_v4 : FVec F S5x28x256 .f32 := Host.absf main_arg1
  let main_cst_0 : FVec F S_ .f32 := constant S_ .f32 0x7F800000#32
  let main_v5 : FVec F S5x28x256 .f32 := broadcastInDim S5x28x256 ![] bcast_S_S5x28x256 main_cst_0
  let main_v6 : IVec S5x28x256 1 := cmpf .olt main_v4 main_v5
  let main_c_1 : IVec S_ 1 := constantI S_ 1 1#1
  let main_v7 : IVec S_ 1 := (fun x v => Host.reduce IntOp.andi x v reducesTo_S5x28x256_S_d0_1_2 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S5x128x256 .f32 := Host.absf main_arg3
  let main_cst_4 : FVec F S_ .f32 := constant S_ .f32 0x7F800000#32
  let main_v15 : FVec F S5x128x256 .f32 := broadcastInDim S5x128x256 ![] bcast_S_S5x128x256 main_cst_4
  let main_v16 : IVec S5x128x256 1 := cmpf .olt main_v14 main_v15
  fn_part1 (F := F) main_arg4 main_arg5 main_arg6 main_arg7 main_arg8 main_v13 main_v16
-- ==== Kernel.lean ====
abbrev S16384x1x28x28 : Shape := ⟨4, ![16384, 1, 28, 28]⟩
abbrev S5x28x256 : Shape := ⟨3, ![5, 28, 256]⟩
abbrev S1x128 : Shape := ⟨2, ![1, 128]⟩
abbrev S5x128x256 : Shape := ⟨3, ![5, 128, 256]⟩
abbrev S512x50 : Shape := ⟨2, ![512, 50]⟩
abbrev S1x50 : Shape := ⟨2, ![1, 50]⟩
abbrev S50x10 : Shape := ⟨2, ![50, 10]⟩
abbrev S1x10 : Shape := ⟨2, ![1, 10]⟩
abbrev S16384x784 : Shape := ⟨2, ![16384, 784]⟩
abbrev S140x256 : Shape := ⟨2, ![140, 256]⟩
abbrev S_ : Shape := ⟨0, ![]⟩
abbrev S224x256 : Shape := ⟨2, ![224, 256]⟩
abbrev S224x1024 : Shape := ⟨2, ![224, 1024]⟩
abbrev S640x256 : Shape := ⟨2, ![640, 256]⟩
abbrev S768x256 : Shape := ⟨2, ![768, 256]⟩
abbrev S768x512 : Shape := ⟨2, ![768, 512]⟩
abbrev S16384x10 : Shape := ⟨2, ![16384, 10]⟩
abbrev S1024x784 : Shape := ⟨2, ![1024, 784]⟩
abbrev S1024x10 : Shape := ⟨2, ![1024, 10]⟩
abbrev S1024x224 : Shape := ⟨2, ![1024, 224]⟩
abbrev S1024x1024 : Shape := ⟨2, ![1024, 1024]⟩
abbrev S1024x128 : Shape := ⟨2, ![1024, 128]⟩
abbrev S1024x768 : Shape := ⟨2, ![1024, 768]⟩
abbrev S1024x512 : Shape := ⟨2, ![1024, 512]⟩
abbrev S1024x50 : Shape := ⟨2, ![1024, 50]⟩
abbrev S1024 : Shape := ⟨1, ![1024]⟩
abbrev S1024x1 : Shape := ⟨2, ![1024, 1]⟩

abbrev nBuf : Space → Nat
  | .hbm => 39
  | .vmem => 12
  | .smem => 0
  | _ => 0

abbrev bufTy : (tb : Table) → Fin (tcTables nBuf tb) → BufTy
  | .hbm, ⟨0, _⟩ => ⟨S16384x1x28x28, .f32⟩
  | .hbm, ⟨1, _⟩ => ⟨S5x28x256, .f32⟩
  | .hbm, ⟨2, _⟩ => ⟨S1x128, .f32⟩
  | .hbm, ⟨3, _⟩ => ⟨S5x128x256, .f32⟩
  | .hbm, ⟨4, _⟩ => ⟨S1x128, .f32⟩
  | .hbm, ⟨5, _⟩ => ⟨S512x50, .f32⟩
  | .hbm, ⟨6, _⟩ => ⟨S1x50, .f32⟩
  | .hbm, ⟨7, _⟩ => ⟨S50x10, .f32⟩
  | .hbm, ⟨8, _⟩ => ⟨S1x10, .f32⟩
  | .hbm, ⟨9, _⟩ => ⟨S16384x784, .f32⟩
  | .hbm, ⟨10, _⟩ => ⟨S140x256, .f32⟩
  | .hbm, ⟨11, _⟩ => ⟨S_, .i32⟩
  | .hbm, ⟨12, _⟩ => ⟨S_, .f32⟩
  | .hbm, ⟨13, _⟩ => ⟨S224x256, .f32⟩
  | .hbm, ⟨14, _⟩ => ⟨S_, .i32⟩
  | .hbm, ⟨15, _⟩ => ⟨S_, .f32⟩
  | .hbm, ⟨16, _⟩ => ⟨S224x256, .f32⟩
  | .hbm, ⟨17, _⟩ => ⟨S_, .i32⟩
  | .hbm, ⟨18, _⟩ => ⟨S_, .f32⟩
  | .hbm, ⟨19, _⟩ => ⟨S224x256, .f32⟩
  | .hbm, ⟨20, _⟩ => ⟨S_, .i32⟩
  | .hbm, ⟨21, _⟩ => ⟨S_, .f32⟩
  | .hbm, ⟨22, _⟩ => ⟨S224x256, .f32⟩
  | .hbm, ⟨23, _⟩ => ⟨S224x1024, .f32⟩
  | .hbm, ⟨24, _⟩ => ⟨S224x1024, .bf16⟩
  | .hbm, ⟨25, _⟩ => ⟨S640x256, .f32⟩
  | .hbm, ⟨26, _⟩ => ⟨S_, .i32⟩
  | .hbm, ⟨27, _⟩ => ⟨S_, .f32⟩
  | .hbm, ⟨28, _⟩ => ⟨S768x256, .f32⟩
  | .hbm, ⟨29, _⟩ => ⟨S_, .i32⟩
  | .hbm, ⟨30, _⟩ => ⟨S_, .f32⟩
  | .hbm, ⟨31, _⟩ => ⟨S768x256, .f32⟩
  | .hbm, ⟨32, _⟩ => ⟨S768x512, .f32⟩
  | .hbm, ⟨33, _⟩ => ⟨S768x512, .bf16⟩
  | .hbm, ⟨34, _⟩ => ⟨S1x128, .bf16⟩
  | .hbm, ⟨35, _⟩ => ⟨S1x128, .bf16⟩
  | .hbm, ⟨36, _⟩ => ⟨S512x50, .bf16⟩
  | .hbm, ⟨37, _⟩ => ⟨S50x10, .bf16⟩
  | .hbm, ⟨38, _⟩ => ⟨S16384x10, .f32⟩
  | .local _ .vmem, ⟨0, _⟩ => ⟨S1024x784, .f32⟩
  | .local _ .vmem, ⟨1, _⟩ => ⟨S1024x784, .f32⟩
  | .local _ .vmem, ⟨2, _⟩ => ⟨S224x1024, .bf16⟩
  | .local _ .vmem, ⟨3, _⟩ => ⟨S1x128, .bf16⟩
  | .local _ .vmem, ⟨4, _⟩ => ⟨S768x512, .bf16⟩
  | .local _ .vmem, ⟨5, _⟩ => ⟨S1x128, .bf16⟩
  | .local _ .vmem, ⟨6, _⟩ => ⟨S512x50, .bf16⟩
  | .local _ .vmem, ⟨7, _⟩ => ⟨S1x50, .f32⟩
  | .local _ .vmem, ⟨8, _⟩ => ⟨S50x10, .bf16⟩
  | .local _ .vmem, ⟨9, _⟩ => ⟨S1x10, .f32⟩
  | .local _ .vmem, ⟨10, _⟩ => ⟨S1024x10, .f32⟩
  | .local _ .vmem, ⟨11, _⟩ => ⟨S1024x10, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_c_2 : Ref sig .tc := ⟨.hbm, 20, rfl⟩
abbrev main_call3_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_3 : Ref sig .tc := ⟨.hbm, 26, rfl⟩
abbrev main_call4_v0 : Ref sig .tc := ⟨.hbm, 27, rfl⟩
abbrev main_v9 : Ref sig .tc := ⟨.hbm, 28, rfl⟩
abbrev main_c_4 : Ref sig .tc := ⟨.hbm, 29, rfl⟩
abbrev main_call5_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x50 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x10 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16384x1x28x28_S16384x784 : S16384x1x28x28.ShapeCasts S16384x784
  shapeCasts_S5x28x256_S140x256 : S5x28x256.ShapeCasts S140x256
  pads_S140x256_S224x256_0840_000 : S140x256.Pads (![0, 0] : Fin 2 → Nat) ![84, 0] ![0, 0] S224x256
  h_S_ : 0 < S_.numel
  pads_S140x256_S224x256_28560_000 : S140x256.Pads (![28, 0] : Fin 2 → Nat) ![56, 0] ![0, 0] S224x256
  pads_S140x256_S224x256_56280_000 : S140x256.Pads (![56, 0] : Fin 2 → Nat) ![28, 0] ![0, 0] S224x256
  pads_S140x256_S224x256_8400_000 : S140x256.Pads (![84, 0] : Fin 2 → Nat) ![0, 0] ![0, 0] S224x256
  concatenates_S224x256_S224x256_S224x256_S224x256_S224x1024_d1 : Shape.Concatenates [S224x256, S224x256, S224x256, S224x256] S224x1024 1
  bitsLt_bf16_f32 : FTy.bits .bf16 < FTy.bits .f32
  shapeCasts_S5x128x256_S640x256 : S5x128x256.ShapeCasts S640x256
  pads_S640x256_S768x256_01280_000 : S640x256.Pads (![0, 0] : Fin 2 → Nat) ![128, 0] ![0, 0] S768x256
  pads_S640x256_S768x256_12800_000 : S640x256.Pads (![128, 0] : Fin 2 → Nat) ![0, 0] ![0, 0] S768x256
  concatenates_S768x256_S768x256_S768x512_d1 : Shape.Concatenates [S768x256, S768x256] S768x512 1
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  slices_S1024x784_o0_0_S1024x224 : S1024x784.Slices ![0, 0] S1024x224
  inb_S224x1024_S224x1024_0_0 : ∀ a, (![0, 0] : Fin 2 → Nat) a + S224x1024.size a ≤ S224x1024.size a
  h_S224x1024 : 0 < S224x1024.numel
  shapeCasts_S224x1024_S224x1024 : S224x1024.ShapeCasts S224x1024
  slices_S1024x1024_o0_0_S1024x128 : S1024x1024.Slices ![0, 0] S1024x128
  slices_S1024x1024_o0_128_S1024x128 : S1024x1024.Slices ![0, 128] S1024x128
  slices_S1024x1024_o0_256_S1024x128 : S1024x1024.Slices ![0, 256] S1024x128
  slices_S1024x1024_o0_384_S1024x128 : S1024x1024.Slices ![0, 384] S1024x128
  slices_S1024x1024_o0_512_S1024x128 : S1024x1024.Slices ![0, 512] S1024x128
  slices_S1024x1024_o0_640_S1024x128 : S1024x1024.Slices ![0, 640] S1024x128
  slices_S1024x1024_o0_768_S1024x128 : S1024x1024.Slices ![0, 768] S1024x128
  slices_S1024x1024_o0_896_S1024x128 : S1024x1024.Slices ![0, 896] S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x784_o0_112_S1024x224 : S1024x784.Slices ![0, 112] S1024x224
  slices_S1024x784_o0_224_S1024x224 : S1024x784.Slices ![0, 224] S1024x224
  slices_S1024x784_o0_336_S1024x224 : S1024x784.Slices ![0, 336] S1024x224
  slices_S1024x784_o0_448_S1024x224 : S1024x784.Slices ![0, 448] S1024x224
  slices_S1024x784_o0_560_S1024x224 : S1024x784.Slices ![0, 560] S1024x224
  concatenates_S1024x128_S1024x128_S1024x128_S1024x128_S1024x128_S1024x128_S1024x768_d1 : Shape.Concatenates [S1024x128, S1024x128, S1024x128, S1024x128, S1024x128, S1024x128] S1024x768 1
  inb_S768x512_S768x512_0_0 : ∀ a, (![0, 0] : Fin 2 → Nat) a + S768x512.size a ≤ S768x512.size a
  h_S768x512 : 0 < S768x512.numel
  shapeCasts_S768x512_S768x512 : S768x512.ShapeCasts S768x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  concatenates_S1024x128_S1024x128_S1024x128_S1024x128_S1024x512_d1 : Shape.Concatenates [S1024x128, S1024x128, S1024x128, S1024x128] S1024x512 1
  inb_S512x50_S512x50_0_0 : ∀ a, (![0, 0] : Fin 2 → Nat) a + S512x50.size a ≤ S512x50.size a
  h_S512x50 : 0 < S512x50.numel
  shapeCasts_S512x50_S512x50 : S512x50.ShapeCasts S512x50
  inb_S1x50_S1x50_0_0 : ∀ a, (![0, 0] : Fin 2 → Nat) a + S1x50.size a ≤ S1x50.size a
  h_S1x50 : 0 < S1x50.numel
  broadcasts_S1x50_S1024x50 : S1x50.Broadcasts S1024x50
  inb_S50x10_S50x10_0_0 : ∀ a, (![0, 0] : Fin 2 → Nat) a + S50x10.size a ≤ S50x10.size a
  h_S50x10 : 0 < S50x10.numel
  shapeCasts_S50x10_S50x10 : S50x10.ShapeCasts S50x10
  inb_S1x10_S1x10_0_0 : ∀ a, (![0, 0] : Fin 2 → Nat) a + S1x10.size a ≤ S1x10.size a
  h_S1x10 : 0 < S1x10.numel
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  dot_S1024x224_S224x1024_S1024x1024_1_0_0_1_n_n_wf : DotDims.WF S1024x224 S224x1024 S1024x1024 [1] [0] [0] [1] [] []
  dot_S1024x768_S768x512_S1024x512_1_0_0_1_n_n_wf : DotDims.WF S1024x768 S768x512 S1024x512 [1] [0] [0] [1] [] []
  dot_S1024x512_S512x50_S1024x50_1_0_0_1_n_n_wf : DotDims.WF S1024x512 S512x50 S1024x50 [1] [0] [0] [1] [] []
  dot_S1024x50_S50x10_S1024x10_1_0_0_1_n_n_wf : DotDims.WF S1024x50 S50x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S16384x784.size a
  hwx0_0 : ∀ i : grid0.Coords, EltTy.bits .f32 = 32 ∨ (Rect.block (s := S16384x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S224x1024.size a ≤ S224x1024.size a
  hwx0_1 : ∀ i : grid0.Coords, EltTy.bits .bf16 = 32 ∨ (Rect.block (s := S224x1024) S224x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .bf16 = 32 ∨ (Rect.block (s := S1x128) S1x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .bf16 = 32 ∨ (Rect.block (s := S768x512) S768x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .bf16 = 32 ∨ (Rect.block (s := S1x128) S1x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x50.size a ≤ S512x50.size a
  hwx0_5 : ∀ i : grid0.Coords, EltTy.bits .bf16 = 32 ∨ (Rect.block (s := S512x50) S512x50.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x10.size a ≤ S50x10.size a
  hwx0_7 : ∀ i : grid0.Coords, EltTy.bits .bf16 = 32 ∨ (Rect.block (s := S50x10) S50x10.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x10.size a ≤ S16384x10.size a
  hwx0_9 : ∀ i : grid0.Coords, EltTy.bits .f32 = 32 ∨ (Rect.block (s := S16384x10) S1024x10.size (cc0_transform_9 i) (hinb0_9 i)).WholeWords (EltTy.packing .f32)

variable [Facts₀]

def dot_S1024x224_S224x1024_S1024x1024_1_0_0_1_n_n : DotDims S1024x224 S224x1024 S1024x1024 where
  lhsContracting := [1]
  rhsContracting := [0]
  lhsNonContracting := [0]
  rhsNonContracting := [1]
  lhsBatch := []
  rhsBatch := []
  wf := dot_S1024x224_S224x1024_S1024x1024_1_0_0_1_n_n_wf
def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x512_S512x50_S1024x50_1_0_0_1_n_n : DotDims S1024x512 S512x50 S1024x50 where
  lhsContracting := [1]
  rhsContracting := [0]
  lhsNonContracting := [0]
  rhsNonContracting := [1]
  lhsBatch := []
  rhsBatch := []
  wf := dot_S1024x512_S512x50_S1024x50_1_0_0_1_n_n_wf
def dot_S1024x50_S50x10_S1024x10_1_0_0_1_n_n : DotDims S1024x50 S50x10 S1024x10 where
  lhsContracting := [1]
  rhsContracting := [0]
  lhsNonContracting := [0]
  rhsNonContracting := [1]
  lhsBatch := []
  rhsBatch := []
  wf := dot_S1024x50_S50x10_S1024x10_1_0_0_1_n_n_wf

abbrev win0_0 : Pipeline.Window sig grid0 :=
  Pipeline.Window.ofSpec (Memref.whole main_v0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S224x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S512x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S50x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1024x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1x28x28 : Shape := ⟨4, ![16384, 1, 28, 28]⟩
abbrev S5x28x256 : Shape := ⟨3, ![5, 28, 256]⟩
abbrev S1x128 : Shape := ⟨2, ![1, 128]⟩
abbrev S5x128x256 : Shape := ⟨3, ![5, 128, 256]⟩
abbrev S512x50 : Shape := ⟨2, ![512, 50]⟩
abbrev S1x50 : Shape := ⟨2, ![1, 50]⟩
abbrev S50x10 : Shape := ⟨2, ![50, 10]⟩
abbrev S1x10 : Shape := ⟨2, ![1, 10]⟩
abbrev S16384x28x28 : Shape := ⟨3, ![16384, 28, 28]⟩
abbrev S16384x12x128 : Shape := ⟨3, ![16384, 12, 128]⟩
abbrev S1x28x28 : Shape := ⟨3, ![1, 28, 28]⟩
abbrev S1x12x128 : Shape := ⟨3, ![1, 12, 128]⟩
abbrev S1x24x28 : Shape := ⟨3, ![1, 24, 28]⟩
abbrev S24x28 : Shape := ⟨2, ![24, 28]⟩
abbrev S1x28x256 : Shape := ⟨3, ![1, 28, 256]⟩
abbrev S28x256 : Shape := ⟨2, ![28, 256]⟩
abbrev S24x256 : Shape := ⟨2, ![24, 256]⟩
abbrev S24x128 : Shape := ⟨2, ![24, 128]⟩
abbrev S12x128 : Shape := ⟨2, ![12, 128]⟩
abbrev S16384x4x128 : Shape := ⟨3, ![16384, 4, 128]⟩
abbrev S1x4x128 : Shape := ⟨3, ![1, 4, 128]⟩
abbrev S1x8x128 : Shape := ⟨3, ![1, 8, 128]⟩
abbrev S8x128 : Shape := ⟨2, ![8, 128]⟩
abbrev S1x128x256 : Shape := ⟨3, ![1, 128, 256]⟩
abbrev S128x256 : Shape := ⟨2, ![128, 256]⟩
abbrev S8x256 : Shape := ⟨2, ![8, 256]⟩
abbrev S4x128 : Shape := ⟨2, ![4, 128]⟩
abbrev S16384x512 : Shape := ⟨2, ![16384, 512]⟩
abbrev S16384x10 : Shape := ⟨2, ![16384, 10]⟩
abbrev S256x512 : Shape := ⟨2, ![256, 512]⟩
abbrev S256x10 : Shape := ⟨2, ![256, 10]⟩
abbrev S256x50 : Shape := ⟨2, ![256, 50]⟩
abbrev S256 : Shape := ⟨1, ![256]⟩
abbrev S256x1 : Shape := ⟨2, ![256, 1]⟩

abbrev nBuf : Space → Nat
  | .hbm => 14
  | .vmem => 20
  | .smem => 0
  | _ => 0

abbrev bufTy : (tb : Table) → Fin (tcTables nBuf tb) → BufTy
  | .hbm, ⟨0, _⟩ => ⟨S16384x1x28x28, .f32⟩
  | .hbm, ⟨1, _⟩ => ⟨S5x28x256, .f32⟩
  | .hbm, ⟨2, _⟩ => ⟨S1x128, .f32⟩
  | .hbm, ⟨3, _⟩ => ⟨S5x128x256, .f32⟩
  | .hbm, ⟨4, _⟩ => ⟨S1x128, .f32⟩
  | .hbm, ⟨5, _⟩ => ⟨S512x50, .f32⟩
  | .hbm, ⟨6, _⟩ => ⟨S1x50, .f32⟩
  | .hbm, ⟨7, _⟩ => ⟨S50x10, .f32⟩
  | .hbm, ⟨8, _⟩ => ⟨S1x10, .f32⟩
  | .hbm, ⟨9, _⟩ => ⟨S16384x28x28, .f32⟩
  | .hbm, ⟨10, _⟩ => ⟨S16384x12x128, .f32⟩
  | .hbm, ⟨11, _⟩ => ⟨S16384x4x128, .f32⟩
  | .hbm, ⟨12, _⟩ => ⟨S16384x512, .f32⟩
  | .hbm, ⟨13, _⟩ => ⟨S16384x10, .f32⟩
  | .local _ .vmem, ⟨0, _⟩ => ⟨S1x28x28, .f32⟩
  | .local _ .vmem, ⟨1, _⟩ => ⟨S1x28x28, .f32⟩
  | .local _ .vmem, ⟨2, _⟩ => ⟨S5x28x256, .f32⟩
  | .local _ .vmem, ⟨3, _⟩ => ⟨S1x128, .f32⟩
  | .local _ .vmem, ⟨4, _⟩ => ⟨S1x12x128, .f32⟩
  | .local _ .vmem, ⟨5, _⟩ => ⟨S1x12x128, .f32⟩
  | .local _ .vmem, ⟨6, _⟩ => ⟨S1x12x128, .f32⟩
  | .local _ .vmem, ⟨7, _⟩ => ⟨S1x12x128, .f32⟩
  | .local _ .vmem, ⟨8, _⟩ => ⟨S5x128x256, .f32⟩
  | .local _ .vmem, ⟨9, _⟩ => ⟨S1x128, .f32⟩
  | .local _ .vmem, ⟨10, _⟩ => ⟨S1x4x128, .f32⟩
  | .local _ .vmem, ⟨11, _⟩ => ⟨S1x4x128, .f32⟩
  | .local _ .vmem, ⟨12, _⟩ => ⟨S256x512, .f32⟩
  | .local _ .vmem, ⟨13, _⟩ => ⟨S256x512, .f32⟩
  | .local _ .vmem, ⟨14, _⟩ => ⟨S512x50, .f32⟩
  | .local _ .vmem, ⟨15, _⟩ => ⟨S1x50, .f32⟩
  | .local _ .vmem, ⟨16, _⟩ => ⟨S50x10, .f32⟩
  | .local _ .vmem, ⟨17, _⟩ => ⟨S1x10, .f32⟩
  | .local _ .vmem, ⟨18, _⟩ => ⟨S256x10, .f32⟩
  | .local _ .vmem, ⟨19, _⟩ => ⟨S256x10, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![16384], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x28x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x12x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16384], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x12x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x4x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x50 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x50 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S50x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S16384x1x28x28_S16384x28x28 : S16384x1x28x28.ShapeCasts S16384x28x28
  inb_S1x28x28_S1x24x28_0_0_0 : ∀ a, (![0, 0, 0] : Fin 3 → Nat) a + S1x24x28.size a ≤ S1x28x28.size a
  h_S1x24x28 : 0 < S1x24x28.numel
  shapeCasts_S1x24x28_S24x28 : S1x24x28.ShapeCasts S24x28
  inb_S5x28x256_S1x28x256_0_0_0 : ∀ a, (![0, 0, 0] : Fin 3 → Nat) a + S1x28x256.size a ≤ S5x28x256.size a
  h_S1x28x256 : 0 < S1x28x256.numel
  shapeCasts_S1x28x256_S28x256 : S1x28x256.ShapeCasts S28x256
  inb_S1x28x28_S1x24x28_0_1_0 : ∀ a, (![0, 1, 0] : Fin 3 → Nat) a + S1x24x28.size a ≤ S1x28x28.size a
  inb_S5x28x256_S1x28x256_1_0_0 : ∀ a, (![1, 0, 0] : Fin 3 → Nat) a + S1x28x256.size a ≤ S5x28x256.size a
  inb_S1x28x28_S1x24x28_0_2_0 : ∀ a, (![0, 2, 0] : Fin 3 → Nat) a + S1x24x28.size a ≤ S1x28x28.size a
  inb_S5x28x256_S1x28x256_2_0_0 : ∀ a, (![2, 0, 0] : Fin 3 → Nat) a + S1x28x256.size a ≤ S5x28x256.size a
  inb_S1x28x28_S1x24x28_0_3_0 : ∀ a, (![0, 3, 0] : Fin 3 → Nat) a + S1x24x28.size a ≤ S1x28x28.size a
  inb_S5x28x256_S1x28x256_3_0_0 : ∀ a, (![3, 0, 0] : Fin 3 → Nat) a + S1x28x256.size a ≤ S5x28x256.size a
  inb_S1x28x28_S1x24x28_0_4_0 : ∀ a, (![0, 4, 0] : Fin 3 → Nat) a + S1x24x28.size a ≤ S1x28x28.size a
  inb_S5x28x256_S1x28x256_4_0_0 : ∀ a, (![4, 0, 0] : Fin 3 → Nat) a + S1x28x256.size a ≤ S5x28x256.size a
  slices_S24x256_o0_0_S24x128 : S24x256.Slices ![0, 0] S24x128
  slices_S24x256_o0_128_S24x128 : S24x256.Slices ![0, 128] S24x128
  slices_S24x128_o0_0_S1x128 : S24x128.Slices ![0, 0] S1x128
  slices_S24x128_o1_0_S1x128 : S24x128.Slices ![1, 0] S1x128
  slices_S24x128_o2_0_S1x128 : S24x128.Slices ![2, 0] S1x128
  slices_S24x128_o3_0_S1x128 : S24x128.Slices ![3, 0] S1x128
  slices_S24x128_o4_0_S1x128 : S24x128.Slices ![4, 0] S1x128
  slices_S24x128_o5_0_S1x128 : S24x128.Slices ![5, 0] S1x128
  slices_S24x128_o6_0_S1x128 : S24x128.Slices ![6, 0] S1x128
  slices_S24x128_o7_0_S1x128 : S24x128.Slices ![7, 0] S1x128
  slices_S24x128_o8_0_S1x128 : S24x128.Slices ![8, 0] S1x128
  slices_S24x128_o9_0_S1x128 : S24x128.Slices ![9, 0] S1x128
  slices_S24x128_o10_0_S1x128 : S24x128.Slices ![10, 0] S1x128
  slices_S24x128_o11_0_S1x128 : S24x128.Slices ![11, 0] S1x128
  slices_S24x128_o12_0_S1x128 : S24x128.Slices ![12, 0] S1x128
  slices_S24x128_o13_0_S1x128 : S24x128.Slices ![13, 0] S1x128
  slices_S24x128_o14_0_S1x128 : S24x128.Slices ![14, 0] S1x128
  slices_S24x128_o15_0_S1x128 : S24x128.Slices ![15, 0] S1x128
  slices_S24x128_o16_0_S1x128 : S24x128.Slices ![16, 0] S1x128
  slices_S24x128_o17_0_S1x128 : S24x128.Slices ![17, 0] S1x128
  slices_S24x128_o18_0_S1x128 : S24x128.Slices ![18, 0] S1x128
  slices_S24x128_o19_0_S1x128 : S24x128.Slices ![19, 0] S1x128
  slices_S24x128_o20_0_S1x128 : S24x128.Slices ![20, 0] S1x128
  slices_S24x128_o21_0_S1x128 : S24x128.Slices ![21, 0] S1x128
  slices_S24x128_o22_0_S1x128 : S24x128.Slices ![22, 0] S1x128
  slices_S24x128_o23_0_S1x128 : S24x128.Slices ![23, 0] S1x128
  concatenates_S1x128_S1x128_S1x128_S1x128_S1x128_S1x128_S1x128_S1x128_S1x128_S1x128_S1x128_S1x128_S12x128_d0 : Shape.Concatenates [S1x128, S1x128, S1x128, S1x128, S1x128, S1x128, S1x128, S1x128, S1x128, S1x128, S1x128, S1x128] S12x128 0
  inb_S1x128_S1x128_0_0 : ∀ a, (![0, 0] : Fin 2 → Nat) a + S1x128.size a ≤ S1x128.size a
  h_S1x128 : 0 < S1x128.numel
  broadcasts_S1x128_S12x128 : S1x128.Broadcasts S12x128
  inb_S1x12x128_S1x12x128_0_0_0 : ∀ a, (![0, 0, 0] : Fin 3 → Nat) a + S1x12x128.size a ≤ S1x12x128.size a
  h_S1x12x128 : 0 < S1x12x128.numel
  shapeCasts_S1x12x128_S12x128 : S1x12x128.ShapeCasts S12x128
  shapeCasts_S12x128_S1x12x128 : S12x128.ShapeCasts S1x12x128
  inb_S1x12x128_S1x8x128_0_0_0 : ∀ a, (![0, 0, 0] : Fin 3 → Nat) a + S1x8x128.size a ≤ S1x12x128.size a
  h_S1x8x128 : 0 < S1x8x128.numel
  shapeCasts_S1x8x128_S8x128 : S1x8x128.ShapeCasts S8x128
  inb_S5x128x256_S1x128x256_0_0_0 : ∀ a, (![0, 0, 0] : Fin 3 → Nat) a + S1x128x256.size a ≤ S5x128x256.size a
  h_S1x128x256 : 0 < S1x128x256.numel
  shapeCasts_S1x128x256_S128x256 : S1x128x256.ShapeCasts S128x256
  inb_S1x12x128_S1x8x128_0_1_0 : ∀ a, (![0, 1, 0] : Fin 3 → Nat) a + S1x8x128.size a ≤ S1x12x128.size a
  inb_S5x128x256_S1x128x256_1_0_0 : ∀ a, (![1, 0, 0] : Fin 3 → Nat) a + S1x128x256.size a ≤ S5x128x256.size a
  inb_S1x12x128_S1x8x128_0_2_0 : ∀ a, (![0, 2, 0] : Fin 3 → Nat) a + S1x8x128.size a ≤ S1x12x128.size a
  inb_S5x128x256_S1x128x256_2_0_0 : ∀ a, (![2, 0, 0] : Fin 3 → Nat) a + S1x128x256.size a ≤ S5x128x256.size a
  inb_S1x12x128_S1x8x128_0_3_0 : ∀ a, (![0, 3, 0] : Fin 3 → Nat) a + S1x8x128.size a ≤ S1x12x128.size a
  inb_S5x128x256_S1x128x256_3_0_0 : ∀ a, (![3, 0, 0] : Fin 3 → Nat) a + S1x128x256.size a ≤ S5x128x256.size a
  inb_S1x12x128_S1x8x128_0_4_0 : ∀ a, (![0, 4, 0] : Fin 3 → Nat) a + S1x8x128.size a ≤ S1x12x128.size a
  inb_S5x128x256_S1x128x256_4_0_0 : ∀ a, (![4, 0, 0] : Fin 3 → Nat) a + S1x128x256.size a ≤ S5x128x256.size a
  slices_S8x256_o0_0_S8x128 : S8x256.Slices ![0, 0] S8x128
  slices_S8x256_o0_128_S8x128 : S8x256.Slices ![0, 128] S8x128
  slices_S8x128_o0_0_S1x128 : S8x128.Slices ![0, 0] S1x128
  slices_S8x128_o1_0_S1x128 : S8x128.Slices ![1, 0] S1x128
  slices_S8x128_o2_0_S1x128 : S8x128.Slices ![2, 0] S1x128
  slices_S8x128_o3_0_S1x128 : S8x128.Slices ![3, 0] S1x128
  slices_S8x128_o4_0_S1x128 : S8x128.Slices ![4, 0] S1x128
  slices_S8x128_o5_0_S1x128 : S8x128.Slices ![5, 0] S1x128
  slices_S8x128_o6_0_S1x128 : S8x128.Slices ![6, 0] S1x128
  slices_S8x128_o7_0_S1x128 : S8x128.Slices ![7, 0] S1x128
  concatenates_S1x128_S1x128_S1x128_S1x128_S4x128_d0 : Shape.Concatenates [S1x128, S1x128, S1x128, S1x128] S4x128 0
  broadcasts_S1x128_S4x128 : S1x128.Broadcasts S4x128
  inb_S1x4x128_S1x4x128_0_0_0 : ∀ a, (![0, 0, 0] : Fin 3 → Nat) a + S1x4x128.size a ≤ S1x4x128.size a
  h_S1x4x128 : 0 < S1x4x128.numel
  shapeCasts_S1x4x128_S4x128 : S1x4x128.ShapeCasts S4x128
  shapeCasts_S4x128_S1x4x128 : S4x128.ShapeCasts S1x4x128
  shapeCasts_S16384x4x128_S16384x512 : S16384x4x128.ShapeCasts S16384x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x50_S512x50_0_0 : ∀ a, (![0, 0] : Fin 2 → Nat) a + S512x50.size a ≤ S512x50.size a
  h_S512x50 : 0 < S512x50.numel
  inb_S1x50_S1x50_0_0 : ∀ a, (![0, 0] : Fin 2 → Nat) a + S1x50.size a ≤ S1x50.size a
  h_S1x50 : 0 < S1x50.numel
  broadcasts_S1x50_S256x50 : S1x50.Broadcasts S256x50
  inb_S50x10_S50x10_0_0 : ∀ a, (![0, 0] : Fin 2 → Nat) a + S50x10.size a ≤ S50x10.size a
  h_S50x10 : 0 < S50x10.numel
  inb_S1x10_S1x10_0_0 : ∀ a, (![0, 0] : Fin 2 → Nat) a + S1x10.size a ≤ S1x10.size a
  h_S1x10 : 0 < S1x10.numel
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  dot_S24x28_S28x256_S24x256_1_0_0_1_n_n_wf : DotDims.WF S24x28 S28x256 S24x256 [1] [0] [0] [1] [] []
  dot_S8x128_S128x256_S8x256_1_0_0_1_n_n_wf : DotDims.WF S8x128 S128x256 S8x256 [1] [0] [0] [1] [] []
  dot_S256x512_S512x50_S256x50_1_0_0_1_n_n_wf : DotDims.WF S256x512 S512x50 S256x50 [1] [0] [0] [1] [] []
  dot_S256x50_S50x10_S256x10_1_0_0_1_n_n_wf : DotDims.WF S256x50 S50x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x28x28.size a ≤ S16384x28x28.size a
  hwx0_0 : ∀ i : grid0.Coords, EltTy.bits .f32 = 32 ∨ (Rect.block (s := S16384x28x28) S1x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x28x256.size a ≤ S5x28x256.size a
  hwx0_1 : ∀ i : grid0.Coords, EltTy.bits .f32 = 32 ∨ (Rect.block (s := S5x28x256) S5x28x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12x128.size a ≤ S16384x12x128.size a
  hwx0_3 : ∀ i : grid0.Coords, EltTy.bits .f32 = 32 ∨ (Rect.block (s := S16384x12x128) S1x12x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x12x128.size a ≤ S16384x12x128.size a
  hwx1_0 : ∀ i : grid1.Coords, EltTy.bits .f32 = 32 ∨ (Rect.block (s := S16384x12x128) S1x12x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x128x256.size a ≤ S5x128x256.size a
  hwx1_1 : ∀ i : grid1.Coords, EltTy.bits .f32 = 32 ∨ (Rect.block (s := S5x128x256) S5x128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4x128.size a ≤ S16384x4x128.size a
  hwx1_3 : ∀ i : grid1.Coords, EltTy.bits .f32 = 32 ∨ (Rect.block (s := S16384x4x128) S1x4x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S16384x512.size a
  hwx2_0 : ∀ i : grid2.Coords, EltTy.bits .f32 = 32 ∨ (Rect.block (s := S16384x512) S256x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x50.size a ≤ S512x50.size a
  hwx2_1 : ∀ i : grid2.Coords, EltTy.bits .f32 = 32 ∨ (Rect.block (s := S512x50) S512x50.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x50.size a ≤ S1x50.size a
  hwx2_2 : ∀ i : grid2.Coords, EltTy.bits .f32 = 32 ∨ (Rect.block (s := S1x50) S1x50.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S50x10.size a ≤ S50x10.size a
  hwx2_3 : ∀ i : grid2.Coords, EltTy.bits .f32 = 32 ∨ (Rect.block (s := S50x10) S50x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x10.size a ≤ S16384x10.size a
  hwx2_5 : ∀ i : grid2.Coords, EltTy.bits .f32 = 32 ∨ (Rect.block (s := S16384x10) S256x10.size (cc2_transform_5 i) (hinb2_5 i)).WholeWords (EltTy.packing .f32)

variable [Facts₀]

def dot_S24x28_S28x256_S24x256_1_0_0_1_n_n : DotDims S24x28 S28x256 S24x256 where
  lhsContracting := [1]
  rhsContracting := [0]
  lhsNonContracting := [0]
  rhsNonContracting := [1]
  lhsBatch := []
  rhsBatch := []
  wf := dot_S24x28_S28x256_S24x256_1_0_0_1_n_n_wf
def dot_S8x128_S128x256_S8x256_1_0_0_1_n_n : DotDims S8x128 S128x256 S8x256 where
  lhsContracting := [1]
  rhsContracting := [0]
  lhsNonContracting := [0]
  rhsNonContracting := [1]
  lhsBatch := []
  rhsBatch := []
  wf := dot_S8x128_S128x256_S8x256_1_0_0_1_n_n_wf
def dot_S256x512_S512x50_S256x50_1_0_0_1_n_n : DotDims S256x512 S512x50 S256x50 where
  lhsContracting := [1]
  rhsContracting := [0]
  lhsNonContracting := [0]
  rhsNonContracting := [1]
  lhsBatch := []
  rhsBatch := []
  wf := dot_S256x512_S512x50_S256x50_1_0_0_1_n_n_wf
def dot_S256x50_S50x10_S256x10_1_0_0_1_n_n : DotDims S256x50 S50x10 S256x10 where
  lhsContracting := [1]
  rhsContracting := [0]
  lhsNonContracting := [0]
  rhsNonContracting := [1]
  lhsBatch := []
  rhsBatch := []
  wf := dot_S256x50_S50x10_S256x10_1_0_0_1_n_n_wf

abbrev win0_0 : Pipeline.Window sig grid0 :=
  Pipeline.Window.ofSpec (Memref.whole main_v0) S1x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x28x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x12x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x12x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5x128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x4x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x50.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1x50.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S50x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S256x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== Proof.KernelFrame.lean ====
/-
  The frame of the fused LeNet kernel: @main is thirteen stretches of host operations (two reshapes, six zero paddings
  of the stacked filter taps by row shifts, two concatenations of the shifted copies along the columns, and the format
  changes of the weights and biases) followed by ONE pipelined region over 16 blocks of 1024 images.  The region's body
  loads its nine input blocks whole, computes, and stores its one output block whole; nothing is kept between grid
  points.  So after the body the output's staging buffer holds ONE function of the nine input blocks (`blockValue`), the
  inputs' buffers hold their blocks, and the pipeline's run leaves every argument array as it was launched.
-/
import proofs.«104378_g2000603622679809_pallasbulk_1028_50_alg».proof.Proof.Gen.Kernel.Launch
import proofs.«104378_g2000603622679809_pallasbulk_1028_50_alg».proof.Proof.Gen.Kernel.Skeleton
import proofs.«104378_g2000603622679809_pallasbulk_1028_50_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The thirteen stretches of host operations before the region, in order. -/
abbrev stretches : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12]

/-- The TensorCore's buffers when the region is entered: the launch memory after every host operation. -/
abbrev V (c : Dev nD) (b : Ref sig .tc) : Buf (Elt F) ((c : Thread nD τ).loc b) :=
  StableHlo.after (List.flatten (stretches (F := F))) (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
   hostOps0_7_sub, hostOps0_8_sub, hostOps0_9_sub, hostOps0_10_sub, hostOps0_11_sub, hostOps0_12_sub⟩

theorem stretches_fresh : (stretches (F := F)).Forall fun ops => ops.Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => (main_chain c).trans rfl)

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- The arguments end as launched: the two the pipeline stages itself (the fc biases, inputs of the region) by the
    library's reading of an input array, the seven it never touches by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).1 8).trans (((dats 0 c).arrAt_in 8 rfl _).trans ((hA c 8).trans (V_main_arg8 m c)))⟩) h

/-! ## The body's accesses: every load and the one store take a whole buffer -/

abbrev rw_S1024x784 : Rect S1024x784 := Rect.unit (s := S1024x784) ![0, 0] S1024x784.size inb_S1024x784_S1024x784_0_0
abbrev rw_S224x1024 : Rect S224x1024 := Rect.unit (s := S224x1024) ![0, 0] S224x1024.size inb_S224x1024_S224x1024_0_0
abbrev rw_S1x128 : Rect S1x128 := Rect.unit (s := S1x128) ![0, 0] S1x128.size inb_S1x128_S1x128_0_0
abbrev rw_S768x512 : Rect S768x512 := Rect.unit (s := S768x512) ![0, 0] S768x512.size inb_S768x512_S768x512_0_0
abbrev rw_S512x50 : Rect S512x50 := Rect.unit (s := S512x50) ![0, 0] S512x50.size inb_S512x50_S512x50_0_0
abbrev rw_S1x50 : Rect S1x50 := Rect.unit (s := S1x50) ![0, 0] S1x50.size inb_S1x50_S1x50_0_0
abbrev rw_S50x10 : Rect S50x10 := Rect.unit (s := S50x10) ![0, 0] S50x10.size inb_S50x10_S50x10_0_0
abbrev rw_S1x10 : Rect S1x10 := Rect.unit (s := S1x10) ![0, 0] S1x10.size inb_S1x10_S1x10_0_0
abbrev rw_S1024x10 : Rect S1024x10 := Rect.unit (s := S1024x10) ![0, 0] S1024x10.size inb_S1024x10_S1024x10_0_0

/-! ## What the body computes -/

/-- The value the body stores, as one function of its nine loads: the image block `x0`, the shifted conv1 filters `x1`
    and bias `x2`, the shifted conv2 filters `x3` and bias `x4`, and the two dense layers `x5`, `x6`, `x7`, `x8`.
    The intermediate values are named as in the printed program: `v27 … v182`, `v188` are the twelve pooled rows of
    conv1 (`v26`-style names of the two rows of each of the six groups), `v206`, `v224` the first two pooled rows of
    conv2, and the last payload holds the other two, the dense layers and the log-softmax. -/
def blockValue (x0 : Vec F S1024x784 .f32) (x1 : Vec F S224x1024 .bf16) (x2 : Vec F S1x128 .bf16) (x3 : Vec F S768x512 .bf16)
    (x4 : Vec F S1x128 .bf16) (x5 : Vec F S512x50 .bf16) (x6 : Vec F S1x50 .f32) (x7 : Vec F S50x10 .bf16) (x8 : Vec F S1x10 .f32) :
    Vec F S1024x10 .f32 :=
  k0_pay1
    (k0_pay31 (k0_pay16 (k0_pay2 x0) x1 x2) (k0_pay17 (k0_pay2 x0) x1 x2)
      (k0_pay21 (k0_pay19 (k0_pay2 x0) x1) (k0_pay20 (k0_pay2 x0) x1) x2) (k0_pay22 (k0_pay18 (k0_pay2 x0) x1) x2)
      (k0_pay25 (k0_pay2 x0) x1 x2) (k0_pay26 (k0_pay24 (k0_pay2 x0) x1) x2)
      (k0_pay27 (k0_pay4 x0 x1 x2) (k0_pay5 x0 x1 x2) (k0_pay9 (k0_pay7 x0 x1) (k0_pay8 x0 x1) x2) (k0_pay10 (k0_pay6 x0 x1) x2)
        (k0_pay13 (k0_pay2 x0) x1 x2) (k0_pay14 (k0_pay12 (k0_pay2 x0) x1) x2) x3 x4)
      (k0_pay28 (k0_pay9 (k0_pay7 x0 x1) (k0_pay8 x0 x1) x2) (k0_pay10 (k0_pay6 x0 x1) x2)
        (k0_pay13 (k0_pay2 x0) x1 x2) (k0_pay14 (k0_pay12 (k0_pay2 x0) x1) x2)
        (k0_pay16 (k0_pay2 x0) x1 x2) (k0_pay17 (k0_pay2 x0) x1 x2) x3 x4)
      (k0_pay29 (k0_pay13 (k0_pay2 x0) x1 x2) (k0_pay14 (k0_pay12 (k0_pay2 x0) x1) x2)
        (k0_pay16 (k0_pay2 x0) x1 x2) (k0_pay17 (k0_pay2 x0) x1 x2)
        (k0_pay21 (k0_pay19 (k0_pay2 x0) x1) (k0_pay20 (k0_pay2 x0) x1) x2) (k0_pay22 (k0_pay18 (k0_pay2 x0) x1) x2))
      (k0_pay30 x3) (constant S1024x512 .f32 0x00000000#32) x4 x3 x4 x5 x6)
    x7 x8

/-- The output window's staging buffer after the body, from the nine input blocks: its one store. -/
def out9 (x0 : Vec F S1024x784 .f32) (x1 : Vec F S224x1024 .bf16) (x2 : Vec F S1x128 .bf16) (x3 : Vec F S768x512 .bf16) (x4 : Vec F S1x128 .bf16) (x5 : Vec F S512x50 .bf16) (x6 : Vec F S1x50 .f32) (x7 : Vec F S50x10 .bf16) (x8 : Vec F S1x10 .f32) : Vec F S1024x10 .f32 :=
  View.canon [⟨rw_S1024x10, blockValue (View.ld x0 rw_S1024x784) (View.ld x1 rw_S224x1024) (View.ld x2 rw_S1x128) (View.ld x3 rw_S768x512) (View.ld x4 rw_S1x128) (View.ld x5 rw_S512x50) (View.ld x6 rw_S1x50) (View.ld x7 rw_S50x10) (View.ld x8 rw_S1x10)⟩]

/-- The one store covers the buffer. -/
theorem cover9 (p0 : Vec F S1024x10 .f32) (y : S1024x10.Idx) :
    ∃ pc ∈ ([⟨rw_S1024x10, p0⟩] : List (View.Piece (Elt F) S1024x10 .f32)), y ∈ pc.1.set :=
  View.cover_of_tiled [⟨rw_S1024x10, p0⟩] S1024x10.size (by rfl) y

/-! ## The body's triple -/

set_option maxHeartbeats 4000000 in
/-- The body on whole staging buffers, the inputs' at contents `xK` and the output's at anything, runs to the
    continuation with the inputs' as they were and the output's at `out9` of them. -/
theorem sound_kernel (c : Dev nD) (E : Set ℕ) (i : grid0.Coords) (arg1 : Memref sig .tc .vmem S1024x784 .f32) (harg1 : arg1.IsWhole) (arg2 : Memref sig .tc .vmem S224x1024 .bf16) (harg2 : arg2.IsWhole) (arg3 : Memref sig .tc .vmem S1x128 .bf16) (harg3 : arg3.IsWhole) (arg4 : Memref sig .tc .vmem S768x512 .bf16) (harg4 : arg4.IsWhole) (arg5 : Memref sig .tc .vmem S1x128 .bf16) (harg5 : arg5.IsWhole) (arg6 : Memref sig .tc .vmem S512x50 .bf16) (harg6 : arg6.IsWhole) (arg7 : Memref sig .tc .vmem S1x50 .f32) (harg7 : arg7.IsWhole) (arg8 : Memref sig .tc .vmem S50x10 .bf16) (harg8 : arg8.IsWhole) (arg9 : Memref sig .tc .vmem S1x10 .f32) (harg9 : arg9.IsWhole) (arg10 : Memref sig .tc .vmem S1024x10 .f32) (harg10 : arg10.IsWhole)
    (x0 : Vec F S1024x784 .f32) (x1 : Vec F S224x1024 .bf16) (x2 : Vec F S1x128 .bf16) (x3 : Vec F S768x512 .bf16) (x4 : Vec F S1x128 .bf16) (x5 : Vec F S512x50 .bf16) (x6 : Vec F S1x50 .f32) (x7 : Vec F S50x10 .bf16) (x8 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  unfold out9 blockValue
  exact View.read_writes_eq_canon _ _ _ (cover9 _)

/-! ## The pipeline's proof data -/

/-- The arrays as the region finds them; after the body at point `t` each input's buffer at its block and the output's
    at `out9` of the input blocks; the invariant the untouched scoped rest and generator register; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d
theorem before8 (c : Dev nD) (t : Fin cfg0.N) (d) : (dats m 0 c).before 8 t d = iblk m c 8 t :=
  before_in8 m (dats m 0 c) (A_eq m c 8) (after8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Fr

end
-- ==== Proof.KernelIdealFrame.lean ====
/-
  The frame of the fused LeNet kernel: @main is thirteen stretches of host operations (two reshapes, six zero paddings
  of the stacked filter taps by row shifts, two concatenations of the shifted copies along the columns, and the format
  changes of the weights and biases) followed by ONE pipelined region over 16 blocks of 1024 images.  The region's body
  loads its nine input blocks whole, computes, and stores its one output block whole; nothing is kept between grid
  points.  So after the body the output's staging buffer holds ONE function of the nine input blocks (`blockValue`), the
  inputs' buffers hold their blocks, and the pipeline's run leaves every argument array as it was launched.
-/
import proofs.«104378_g2000603622679809_pallasbulk_1028_50_alg».proof.Proof.Gen.KernelIdeal.Launch
import proofs.«104378_g2000603622679809_pallasbulk_1028_50_alg».proof.Proof.Gen.KernelIdeal.Skeleton
import proofs.«104378_g2000603622679809_pallasbulk_1028_50_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The thirteen stretches of host operations before the region, in order. -/
abbrev stretches : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12]

/-- The TensorCore's buffers when the region is entered: the launch memory after every host operation. -/
abbrev V (c : Dev nD) (b : Ref sig .tc) : Buf (Elt F) ((c : Thread nD τ).loc b) :=
  StableHlo.after (List.flatten (stretches (F := F))) (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
   hostOps0_7_sub, hostOps0_8_sub, hostOps0_9_sub, hostOps0_10_sub, hostOps0_11_sub, hostOps0_12_sub⟩

theorem stretches_fresh : (stretches (F := F)).Forall fun ops => ops.Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => (main_chain c).trans rfl)

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [stretches, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- The arguments end as launched: the two the pipeline stages itself (the fc biases, inputs of the region) by the
    library's reading of an input array, the seven it never touches by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats 0 c).arrAt_in 6 rfl _).trans ((hA c 6).trans (V_main_arg6 m c))),
      ((h c).2 main_arg7 (Pipeline.mem_restRefs_of main_arg7 (by decide) (by decide))).trans (V_main_arg7 m c),
      ((h c).1 8).trans (((dats 0 c).arrAt_in 8 rfl _).trans ((hA c 8).trans (V_main_arg8 m c)))⟩) h

/-! ## The body's accesses: every load and the one store take a whole buffer -/

abbrev rw_S1024x784 : Rect S1024x784 := Rect.unit (s := S1024x784) ![0, 0] S1024x784.size inb_S1024x784_S1024x784_0_0
abbrev rw_S224x1024 : Rect S224x1024 := Rect.unit (s := S224x1024) ![0, 0] S224x1024.size inb_S224x1024_S224x1024_0_0
abbrev rw_S1x128 : Rect S1x128 := Rect.unit (s := S1x128) ![0, 0] S1x128.size inb_S1x128_S1x128_0_0
abbrev rw_S768x512 : Rect S768x512 := Rect.unit (s := S768x512) ![0, 0] S768x512.size inb_S768x512_S768x512_0_0
abbrev rw_S512x50 : Rect S512x50 := Rect.unit (s := S512x50) ![0, 0] S512x50.size inb_S512x50_S512x50_0_0
abbrev rw_S1x50 : Rect S1x50 := Rect.unit (s := S1x50) ![0, 0] S1x50.size inb_S1x50_S1x50_0_0
abbrev rw_S50x10 : Rect S50x10 := Rect.unit (s := S50x10) ![0, 0] S50x10.size inb_S50x10_S50x10_0_0
abbrev rw_S1x10 : Rect S1x10 := Rect.unit (s := S1x10) ![0, 0] S1x10.size inb_S1x10_S1x10_0_0
abbrev rw_S1024x10 : Rect S1024x10 := Rect.unit (s := S1024x10) ![0, 0] S1024x10.size inb_S1024x10_S1024x10_0_0

/-! ## What the body computes -/

/-- The value the body stores, as one function of its nine loads: the image block `x0`, the shifted conv1 filters `x1`
    and bias `x2`, the shifted conv2 filters `x3` and bias `x4`, and the two dense layers `x5`, `x6`, `x7`, `x8`.
    The intermediate values are named as in the printed program: `v27 … v182`, `v188` are the twelve pooled rows of
    conv1 (`v26`-style names of the two rows of each of the six groups), `v206`, `v224` the first two pooled rows of
    conv2, and the last payload holds the other two, the dense layers and the log-softmax. -/
def blockValue (x0 : Vec F S1024x784 .f32) (x1 : Vec F S224x1024 .bf16) (x2 : Vec F S1x128 .bf16) (x3 : Vec F S768x512 .bf16)
    (x4 : Vec F S1x128 .bf16) (x5 : Vec F S512x50 .bf16) (x6 : Vec F S1x50 .f32) (x7 : Vec F S50x10 .bf16) (x8 : Vec F S1x10 .f32) :
    Vec F S1024x10 .f32 :=
  k0_pay1
    (k0_pay31 (k0_pay16 (k0_pay2 x0) x1 x2) (k0_pay17 (k0_pay2 x0) x1 x2)
      (k0_pay21 (k0_pay19 (k0_pay2 x0) x1) (k0_pay20 (k0_pay2 x0) x1) x2) (k0_pay22 (k0_pay18 (k0_pay2 x0) x1) x2)
      (k0_pay25 (k0_pay2 x0) x1 x2) (k0_pay26 (k0_pay24 (k0_pay2 x0) x1) x2)
      (k0_pay27 (k0_pay4 x0 x1 x2) (k0_pay5 x0 x1 x2) (k0_pay9 (k0_pay7 x0 x1) (k0_pay8 x0 x1) x2) (k0_pay10 (k0_pay6 x0 x1) x2)
        (k0_pay13 (k0_pay2 x0) x1 x2) (k0_pay14 (k0_pay12 (k0_pay2 x0) x1) x2) x3 x4)
      (k0_pay28 (k0_pay9 (k0_pay7 x0 x1) (k0_pay8 x0 x1) x2) (k0_pay10 (k0_pay6 x0 x1) x2)
        (k0_pay13 (k0_pay2 x0) x1 x2) (k0_pay14 (k0_pay12 (k0_pay2 x0) x1) x2)
        (k0_pay16 (k0_pay2 x0) x1 x2) (k0_pay17 (k0_pay2 x0) x1 x2) x3 x4)
      (k0_pay29 (k0_pay13 (k0_pay2 x0) x1 x2) (k0_pay14 (k0_pay12 (k0_pay2 x0) x1) x2)
        (k0_pay16 (k0_pay2 x0) x1 x2) (k0_pay17 (k0_pay2 x0) x1 x2)
        (k0_pay21 (k0_pay19 (k0_pay2 x0) x1) (k0_pay20 (k0_pay2 x0) x1) x2) (k0_pay22 (k0_pay18 (k0_pay2 x0) x1) x2))
      (k0_pay30 x3) (constant S1024x512 .f32 0x00000000#32) x4 x3 x4 x5 x6)
    x7 x8

/-- The output window's staging buffer after the body, from the nine input blocks: its one store. -/
def out9 (x0 : Vec F S1024x784 .f32) (x1 : Vec F S224x1024 .bf16) (x2 : Vec F S1x128 .bf16) (x3 : Vec F S768x512 .bf16) (x4 : Vec F S1x128 .bf16) (x5 : Vec F S512x50 .bf16) (x6 : Vec F S1x50 .f32) (x7 : Vec F S50x10 .bf16) (x8 : Vec F S1x10 .f32) : Vec F S1024x10 .f32 :=
  View.canon [⟨rw_S1024x10, blockValue (View.ld x0 rw_S1024x784) (View.ld x1 rw_S224x1024) (View.ld x2 rw_S1x128) (View.ld x3 rw_S768x512) (View.ld x4 rw_S1x128) (View.ld x5 rw_S512x50) (View.ld x6 rw_S1x50) (View.ld x7 rw_S50x10) (View.ld x8 rw_S1x10)⟩]

/-- The one store covers the buffer. -/
theorem cover9 (p0 : Vec F S1024x10 .f32) (y : S1024x10.Idx) :
    ∃ pc ∈ ([⟨rw_S1024x10, p0⟩] : List (View.Piece (Elt F) S1024x10 .f32)), y ∈ pc.1.set :=
  View.cover_of_tiled [⟨rw_S1024x10, p0⟩] S1024x10.size (by rfl) y

/-! ## The body's triple -/

set_option maxHeartbeats 4000000 in
/-- The body on whole staging buffers, the inputs' at contents `xK` and the output's at anything, runs to the
    continuation with the inputs' as they were and the output's at `out9` of them. -/
theorem sound_kernel (c : Dev nD) (E : Set ℕ) (i : grid0.Coords) (arg1 : Memref sig .tc .vmem S1024x784 .f32) (harg1 : arg1.IsWhole) (arg2 : Memref sig .tc .vmem S224x1024 .bf16) (harg2 : arg2.IsWhole) (arg3 : Memref sig .tc .vmem S1x128 .bf16) (harg3 : arg3.IsWhole) (arg4 : Memref sig .tc .vmem S768x512 .bf16) (harg4 : arg4.IsWhole) (arg5 : Memref sig .tc .vmem S1x128 .bf16) (harg5 : arg5.IsWhole) (arg6 : Memref sig .tc .vmem S512x50 .bf16) (harg6 : arg6.IsWhole) (arg7 : Memref sig .tc .vmem S1x50 .f32) (harg7 : arg7.IsWhole) (arg8 : Memref sig .tc .vmem S50x10 .bf16) (harg8 : arg8.IsWhole) (arg9 : Memref sig .tc .vmem S1x10 .f32) (harg9 : arg9.IsWhole) (arg10 : Memref sig .tc .vmem S1024x10 .f32) (harg10 : arg10.IsWhole)
    (x0 : Vec F S1024x784 .f32) (x1 : Vec F S224x1024 .bf16) (x2 : Vec F S1x128 .bf16) (x3 : Vec F S768x512 .bf16) (x4 : Vec F S1x128 .bf16) (x5 : Vec F S512x50 .bf16) (x6 : Vec F S1x50 .f32) (x7 : Vec F S50x10 .bf16) (x8 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  unfold out9 blockValue
  exact View.read_writes_eq_canon _ _ _ (cover9 _)

/-! ## The pipeline's proof data -/

/-- The arrays as the region finds them; after the body at point `t` each input's buffer at its block and the output's
    at `out9` of the input blocks; the invariant the untouched scoped rest and generator register; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d
theorem before8 (c : Dev nD) (t : Fin cfg0.N) (d) : (dats m 0 c).before 8 t d = iblk m c 8 t :=
  before_in8 m (dats m 0 c) (A_eq m c 8) (after8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Fr

end
-- ==== Proof.KernelIdealValue.lean ====
/-
  The kernel's run with its result named: after the pipeline's run the output array holds what the sixteen
  write-backs leave in it, and every argument is as launched.
-/
import proofs.«104378_g2000603622679809_pallasbulk_1028_50_alg».proof.Proof.KernelIdealFrame
import Idealize.ShloMosaic.Lib.Pipeline.Value

set_option maxRecDepth 16384

noncomputable section

namespace Cert.KernelIdeal.KValue

open Cert.KernelIdeal Cert.KernelIdeal.Gen Cert.KernelIdeal.Fr Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The run, with the result array at what the write-backs leave and the nine arguments unchanged. -/
theorem run_value : θ_run defs (onTc (τ := τ) (main (F := F))) ⟨m, fun _ => 0, ρ⟩ (fun r => ∀ c : Dev nD,
      r.2.mem ((c.tc : Thread nD τ).loc main_v17) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 9,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c)))⟩) (run_main m ρ)

end Cert.KernelIdeal.KValue

end
-- ==== Proof.RefRun.lean ====
/-
  The reference's run with its result named.  @main is a reshape of the images to [16384, 28, 28], the conv1 call
  (one image per grid point), the conv2 call (one image per grid point), a reshape of its [16384, 4, 128] result to
  [16384, 512], and the dense-head call (256 rows per grid point).  The run's post keeps, beside the arguments, the
  result buffer at the contents the last call's write-backs leave.
-/
import proofs.«104378_g2000603622679809_pallasbulk_1028_50_alg».proof.Proof.Gen.ReferenceIdeal.Frame

set_option maxRecDepth 16384

noncomputable section

namespace Cert.ReferenceIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference's @main terminates; the result buffer ends at what the dense-head
    call's write-backs leave in it (`W5` at the result: the last region's output array), and the arguments as launched. -/
theorem run_value : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

/-- The result buffer is the dense-head call's output array: what its 64 write-backs leave. -/
theorem result_is_head_output (c : Dev nD) :
    W5 m ρ c (Proc.devRef .tc main_v4) = (dat2 (V4 m ρ) c).arrAt 5 cfg2.N :=
  W5_arr m ρ c 5

end Cert.ReferenceIdeal.RefValue

end
-- ==== Proof.LibEntry.lean ====
/-
  Entries of matrices and rank-3 arrays by natural-number coordinates (zero outside the array), so that index
  arithmetic is arithmetic of naturals.
-/
import Idealize.ShloMosaic.Lib.ValueIdx

noncomputable section

namespace Idealize.ShloMosaic

open Idealize.ShloMosaic.ValueIdx

/-- Entry `(a, b)` of a matrix by natural-number coordinates, zero outside the matrix. -/
def N2 {n0 n1 : Nat} (A : (⟨2, ![n0, n1]⟩ : Shape).Idx → EReal) (a b : ℕ) : EReal :=
  if h : a < n0 ∧ b < n1 then A (ix2 ⟨a, h.1⟩ ⟨b, h.2⟩) else 0

theorem N2_ix2 {n0 n1 : Nat} (A : (⟨2, ![n0, n1]⟩ : Shape).Idx → EReal) (a : Fin n0) (b : Fin n1) :
    A (ix2 a b) = N2 A a.val b.val := by
  unfold N2; rw [dif_pos ⟨a.isLt, b.isLt⟩]

theorem N2_mk {n0 n1 : Nat} (A : (⟨2, ![n0, n1]⟩ : Shape).Idx → EReal) (a b : ℕ) (ha : a < n0) (hb : b < n1) :
    A (ix2 ⟨a, ha⟩ ⟨b, hb⟩) = N2 A a b := by
  unfold N2; rw [dif_pos ⟨ha, hb⟩]

/-- Entry `(a, b, c)` of a rank-3 array by natural-number coordinates, zero outside the array. -/
def N3 {n0 n1 n2 : Nat} (A : (⟨3, ![n0, n1, n2]⟩ : Shape).Idx → EReal) (a b c : ℕ) : EReal :=
  if h : a < n0 ∧ b < n1 ∧ c < n2 then A (ix3 ⟨a, h.1⟩ ⟨b, h.2.1⟩ ⟨c, h.2.2⟩) else 0

theorem N3_ix3 {n0 n1 n2 : Nat} (A : (⟨3, ![n0, n1, n2]⟩ : Shape).Idx → EReal) (a : Fin n0) (b : Fin n1) (c : Fin n2) :
    A (ix3 a b c) = N3 A a.val b.val c.val := by
  unfold N3; rw [dif_pos ⟨a.isLt, b.isLt, c.isLt⟩]

theorem N3_mk {n0 n1 n2 : Nat} (A : (⟨3, ![n0, n1, n2]⟩ : Shape).Idx → EReal) (a b c : ℕ) (ha : a < n0) (hb : b < n1) (hc : c < n2) :
    A (ix3 ⟨a, ha⟩ ⟨b, hb⟩ ⟨c, hc⟩) = N3 A a b c := by
  unfold N3; rw [dif_pos ⟨ha, hb, hc⟩]

/-- Entry `(a, 0, c, d)` of a rank-4 array whose second axis is a unit axis, by natural-number coordinates. -/
def N4u {n0 n2 n3 : Nat} (A : (⟨4, ![n0, 1, n2, n3]⟩ : Shape).Idx → EReal) (a c d : ℕ) : EReal :=
  if h : a < n0 ∧ c < n2 ∧ d < n3 then A (ix4 ⟨a, h.1⟩ (0 : Fin 1) ⟨c, h.2.1⟩ ⟨d, h.2.2⟩) else 0

theorem N4u_mk {n0 n2 n3 : Nat} (A : (⟨4, ![n0, 1, n2, n3]⟩ : Shape).Idx → EReal) (a c d : ℕ) (ha : a < n0) (hc : c < n2) (hd : d < n3) :
    A (ix4 ⟨a, ha⟩ (0 : Fin 1) ⟨c, hc⟩ ⟨d, hd⟩) = N4u A a c d := by
  unfold N4u; rw [dif_pos ⟨ha, hc, hd⟩]

end Idealize.ShloMosaic

end
-- ==== Proof.LibPlainProduct.lean ====
/-
  The plain matrix product `[m, k] × [k, n] → [m, n]` (dimension numbers: contract the left operand's axis 1 with the
  right operand's axis 0, no batch axis), read at an entry at the ideal values, for ANY record with those dimension
  numbers whatever its well-formedness proof: a `tpu.matmul` into the zero accumulator and the host's `dot_general` are
  both `Σ_c A(a, c) · B(c, b)` over the literal range `Fin k`. General lemmas in the library's style
  (Lib/StackMember.lean states the same for the record `DotDims.plain`).
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {m k n : Nat} {φ₁ φ₂ : FTy}

/-- The plain product's record, from its well-formedness. -/
abbrev rec2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output entry `(a, b)` and contraction coordinate `c` is `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rec2 w).lhsIdx (ix2 a b) ((contrEquiv1 (rec2 w) k rfl rfl).symm c) = ix2 a c := by
  have c2 := contrEquiv1_symm_val (rec2 w) k rfl rfl c
  funext ax; apply Fin.ext
  match ax with
  | ⟨0, _⟩ => simp [DotDims.lhsIdx]; rfl
  | ⟨1, _⟩ => simp [DotDims.lhsIdx]; exact c2

/-- The right operand's index there is `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rec2 w).rhsIdx (ix2 a b) ((contrEquiv1 (rec2 w) k rfl rfl).symm c) = ix2 c b := by
  have c2 := contrEquiv1_symm_val (rec2 w) k rfl rfl c
  funext ax; apply Fin.ext
  match ax with
  | ⟨0, _⟩ => simp [DotDims.rhsIdx]; exact c2
  | ⟨1, _⟩ => simp [DotDims.rhsIdx]; rfl

/-- A `tpu.matmul` with these dimension numbers into the zero accumulator, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (rec2 w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rec2 w) k rfl rfl).symm]
  refine Finset.sum_congr rfl fun c _ => ?_
  rw [lhsIdx_eq, rhsIdx_eq]

/-- The host's `dot_general` with these dimension numbers, at entry `(a, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (rec2 w) prec A B (ix2 a b) = ∑ c : Fin k, A (ix2 a c) * B (ix2 c b) := by
  show FloatOps.dotGeneral _ prec _ A B (ix2 a b) = _
  rw [Ideal.dotGeneral_apply, ← Equiv.sum_comp (contrEquiv1 (rec2 w) k rfl rfl).symm]
  refine Finset.sum_congr rfl fun c _ => ?_
  rw [lhsIdx_eq, rhsIdx_eq]

end Idealize.ShloMosaic.PlainProduct

end
-- ==== Proof.LibColsSlice.lean ====
/-
  A slice of consecutive columns of a matrix, read at one entry. General in the extents and in the element type.

  Columns `o` to `o + w` of a matrix `[R, C]`, all rows: entry `(a, b)` is the matrix's entry `(a, o + b)`.
  The companion of the row form (consecutive rows, all columns).
-/
import Idealize.ShloMosaic.Lib.Pipeline.Value
import Idealize.ShloMosaic.Lib.ValueIdx

noncomputable section

namespace Cert.ColsSlice

open Idealize.ShloMosaic Idealize.ShloMosaic.ValueIdx

variable {α : Type}

/-- Columns `o` to `o + w` of a matrix `[R, C]`, all rows, read at `(a, b)`, are the matrix at `(a, o + b)`. -/
theorem cols_slice_apply {R C w o : Nat} (x : (⟨2, ![R, C]⟩ : Shape).Idx → α)
    (h : (⟨2, ![R, C]⟩ : Shape).Slices ![0, o] ⟨2, ![R, w]⟩) (hb : o + w ≤ C) (a : Fin R) (b : Fin w) :
    extractStridedSlice ⟨2, ![R, w]⟩ ![0, o] x h (ix2 a b)
      = x (ix2 a (⟨o + b.val, by have := b.isLt; omega⟩ : Fin C)) :=
  extractStridedSlice_apply ![0, o] x h (ix2 a b) (ix2 a (⟨o + b.val, by have := b.isLt; omega⟩ : Fin C))
    (fun c => match c with
      | ⟨0, _⟩ => by show a.val = 0 + a.val; omega
      | ⟨1, _⟩ => rfl)

end Cert.ColsSlice

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.KernelRows1.lean ====
/-
  The fused kernel's body read at one entry of its output block, at the ideal values: first layer.
  Row `r` of the block is one image, flat (lane 28·row + column).  The conv1 accumulator of row group `g` is the
  product of lanes 112·g … 112·g + 223 of the image with the shifted filters; a pooled row is the maximum of four
  128-lane slices of it, plus the bias, clamped below at zero.
-/
import proofs.«104378_g2000603622679809_pallasbulk_1028_50_alg».proof.Proof.Gen.KernelIdeal.Skeleton
import proofs.«104378_g2000603622679809_pallasbulk_1028_50_alg».proof.Proof.LibEntry
import proofs.«104378_g2000603622679809_pallasbulk_1028_50_alg».proof.Proof.LibPlainProduct
import proofs.«104378_g2000603622679809_pallasbulk_1028_50_alg».proof.Proof.LibColsSlice
import proofs.«104378_g2000603622679809_pallasbulk_1028_50_alg».proof.Proof.LibBroadcastTo
import Idealize.ShloMosaic.Lib.Pipeline.Value
import Idealize.ShloMosaic.Lib.ValueIdx

set_option maxRecDepth 16384

noncomputable section

open scoped BigOperators

namespace Cert.KernelIdeal.Rd

open Idealize.ShloMosaic Idealize.ShloMosaic.ValueIdx Cert.KernelIdeal Cert.KernelIdeal.Gen Finset

/-- The image block under the format change is the image block. -/
theorem pay2_eq (x0 : S1024x784.Idx → EReal) : k0_pay2 (F := Ideal) x0 = x0 := by
  funext i
  show shapeCast S1024x784 x0 shapeCasts_S1024x784_S1024x784 i = x0 i
  rw [shapeCast_self]

/-- The conv1 accumulator of the row group whose lanes start at `o`, for an image given by its lanes `img` and a filter
    matrix given by its entries `W`: at lane `c` the sum over the 224 lanes. -/
def acc1 (img : ℕ → EReal) (W : ℕ → ℕ → EReal) (o c : ℕ) : EReal :=
  ∑ k ∈ range 224, img (o + k) * W k c

theorem acc1_apply (o : ℕ) (ho : o + 224 ≤ 784) (hs : S1024x784.Slices ![0, o] S1024x224)
    (x : S1024x784.Idx → EReal) (w : S224x1024.Idx → EReal) (r : Fin 1024) (c : Fin 1024) :
    (truncf .bf16 (matmul dot_S1024x224_S224x1024_S1024x1024_1_0_0_1_n_n none
        (extractStridedSlice S1024x224 ![0, o] x hs : FVec Ideal S1024x224 .bf16)
        (shapeCast S224x1024 w shapeCasts_S224x1024_S224x1024 : FVec Ideal S224x1024 .bf16)
        (constant S1024x1024 .f32 0x00000000#32)) bitsLt_bf16_f32 : FVec Ideal S1024x1024 .bf16) (ix2 r c)
      = acc1 (N2 x r.val) (N2 w) o c.val := by
  rw [truncf_apply, shapeCast_self]
  rw [show dot_S1024x224_S224x1024_S1024x1024_1_0_0_1_n_n = PlainProduct.rec2 dot_S1024x224_S224x1024_S1024x1024_1_0_0_1_n_n_wf from rfl,
    PlainProduct.matmul_zero_apply]
  unfold acc1
  rw [← Fin.sum_univ_eq_sum_range (fun k => N2 x r.val (o + k) * N2 w k c.val) 224]
  refine Finset.sum_congr rfl fun k _ => ?_
  rw [ColsSlice.cols_slice_apply x hs ho r k]
  exact congrArg₂ (· * ·) (N2_mk x r.val (o + k.val) r.isLt _) (N2_ix2 w k c)

theorem sl8_0 (A : S1024x1024.Idx → EReal) (r : Fin 1024) (l : Fin 128) :
    extractStridedSlice S1024x128 ![0, 0] A slices_S1024x1024_o0_0_S1024x128 (ix2 r l) = N2 A r.val (0 + l.val) := by
  rw [ColsSlice.cols_slice_apply A _ (by norm_num) r l]
  exact N2_mk A r.val _ r.isLt _
theorem sl8_128 (A : S1024x1024.Idx → EReal) (r : Fin 1024) (l : Fin 128) :
    extractStridedSlice S1024x128 ![0, 128] A slices_S1024x1024_o0_128_S1024x128 (ix2 r l) = N2 A r.val (128 + l.val) := by
  rw [ColsSlice.cols_slice_apply A _ (by norm_num) r l]
  exact N2_mk A r.val _ r.isLt _
theorem sl8_256 (A : S1024x1024.Idx → EReal) (r : Fin 1024) (l : Fin 128) :
    extractStridedSlice S1024x128 ![0, 256] A slices_S1024x1024_o0_256_S1024x128 (ix2 r l) = N2 A r.val (256 + l.val) := by
  rw [ColsSlice.cols_slice_apply A _ (by norm_num) r l]
  exact N2_mk A r.val _ r.isLt _
theorem sl8_384 (A : S1024x1024.Idx → EReal) (r : Fin 1024) (l : Fin 128) :
    extractStridedSlice S1024x128 ![0, 384] A slices_S1024x1024_o0_384_S1024x128 (ix2 r l) = N2 A r.val (384 + l.val) := by
  rw [ColsSlice.cols_slice_apply A _ (by norm_num) r l]
  exact N2_mk A r.val _ r.isLt _
theorem sl8_512 (A : S1024x1024.Idx → EReal) (r : Fin 1024) (l : Fin 128) :
    extractStridedSlice S1024x128 ![0, 512] A slices_S1024x1024_o0_512_S1024x128 (ix2 r l) = N2 A r.val (512 + l.val) := by
  rw [ColsSlice.cols_slice_apply A _ (by norm_num) r l]
  exact N2_mk A r.val _ r.isLt _
theorem sl8_640 (A : S1024x1024.Idx → EReal) (r : Fin 1024) (l : Fin 128) :
    extractStridedSlice S1024x128 ![0, 640] A slices_S1024x1024_o0_640_S1024x128 (ix2 r l) = N2 A r.val (640 + l.val) := by
  rw [ColsSlice.cols_slice_apply A _ (by norm_num) r l]
  exact N2_mk A r.val _ r.isLt _
theorem sl8_768 (A : S1024x1024.Idx → EReal) (r : Fin 1024) (l : Fin 128) :
    extractStridedSlice S1024x128 ![0, 768] A slices_S1024x1024_o0_768_S1024x128 (ix2 r l) = N2 A r.val (768 + l.val) := by
  rw [ColsSlice.cols_slice_apply A _ (by norm_num) r l]
  exact N2_mk A r.val _ r.isLt _
theorem sl8_896 (A : S1024x1024.Idx → EReal) (r : Fin 1024) (l : Fin 128) :
    extractStridedSlice S1024x128 ![0, 896] A slices_S1024x1024_o0_896_S1024x128 (ix2 r l) = N2 A r.val (896 + l.val) := by
  rw [ColsSlice.cols_slice_apply A _ (by norm_num) r l]
  exact N2_mk A r.val _ r.isLt _

/-- A bias row under its own-shape cast, broadcast down the 1024 rows. -/
theorem bias_apply (b : S1x128.Idx → EReal) (r : Fin 1024) (l : Fin 128) :
    broadcastTo S1024x128 (shapeCast S1x128 b shapeCasts_S1x128_S1x128) broadcasts_S1x128_S1024x128 (ix2 r l) = N2 b 0 l.val := by
  rw [shapeCast_self, BroadcastTo.row_apply]
  exact N2_ix2 b 0 l

theorem N2_acc1 (o : ℕ) (ho : o + 224 ≤ 784) (hs : S1024x784.Slices ![0, o] S1024x224)
    (x : S1024x784.Idx → EReal) (w : S224x1024.Idx → EReal) (r : Fin 1024) (c : ℕ) (hc : c < 1024) :
    N2 (truncf .bf16 (matmul dot_S1024x224_S224x1024_S1024x1024_1_0_0_1_n_n none
        (extractStridedSlice S1024x224 ![0, o] x hs : FVec Ideal S1024x224 .bf16)
        (shapeCast S224x1024 w shapeCasts_S224x1024_S224x1024 : FVec Ideal S224x1024 .bf16)
        (constant S1024x1024 .f32 0x00000000#32)) bitsLt_bf16_f32 : FVec Ideal S1024x1024 .bf16) r.val c
      = acc1 (N2 x r.val) (N2 w) o c :=
  (N2_mk _ r.val c r.isLt hc).symm.trans (acc1_apply o ho hs x w r ⟨c, hc⟩)

/-- A pooled row from an accumulator `A` (by entries): the maximum of its four 128-lane slices starting at lanes
    `o0 … o3`, plus the bias, clamped below at the zero word. -/
def pooled (A : ℕ → EReal) (B : ℕ → EReal) (o0 o1 o2 o3 l : ℕ) : EReal :=
  max (max (max (A (o0 + l)) (A (o1 + l))) (max (A (o2 + l)) (A (o3 + l))) + B l) (Ideal.ofBits .bf16 0x0000#16)

/-- Pooled row 0 of the first layer: row group 0, first half of its lanes. -/
theorem y1row0 (x0 : S1024x784.Idx → EReal) (x1 : S224x1024.Idx → EReal) (x2 : S1x128.Idx → EReal) (r : Fin 1024) (l : Fin 128) :
    (k0_pay4 (F := Ideal) x0 x1 x2) (ix2 r l) = pooled (acc1 (N2 x0 r.val) (N2 x1) 0) (N2 x2 0) 0 128 256 384 l.val := by
  unfold k0_pay4 k0_pay3
  simp only [maximumf_apply, addf_apply, ValueIdx.broadcast_apply, bias_apply, sl8_0, sl8_128, sl8_256, sl8_384, pay2_eq]
  have hl := l.isLt
  rw [N2_acc1 0 (by norm_num) slices_S1024x784_o0_0_S1024x224 x0 x1 r (0 + l.val) (by omega),
    N2_acc1 0 (by norm_num) slices_S1024x784_o0_0_S1024x224 x0 x1 r (128 + l.val) (by omega),
    N2_acc1 0 (by norm_num) slices_S1024x784_o0_0_S1024x224 x0 x1 r (256 + l.val) (by omega),
    N2_acc1 0 (by norm_num) slices_S1024x784_o0_0_S1024x224 x0 x1 r (384 + l.val) (by omega)]
  rfl

/-- Pooled row 1 of the first layer: row group 0, second half of its lanes. -/
theorem y1row1 (x0 : S1024x784.Idx → EReal) (x1 : S224x1024.Idx → EReal) (x2 : S1x128.Idx → EReal) (r : Fin 1024) (l : Fin 128) :
    (k0_pay5 (F := Ideal) x0 x1 x2) (ix2 r l) = pooled (acc1 (N2 x0 r.val) (N2 x1) 0) (N2 x2 0) 512 640 768 896 l.val := by
  unfold k0_pay5 k0_pay3
  simp only [maximumf_apply, addf_apply, ValueIdx.broadcast_apply, bias_apply, sl8_512, sl8_640, sl8_768, sl8_896, pay2_eq]
  have hl := l.isLt
  rw [N2_acc1 0 (by norm_num) slices_S1024x784_o0_0_S1024x224 x0 x1 r (512 + l.val) (by omega),
    N2_acc1 0 (by norm_num) slices_S1024x784_o0_0_S1024x224 x0 x1 r (640 + l.val) (by omega),
    N2_acc1 0 (by norm_num) slices_S1024x784_o0_0_S1024x224 x0 x1 r (768 + l.val) (by omega),
    N2_acc1 0 (by norm_num) slices_S1024x784_o0_0_S1024x224 x0 x1 r (896 + l.val) (by omega)]
  rfl

/-- Pooled row 2 of the first layer: row group 1, first half of its lanes. -/
theorem y1row2 (x0 : S1024x784.Idx → EReal) (x1 : S224x1024.Idx → EReal) (x2 : S1x128.Idx → EReal) (r : Fin 1024) (l : Fin 128) :
    (k0_pay9 (F := Ideal) (k0_pay7 x0 x1) (k0_pay8 x0 x1) x2) (ix2 r l) = pooled (acc1 (N2 x0 r.val) (N2 x1) 112) (N2 x2 0) 0 128 256 384 l.val := by
  unfold k0_pay9 k0_pay7 k0_pay8 k0_pay6
  simp only [maximumf_apply, addf_apply, ValueIdx.broadcast_apply, bias_apply, sl8_0, sl8_128, sl8_256, sl8_384, pay2_eq]
  have hl := l.isLt
  rw [N2_acc1 112 (by norm_num) slices_S1024x784_o0_112_S1024x224 x0 x1 r (0 + l.val) (by omega),
    N2_acc1 112 (by norm_num) slices_S1024x784_o0_112_S1024x224 x0 x1 r (128 + l.val) (by omega),
    N2_acc1 112 (by norm_num) slices_S1024x784_o0_112_S1024x224 x0 x1 r (256 + l.val) (by omega),
    N2_acc1 112 (by norm_num) slices_S1024x784_o0_112_S1024x224 x0 x1 r (384 + l.val) (by omega)]
  rfl

/-- Pooled row 3 of the first layer: row group 1, second half of its lanes. -/
theorem y1row3 (x0 : S1024x784.Idx → EReal) (x1 : S224x1024.Idx → EReal) (x2 : S1x128.Idx → EReal) (r : Fin 1024) (l : Fin 128) :
    (k0_pay10 (F := Ideal) (k0_pay6 x0 x1) x2) (ix2 r l) = pooled (acc1 (N2 x0 r.val) (N2 x1) 112) (N2 x2 0) 512 640 768 896 l.val := by
  unfold k0_pay10 k0_pay6
  simp only [maximumf_apply, addf_apply, ValueIdx.broadcast_apply, bias_apply, sl8_512, sl8_640, sl8_768, sl8_896, pay2_eq]
  have hl := l.isLt
  rw [N2_acc1 112 (by norm_num) slices_S1024x784_o0_112_S1024x224 x0 x1 r (512 + l.val) (by omega),
    N2_acc1 112 (by norm_num) slices_S1024x784_o0_112_S1024x224 x0 x1 r (640 + l.val) (by omega),
    N2_acc1 112 (by norm_num) slices_S1024x784_o0_112_S1024x224 x0 x1 r (768 + l.val) (by omega),
    N2_acc1 112 (by norm_num) slices_S1024x784_o0_112_S1024x224 x0 x1 r (896 + l.val) (by omega)]
  rfl

/-- Pooled row 4 of the first layer: row group 2, first half of its lanes. -/
theorem y1row4 (x0 : S1024x784.Idx → EReal) (x1 : S224x1024.Idx → EReal) (x2 : S1x128.Idx → EReal) (r : Fin 1024) (l : Fin 128) :
    (k0_pay13 (F := Ideal) (k0_pay2 x0) x1 x2) (ix2 r l) = pooled (acc1 (N2 x0 r.val) (N2 x1) 224) (N2 x2 0) 0 128 256 384 l.val := by
  unfold k0_pay13 k0_pay11
  simp only [maximumf_apply, addf_apply, ValueIdx.broadcast_apply, bias_apply, sl8_0, sl8_128, sl8_256, sl8_384, pay2_eq]
  have hl := l.isLt
  rw [N2_acc1 224 (by norm_num) slices_S1024x784_o0_224_S1024x224 x0 x1 r (0 + l.val) (by omega),
    N2_acc1 224 (by norm_num) slices_S1024x784_o0_224_S1024x224 x0 x1 r (128 + l.val) (by omega),
    N2_acc1 224 (by norm_num) slices_S1024x784_o0_224_S1024x224 x0 x1 r (256 + l.val) (by omega),
    N2_acc1 224 (by norm_num) slices_S1024x784_o0_224_S1024x224 x0 x1 r (384 + l.val) (by omega)]
  rfl

/-- Pooled row 5 of the first layer: row group 2, second half of its lanes. -/
theorem y1row5 (x0 : S1024x784.Idx → EReal) (x1 : S224x1024.Idx → EReal) (x2 : S1x128.Idx → EReal) (r : Fin 1024) (l : Fin 128) :
    (k0_pay14 (F := Ideal) (k0_pay12 (k0_pay2 x0) x1) x2) (ix2 r l) = pooled (acc1 (N2 x0 r.val) (N2 x1) 224) (N2 x2 0) 512 640 768 896 l.val := by
  unfold k0_pay14 k0_pay12 k0_pay11
  simp only [maximumf_apply, addf_apply, ValueIdx.broadcast_apply, bias_apply, sl8_512, sl8_640, sl8_768, sl8_896, pay2_eq]
  have hl := l.isLt
  rw [N2_acc1 224 (by norm_num) slices_S1024x784_o0_224_S1024x224 x0 x1 r (512 + l.val) (by omega),
    N2_acc1 224 (by norm_num) slices_S1024x784_o0_224_S1024x224 x0 x1 r (640 + l.val) (by omega),
    N2_acc1 224 (by norm_num) slices_S1024x784_o0_224_S1024x224 x0 x1 r (768 + l.val) (by omega),
    N2_acc1 224 (by norm_num) slices_S1024x784_o0_224_S1024x224 x0 x1 r (896 + l.val) (by omega)]
  rfl

/-- Pooled row 6 of the first layer: row group 3, first half of its lanes. -/
theorem y1row6 (x0 : S1024x784.Idx → EReal) (x1 : S224x1024.Idx → EReal) (x2 : S1x128.Idx → EReal) (r : Fin 1024) (l : Fin 128) :
    (k0_pay16 (F := Ideal) (k0_pay2 x0) x1 x2) (ix2 r l) = pooled (acc1 (N2 x0 r.val) (N2 x1) 336) (N2 x2 0) 0 128 256 384 l.val := by
  unfold k0_pay16 k0_pay15
  simp only [maximumf_apply, addf_apply, ValueIdx.broadcast_apply, bias_apply, sl8_0, sl8_128, sl8_256, sl8_384, pay2_eq]
  have hl := l.isLt
  rw [N2_acc1 336 (by norm_num) slices_S1024x784_o0_336_S1024x224 x0 x1 r (0 + l.val) (by omega),
    N2_acc1 336 (by norm_num) slices_S1024x784_o0_336_S1024x224 x0 x1 r (128 + l.val) (by omega),
    N2_acc1 336 (by norm_num) slices_S1024x784_o0_336_S1024x224 x0 x1 r (256 + l.val) (by omega),
    N2_acc1 336 (by norm_num) slices_S1024x784_o0_336_S1024x224 x0 x1 r (384 + l.val) (by omega)]
  rfl

/-- Pooled row 7 of the first layer: row group 3, second half of its lanes. -/
theorem y1row7 (x0 : S1024x784.Idx → EReal) (x1 : S224x1024.Idx → EReal) (x2 : S1x128.Idx → EReal) (r : Fin 1024) (l : Fin 128) :
    (k0_pay17 (F := Ideal) (k0_pay2 x0) x1 x2) (ix2 r l) = pooled (acc1 (N2 x0 r.val) (N2 x1) 336) (N2 x2 0) 512 640 768 896 l.val := by
  unfold k0_pay17 k0_pay15
  simp only [maximumf_apply, addf_apply, ValueIdx.broadcast_apply, bias_apply, sl8_512, sl8_640, sl8_768, sl8_896, pay2_eq]
  have hl := l.isLt
  rw [N2_acc1 336 (by norm_num) slices_S1024x784_o0_336_S1024x224 x0 x1 r (512 + l.val) (by omega),
    N2_acc1 336 (by norm_num) slices_S1024x784_o0_336_S1024x224 x0 x1 r (640 + l.val) (by omega),
    N2_acc1 336 (by norm_num) slices_S1024x784_o0_336_S1024x224 x0 x1 r (768 + l.val) (by omega),
    N2_acc1 336 (by norm_num) slices_S1024x784_o0_336_S1024x224 x0 x1 r (896 + l.val) (by omega)]
  rfl

/-- Pooled row 8 of the first layer: row group 4, first half of its lanes. -/
theorem y1row8 (x0 : S1024x784.Idx → EReal) (x1 : S224x1024.Idx → EReal) (x2 : S1x128.Idx → EReal) (r : Fin 1024) (l : Fin 128) :
    (k0_pay21 (F := Ideal) (k0_pay19 (k0_pay2 x0) x1) (k0_pay20 (k0_pay2 x0) x1) x2) (ix2 r l) = pooled (acc1 (N2 x0 r.val) (N2 x1) 448) (N2 x2 0) 0 128 256 384 l.val := by
  unfold k0_pay21 k0_pay19 k0_pay20 k0_pay18
  simp only [maximumf_apply, addf_apply, ValueIdx.broadcast_apply, bias_apply, sl8_0, sl8_128, sl8_256, sl8_384, pay2_eq]
  have hl := l.isLt
  rw [N2_acc1 448 (by norm_num) slices_S1024x784_o0_448_S1024x224 x0 x1 r (0 + l.val) (by omega),
    N2_acc1 448 (by norm_num) slices_S1024x784_o0_448_S1024x224 x0 x1 r (128 + l.val) (by omega),
    N2_acc1 448 (by norm_num) slices_S1024x784_o0_448_S1024x224 x0 x1 r (256 + l.val) (by omega),
    N2_acc1 448 (by norm_num) slices_S1024x784_o0_448_S1024x224 x0 x1 r (384 + l.val) (by omega)]
  rfl

/-- Pooled row 9 of the first layer: row group 4, second half of its lanes. -/
theorem y1row9 (x0 : S1024x784.Idx → EReal) (x1 : S224x1024.Idx → EReal) (x2 : S1x128.Idx → EReal) (r : Fin 1024) (l : Fin 128) :
    (k0_pay22 (F := Ideal) (k0_pay18 (k0_pay2 x0) x1) x2) (ix2 r l) = pooled (acc1 (N2 x0 r.val) (N2 x1) 448) (N2 x2 0) 512 640 768 896 l.val := by
  unfold k0_pay22 k0_pay18
  simp only [maximumf_apply, addf_apply, ValueIdx.broadcast_apply, bias_apply, sl8_512, sl8_640, sl8_768, sl8_896, pay2_eq]
  have hl := l.isLt
  rw [N2_acc1 448 (by norm_num) slices_S1024x784_o0_448_S1024x224 x0 x1 r (512 + l.val) (by omega),
    N2_acc1 448 (by norm_num) slices_S1024x784_o0_448_S1024x224 x0 x1 r (640 + l.val) (by omega),
    N2_acc1 448 (by norm_num) slices_S1024x784_o0_448_S1024x224 x0 x1 r (768 + l.val) (by omega),
    N2_acc1 448 (by norm_num) slices_S1024x784_o0_448_S1024x224 x0 x1 r (896 + l.val) (by omega)]
  rfl

/-- Pooled row 10 of the first layer: row group 5, first half of its lanes. -/
theorem y1row10 (x0 : S1024x784.Idx → EReal) (x1 : S224x1024.Idx → EReal) (x2 : S1x128.Idx → EReal) (r : Fin 1024) (l : Fin 128) :
    (k0_pay25 (F := Ideal) (k0_pay2 x0) x1 x2) (ix2 r l) = pooled (acc1 (N2 x0 r.val) (N2 x1) 560) (N2 x2 0) 0 128 256 384 l.val := by
  unfold k0_pay25 k0_pay23
  simp only [maximumf_apply, addf_apply, ValueIdx.broadcast_apply, bias_apply, sl8_0, sl8_128, sl8_256, sl8_384, pay2_eq]
  have hl := l.isLt
  rw [N2_acc1 560 (by norm_num) slices_S1024x784_o0_560_S1024x224 x0 x1 r (0 + l.val) (by omega),
    N2_acc1 560 (by norm_num) slices_S1024x784_o0_560_S1024x224 x0 x1 r (128 + l.val) (by omega),
    N2_acc1 560 (by norm_num) slices_S1024x784_o0_560_S1024x224 x0 x1 r (256 + l.val) (by omega),
    N2_acc1 560 (by norm_num) slices_S1024x784_o0_560_S1024x224 x0 x1 r (384 + l.val) (by omega)]
  rfl

/-- Pooled row 11 of the first layer: row group 5, second half of its lanes. -/
theorem y1row11 (x0 : S1024x784.Idx → EReal) (x1 : S224x1024.Idx → EReal) (x2 : S1x128.Idx → EReal) (r : Fin 1024) (l : Fin 128) :
    (k0_pay26 (F := Ideal) (k0_pay24 (k0_pay2 x0) x1) x2) (ix2 r l) = pooled (acc1 (N2 x0 r.val) (N2 x1) 560) (N2 x2 0) 512 640 768 896 l.val := by
  unfold k0_pay26 k0_pay24 k0_pay23
  simp only [maximumf_apply, addf_apply, ValueIdx.broadcast_apply, bias_apply, sl8_512, sl8_640, sl8_768, sl8_896, pay2_eq]
  have hl := l.isLt
  rw [N2_acc1 560 (by norm_num) slices_S1024x784_o0_560_S1024x224 x0 x1 r (512 + l.val) (by omega),
    N2_acc1 560 (by norm_num) slices_S1024x784_o0_560_S1024x224 x0 x1 r (640 + l.val) (by omega),
    N2_acc1 560 (by norm_num) slices_S1024x784_o0_560_S1024x224 x0 x1 r (768 + l.val) (by omega),
    N2_acc1 560 (by norm_num) slices_S1024x784_o0_560_S1024x224 x0 x1 r (896 + l.val) (by omega)]
  rfl

end Cert.KernelIdeal.Rd

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.LibRowSum.lean ====
/-
  A sum along the rows of a matrix, read at one entry.

  The vector unit's sum over axis 1 of an m×n matrix (from a zero accumulator) is, at row `a`, the sum of the
  entries of that row. The companion of the column form (a sum over axis 0), general in the two extents.
-/
import Idealize.ShloMosaic.PureOps.Ideal.Laws
import Idealize.ShloMosaic.Lib.ValueIdx

noncomputable section

namespace LibRowSum

open Idealize.ShloMosaic Idealize.ShloMosaic.ValueIdx
open scoped BigOperators

variable {m n : Nat}

/-- The source index of a row sum: column `k` of row `a`. -/
theorem lift_row (h : (⟨2, ![m, n]⟩ : Shape).Reduces [1] ⟨1, ![m]⟩) (a : Fin m) (k : Fin n) :
    h.lift (ix1 a) k = ix2 a k := by
  funext c
  apply Fin.ext
  match c with
  | ⟨0, _⟩ => rfl
  | ⟨1, _⟩ => rfl

/-- The sum over axis 1 of an m×n matrix at row `a`: the sum along the row. The accumulator hypothesis is the
    equation of the two zero words. -/
theorem multiReduction_add_row (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (a : Fin m) :
    multiReduction .add [1] ⟨1, ![m]⟩ src 0x00000000#32 h hφ hacc (ix1 a) = ∑ k : Fin n, src (ix2 a k) := by
  refine (Ideal.multiReduction_add_single src 0x00000000#32 h hφ hacc (ix1 a)).trans ?_
  show ∑ k : Fin n, src (h.lift (ix1 a) k) = _
  exact Finset.sum_congr rfl fun k _ => congrArg src (lift_row h a k)

end LibRowSum

end
-- ==== Proof.LibDenseHead.lean ====
/-
  A dense layer and a row-wise log-softmax read at one entry, at the ideal values, general in the number of rows.

  * a plain product `[m, K] × [K, n]` into zero plus a bias row `[1, n]` broadcast down the rows: entry `(r, j)` is
    `Σ_k A(r, k) · W(k, j) + b(0, j)`;
  * the maximum along a row from the `-∞` word: the fold of `max` over the row's entries;
  * `z - max z - log Σ exp(z - max z)` along the rows of an `[m, 10]` matrix: entry `(r, j)` is that expression of row `r`.
-/
import proofs.«104378_g2000603622679809_pallasbulk_1028_50_alg».proof.Proof.LibEntry
import proofs.«104378_g2000603622679809_pallasbulk_1028_50_alg».proof.Proof.LibPlainProduct
import proofs.«104378_g2000603622679809_pallasbulk_1028_50_alg».proof.Proof.LibBroadcastTo
import proofs.«104378_g2000603622679809_pallasbulk_1028_50_alg».proof.Proof.LibLayoutReads
import proofs.«104378_g2000603622679809_pallasbulk_1028_50_alg».proof.Proof.LibRowSum
import Idealize.ShloMosaic.Lib.Pipeline.Value

noncomputable section

open scoped BigOperators

namespace DenseHead

open Idealize.ShloMosaic Idealize.ShloMosaic.ValueIdx Finset

theorem exp_apply {s : Shape} {φ : FTy} (x : FVec Ideal s φ) (i : s.Idx) : exp x i = FloatOps.exp (x i) := rfl
theorem log_apply {s : Shape} {φ : FTy} (x : FVec Ideal s φ) (i : s.Idx) : log x i = FloatOps.log (x i) := rfl

variable {m K n : Nat}

/-- The product of row `r` of `A` with column `j` of `W`, by entries. -/
def dot (A : ℕ → EReal) (W : ℕ → ℕ → EReal) (K j : ℕ) : EReal := ∑ k ∈ range K, A k * W k j

theorem dot_congr {A A' : ℕ → EReal} {K : ℕ} (h : ∀ k, k < K → A k = A' k) (W : ℕ → ℕ → EReal) (j : ℕ) : dot A W K j = dot A' W K j :=
  Finset.sum_congr rfl fun k hk => by rw [h k (Finset.mem_range.mp hk)]

/-- A plain product into zero, at an entry, by entries. -/
theorem matmul_entry {φ₁ φ₂ : FTy} (w : DotDims.WF ⟨2, ![m, K]⟩ ⟨2, ![K, n]⟩ ⟨2, ![m, n]⟩ [1] [0] [0] [1] [] [])
    (A : FVec Ideal ⟨2, ![m, K]⟩ φ₁) (W : FVec Ideal ⟨2, ![K, n]⟩ φ₂) (r : Fin m) (j : Fin n) :
    matmul (PlainProduct.rec2 w) none A W (constant (F := Ideal) ⟨2, ![m, n]⟩ .f32 0x00000000#32) (ix2 r j)
      = dot (N2 A r.val) (N2 W) K j.val := by
  rw [PlainProduct.matmul_zero_apply]
  unfold dot
  rw [← Fin.sum_univ_eq_sum_range (fun k => N2 A r.val k * N2 W k j.val) K]
  exact Finset.sum_congr rfl fun k _ => congrArg₂ (· * ·) (N2_ix2 A r k) (N2_ix2 W k j)

/-- The same read by natural-number coordinates. -/
theorem N2_matmul {φ₁ φ₂ : FTy} (w : DotDims.WF ⟨2, ![m, K]⟩ ⟨2, ![K, n]⟩ ⟨2, ![m, n]⟩ [1] [0] [0] [1] [] [])
    (A : FVec Ideal ⟨2, ![m, K]⟩ φ₁) (W : FVec Ideal ⟨2, ![K, n]⟩ φ₂) (r : Fin m) (c : ℕ) (hc : c < n) :
    N2 (matmul (PlainProduct.rec2 w) none A W (constant (F := Ideal) ⟨2, ![m, n]⟩ .f32 0x00000000#32)) r.val c
      = dot (N2 A r.val) (N2 W) K c :=
  (N2_mk _ r.val c r.isLt hc).symm.trans (matmul_entry w A W r ⟨c, hc⟩)

/-- A bias row broadcast down the rows, at an entry. -/
theorem bias_entry (b : (⟨2, ![1, n]⟩ : Shape).Idx → EReal) (h : (⟨2, ![1, n]⟩ : Shape).Broadcasts ⟨2, ![m, n]⟩)
    (r : Fin m) (j : Fin n) : broadcastTo ⟨2, ![m, n]⟩ b h (ix2 r j) = N2 b 0 j.val := by
  rw [Cert.BroadcastTo.row_apply]; exact N2_ix2 b 0 j

/-- The maximum along row `a` from the `-∞` word: the fold of `max` over the row's entries. -/
def rowMax (n : ℕ) (z : ℕ → EReal) : EReal :=
  (Finset.univ : Finset (Fin n)).fold max (FloatOps.ofBits (F := Ideal) .f32 0xFF800000#32) (fun k => z k.val)

theorem rowmax_apply (src : FVec Ideal ⟨2, ![m, n]⟩ .f32) (h : (⟨2, ![m, n]⟩ : Shape).Reduces [1] ⟨1, ![m]⟩)
    (hφ : FKind.Formats .f32) (hacc : (0xFF800000#32 : BitVec 32) = FKind.maximumf.neutral .f32 hφ) (a : Fin m) :
    multiReduction .maximumf [1] ⟨1, ![m]⟩ src 0xFF800000#32 h hφ hacc (ix1 a) = rowMax n (N2 src a.val) := by
  rw [Ideal.multiReduction_maximumf_single]
  unfold rowMax
  congr 1
  funext k
  show src (h.lift (ix1 a) k) = _
  rw [LibRowSum.lift_row h a k]
  exact N2_ix2 src a k

/-- The row-wise log-softmax of `z`, by entries. -/
def lsm (z : ℕ → EReal) (j : ℕ) : EReal :=
  (z j - rowMax 10 z) - FloatOps.log (F := Ideal) (φ := .f32) (∑ k ∈ range 10, FloatOps.exp (F := Ideal) (φ := .f32) (z k - rowMax 10 z))

theorem lsm_congr {z z' : ℕ → EReal} (h : ∀ k, k < 10 → z k = z' k) {j : ℕ} (hj : j < 10) : lsm z j = lsm z' j := by
  have hM : rowMax 10 z = rowMax 10 z' := by
    unfold rowMax; congr 1; funext k; exact h k.val k.isLt
  unfold lsm
  rw [hM, h j hj]
  congr 2
  exact Finset.sum_congr rfl fun k hk => by rw [h k (Finset.mem_range.mp hk)]

theorem lsm_apply (z : FVec Ideal ⟨2, ![m, 10]⟩ .f32) (hred : (⟨2, ![m, 10]⟩ : Shape).Reduces [1] ⟨1, ![m]⟩)
    (hφ : FKind.Formats .f32) (hacc : (0xFF800000#32 : BitVec 32) = FKind.maximumf.neutral .f32 hφ)
    (hφ' : FKind.Formats .f32) (hacc' : (0x00000000#32 : BitVec 32) = 0x00000000#32)
    (hcast : (⟨1, ![m]⟩ : Shape).ShapeCasts ⟨2, ![m, 1]⟩) (hbc : (⟨2, ![m, 1]⟩ : Shape).Broadcasts ⟨2, ![m, 10]⟩)
    (r : Fin m) (j : Fin 10) :
    (subf (subf z (broadcastTo ⟨2, ![m, 10]⟩ (shapeCast ⟨2, ![m, 1]⟩ (multiReduction .maximumf [1] ⟨1, ![m]⟩ z 0xFF800000#32 hred hφ hacc) hcast) hbc))
        (broadcastTo ⟨2, ![m, 10]⟩ (log (shapeCast ⟨2, ![m, 1]⟩
          (multiReduction .add [1] ⟨1, ![m]⟩ (exp (subf z (broadcastTo ⟨2, ![m, 10]⟩ (shapeCast ⟨2, ![m, 1]⟩
            (multiReduction .maximumf [1] ⟨1, ![m]⟩ z 0xFF800000#32 hred hφ hacc) hcast) hbc))) 0x00000000#32 hred hφ' hacc') hcast)) hbc)) (ix2 r j)
      = lsm (N2 z r.val) j.val := by
  simp only [subf_apply, Cert.BroadcastTo.col_apply, log_apply, Cert.LayoutReads.col_of_vec_apply]
  rw [LibRowSum.multiReduction_add_row _ hred hφ' hacc' r, rowmax_apply z hred hφ hacc r]
  simp only [exp_apply, subf_apply, Cert.BroadcastTo.col_apply, Cert.LayoutReads.col_of_vec_apply]
  rw [rowmax_apply z hred hφ hacc r]
  unfold lsm
  rw [← Fin.sum_univ_eq_sum_range (fun k => FloatOps.exp (F := Ideal) (φ := .f32) (N2 z r.val k - rowMax 10 (N2 z r.val))) 10]
  simp only [N2_ix2 z r]

end DenseHead

end
-- ==== Proof.KernelRows2.lean ====
/-
  The fused kernel's body read at one entry of its output block, at the ideal values: second layer and dense head.
  The second layer's product runs over six pooled rows of the first layer laid side by side (768 lanes); its pooled rows
  are again maxima of four 128-lane slices.  The four pooled rows side by side (512 lanes) feed the first dense layer,
  its clamped result the second, and the block's entry is the row-wise log-softmax of that.
-/
import proofs.«104378_g2000603622679809_pallasbulk_1028_50_alg».proof.Proof.KernelRows1
import proofs.«104378_g2000603622679809_pallasbulk_1028_50_alg».proof.Proof.LibDenseHead
import proofs.«104378_g2000603622679809_pallasbulk_1028_50_alg».proof.Proof.KernelIdealFrame

set_option maxRecDepth 16384

noncomputable section

open scoped BigOperators

namespace Cert.KernelIdeal.Rd

open Idealize.ShloMosaic Idealize.ShloMosaic.ValueIdx Cert.KernelIdeal Cert.KernelIdeal.Gen Finset

/-- 6 slabs of 128 lanes set side by side, read at lane `k` of row `r`: slab `k / 128` at lane `k % 128`; when slab `j`
    holds row `q0 + j` of a family `Y`, that is `Y (q0 + k / 128) (k % 128)`. -/
theorem cat6_rows (p0 p1 p2 p3 p4 p5 : S1024x128.Idx → EReal) (Y : ℕ → ℕ → EReal) (q0 : ℕ) (r : Fin 1024)
    (h0 : ∀ l : Fin 128, p0 (ix2 r l) = Y (q0 + 0) l.val) (h1 : ∀ l : Fin 128, p1 (ix2 r l) = Y (q0 + 1) l.val) (h2 : ∀ l : Fin 128, p2 (ix2 r l) = Y (q0 + 2) l.val) (h3 : ∀ l : Fin 128, p3 (ix2 r l) = Y (q0 + 3) l.val) (h4 : ∀ l : Fin 128, p4 (ix2 r l) = Y (q0 + 4) l.val) (h5 : ∀ l : Fin 128, p5 (ix2 r l) = Y (q0 + 5) l.val)
    (k : ℕ) (hk : k < 768) :
    N2 (concatenate S1024x768 1 [⟨S1024x128, p0⟩, ⟨S1024x128, p1⟩, ⟨S1024x128, p2⟩, ⟨S1024x128, p3⟩, ⟨S1024x128, p4⟩, ⟨S1024x128, p5⟩] concatenates_S1024x128_S1024x128_S1024x128_S1024x128_S1024x128_S1024x128_S1024x768_d1) r.val k = Y (q0 + k / 128) (k % 128) := by
  rw [← N2_mk _ r.val k r.isLt hk]
  have hc : k / 128 = 0 ∨ k / 128 = 1 ∨ k / 128 = 2 ∨ k / 128 = 3 ∨ k / 128 = 4 ∨ k / 128 = 5 := by omega
  rcases hc with h | h | h | h | h | h
  · rw [h]
    refine (concatenate_apply_piece 1 _ _ (ix2 ⟨r.val, r.isLt⟩ ⟨k, hk⟩) 0 (by simp) S1024x128 p0 rfl rfl 0 (by rfl)
      (ix2 r ⟨k % 128, Nat.mod_lt _ (by norm_num)⟩) (fun b hb => ?_) (by show 0 + k % 128 = k; omega)).trans (h0 _)
    match b, hb with
    | ⟨0, _⟩, _ => rfl
    | ⟨1, _⟩, hb => exact absurd rfl hb
  · rw [h]
    refine (concatenate_apply_piece 1 _ _ (ix2 ⟨r.val, r.isLt⟩ ⟨k, hk⟩) 1 (by simp) S1024x128 p1 rfl rfl 128 (by rfl)
      (ix2 r ⟨k % 128, Nat.mod_lt _ (by norm_num)⟩) (fun b hb => ?_) (by show 128 + k % 128 = k; omega)).trans (h1 _)
    match b, hb with
    | ⟨0, _⟩, _ => rfl
    | ⟨1, _⟩, hb => exact absurd rfl hb
  · rw [h]
    refine (concatenate_apply_piece 1 _ _ (ix2 ⟨r.val, r.isLt⟩ ⟨k, hk⟩) 2 (by simp) S1024x128 p2 rfl rfl 256 (by rfl)
      (ix2 r ⟨k % 128, Nat.mod_lt _ (by norm_num)⟩) (fun b hb => ?_) (by show 256 + k % 128 = k; omega)).trans (h2 _)
    match b, hb with
    | ⟨0, _⟩, _ => rfl
    | ⟨1, _⟩, hb => exact absurd rfl hb
  · rw [h]
    refine (concatenate_apply_piece 1 _ _ (ix2 ⟨r.val, r.isLt⟩ ⟨k, hk⟩) 3 (by simp) S1024x128 p3 rfl rfl 384 (by rfl)
      (ix2 r ⟨k % 128, Nat.mod_lt _ (by norm_num)⟩) (fun b hb => ?_) (by show 384 + k % 128 = k; omega)).trans (h3 _)
    match b, hb with
    | ⟨0, _⟩, _ => rfl
    | ⟨1, _⟩, hb => exact absurd rfl hb
  · rw [h]
    refine (concatenate_apply_piece 1 _ _ (ix2 ⟨r.val, r.isLt⟩ ⟨k, hk⟩) 4 (by simp) S1024x128 p4 rfl rfl 512 (by rfl)
      (ix2 r ⟨k % 128, Nat.mod_lt _ (by norm_num)⟩) (fun b hb => ?_) (by show 512 + k % 128 = k; omega)).trans (h4 _)
    match b, hb with
    | ⟨0, _⟩, _ => rfl
    | ⟨1, _⟩, hb => exact absurd rfl hb
  · rw [h]
    refine (concatenate_apply_piece 1 _ _ (ix2 ⟨r.val, r.isLt⟩ ⟨k, hk⟩) 5 (by simp) S1024x128 p5 rfl rfl 640 (by rfl)
      (ix2 r ⟨k % 128, Nat.mod_lt _ (by norm_num)⟩) (fun b hb => ?_) (by show 640 + k % 128 = k; omega)).trans (h5 _)
    match b, hb with
    | ⟨0, _⟩, _ => rfl
    | ⟨1, _⟩, hb => exact absurd rfl hb

/-- 4 slabs of 128 lanes set side by side, read at lane `k` of row `r`: slab `k / 128` at lane `k % 128`; when slab `j`
    holds row `q0 + j` of a family `Y`, that is `Y (q0 + k / 128) (k % 128)`. -/
theorem cat4_rows (p0 p1 p2 p3 : S1024x128.Idx → EReal) (Y : ℕ → ℕ → EReal) (q0 : ℕ) (r : Fin 1024)
    (h0 : ∀ l : Fin 128, p0 (ix2 r l) = Y (q0 + 0) l.val) (h1 : ∀ l : Fin 128, p1 (ix2 r l) = Y (q0 + 1) l.val) (h2 : ∀ l : Fin 128, p2 (ix2 r l) = Y (q0 + 2) l.val) (h3 : ∀ l : Fin 128, p3 (ix2 r l) = Y (q0 + 3) l.val)
    (k : ℕ) (hk : k < 512) :
    N2 (concatenate S1024x512 1 [⟨S1024x128, p0⟩, ⟨S1024x128, p1⟩, ⟨S1024x128, p2⟩, ⟨S1024x128, p3⟩] concatenates_S1024x128_S1024x128_S1024x128_S1024x128_S1024x512_d1) r.val k = Y (q0 + k / 128) (k % 128) := by
  rw [← N2_mk _ r.val k r.isLt hk]
  have hc : k / 128 = 0 ∨ k / 128 = 1 ∨ k / 128 = 2 ∨ k / 128 = 3 := by omega
  rcases hc with h | h | h | h
  · rw [h]
    refine (concatenate_apply_piece 1 _ _ (ix2 ⟨r.val, r.isLt⟩ ⟨k, hk⟩) 0 (by simp) S1024x128 p0 rfl rfl 0 (by rfl)
      (ix2 r ⟨k % 128, Nat.mod_lt _ (by norm_num)⟩) (fun b hb => ?_) (by show 0 + k % 128 = k; omega)).trans (h0 _)
    match b, hb with
    | ⟨0, _⟩, _ => rfl
    | ⟨1, _⟩, hb => exact absurd rfl hb
  · rw [h]
    refine (concatenate_apply_piece 1 _ _ (ix2 ⟨r.val, r.isLt⟩ ⟨k, hk⟩) 1 (by simp) S1024x128 p1 rfl rfl 128 (by rfl)
      (ix2 r ⟨k % 128, Nat.mod_lt _ (by norm_num)⟩) (fun b hb => ?_) (by show 128 + k % 128 = k; omega)).trans (h1 _)
    match b, hb with
    | ⟨0, _⟩, _ => rfl
    | ⟨1, _⟩, hb => exact absurd rfl hb
  · rw [h]
    refine (concatenate_apply_piece 1 _ _ (ix2 ⟨r.val, r.isLt⟩ ⟨k, hk⟩) 2 (by simp) S1024x128 p2 rfl rfl 256 (by rfl)
      (ix2 r ⟨k % 128, Nat.mod_lt _ (by norm_num)⟩) (fun b hb => ?_) (by show 256 + k % 128 = k; omega)).trans (h2 _)
    match b, hb with
    | ⟨0, _⟩, _ => rfl
    | ⟨1, _⟩, hb => exact absurd rfl hb
  · rw [h]
    refine (concatenate_apply_piece 1 _ _ (ix2 ⟨r.val, r.isLt⟩ ⟨k, hk⟩) 3 (by simp) S1024x128 p3 rfl rfl 384 (by rfl)
      (ix2 r ⟨k % 128, Nat.mod_lt _ (by norm_num)⟩) (fun b hb => ?_) (by show 384 + k % 128 = k; omega)).trans (h3 _)
    match b, hb with
    | ⟨0, _⟩, _ => rfl
    | ⟨1, _⟩, hb => exact absurd rfl hb

theorem sl4_0 (A : S1024x512.Idx → EReal) (r : Fin 1024) (l : Fin 128) :
    extractStridedSlice S1024x128 ![0, 0] A slices_S1024x512_o0_0_S1024x128 (ix2 r l) = N2 A r.val (0 + l.val) := by
  rw [Cert.ColsSlice.cols_slice_apply A _ (by norm_num) r l]
  exact N2_mk A r.val _ r.isLt _
theorem sl4_128 (A : S1024x512.Idx → EReal) (r : Fin 1024) (l : Fin 128) :
    extractStridedSlice S1024x128 ![0, 128] A slices_S1024x512_o0_128_S1024x128 (ix2 r l) = N2 A r.val (128 + l.val) := by
  rw [Cert.ColsSlice.cols_slice_apply A _ (by norm_num) r l]
  exact N2_mk A r.val _ r.isLt _
theorem sl4_256 (A : S1024x512.Idx → EReal) (r : Fin 1024) (l : Fin 128) :
    extractStridedSlice S1024x128 ![0, 256] A slices_S1024x512_o0_256_S1024x128 (ix2 r l) = N2 A r.val (256 + l.val) := by
  rw [Cert.ColsSlice.cols_slice_apply A _ (by norm_num) r l]
  exact N2_mk A r.val _ r.isLt _
theorem sl4_384 (A : S1024x512.Idx → EReal) (r : Fin 1024) (l : Fin 128) :
    extractStridedSlice S1024x128 ![0, 384] A slices_S1024x512_o0_384_S1024x128 (ix2 r l) = N2 A r.val (384 + l.val) := by
  rw [Cert.ColsSlice.cols_slice_apply A _ (by norm_num) r l]
  exact N2_mk A r.val _ r.isLt _

/-- The second layer's accumulator over six pooled rows `Y (q0) … Y (q0 + 5)` laid side by side, by entries. -/
def acc2 (Y : ℕ → ℕ → EReal) (W : ℕ → ℕ → EReal) (q0 c : ℕ) : EReal :=
  ∑ k ∈ range 768, Y (q0 + k / 128) (k % 128) * W k c

theorem N2_acc2 (L : S1024x768.Idx → EReal) (w : S768x512.Idx → EReal) (Y : ℕ → ℕ → EReal) (q0 : ℕ) (r : Fin 1024)
    (hL : ∀ k, k < 768 → N2 L r.val k = Y (q0 + k / 128) (k % 128)) (c : ℕ) (hc : c < 512) :
    N2 (truncf .bf16 (matmul (φ₁ := .bf16) (φ₂ := .bf16) dot_S1024x768_S768x512_S1024x512_1_0_0_1_n_n none (L : FVec Ideal S1024x768 .bf16)
        (shapeCast S768x512 w shapeCasts_S768x512_S768x512 : FVec Ideal S768x512 .bf16)
        (constant S1024x512 .f32 0x00000000#32)) bitsLt_bf16_f32 : FVec Ideal S1024x512 .bf16) r.val c
      = acc2 Y (N2 w) q0 c := by
  rw [← N2_mk _ r.val c r.isLt hc, truncf_apply, shapeCast_self,
    show dot_S1024x768_S768x512_S1024x512_1_0_0_1_n_n = PlainProduct.rec2 dot_S1024x768_S768x512_S1024x512_1_0_0_1_n_n_wf from rfl,
    DenseHead.matmul_entry]
  unfold DenseHead.dot acc2
  exact Finset.sum_congr rfl fun k hk => by rw [hL k (Finset.mem_range.mp hk)]

/-- A pooled row of the second layer from a slab `L` of six first-layer rows. -/
theorem y2_of_slab (L : S1024x768.Idx → EReal) (w : S768x512.Idx → EReal) (b : S1x128.Idx → EReal) (Y : ℕ → ℕ → EReal) (q0 : ℕ)
    (r : Fin 1024) (hL : ∀ k, k < 768 → N2 L r.val k = Y (q0 + k / 128) (k % 128)) (l : Fin 128) :
    (maximumf (addf (maximumf
        (maximumf
          (extractStridedSlice S1024x128 ![0, 0] (truncf .bf16 (matmul (φ₁ := .bf16) (φ₂ := .bf16) dot_S1024x768_S768x512_S1024x512_1_0_0_1_n_n none (L : FVec Ideal S1024x768 .bf16) (shapeCast S768x512 w shapeCasts_S768x512_S768x512 : FVec Ideal S768x512 .bf16) (constant S1024x512 .f32 0x00000000#32)) bitsLt_bf16_f32 : FVec Ideal S1024x512 .bf16) slices_S1024x512_o0_0_S1024x128)
          (extractStridedSlice S1024x128 ![0, 128] (truncf .bf16 (matmul (φ₁ := .bf16) (φ₂ := .bf16) dot_S1024x768_S768x512_S1024x512_1_0_0_1_n_n none (L : FVec Ideal S1024x768 .bf16) (shapeCast S768x512 w shapeCasts_S768x512_S768x512 : FVec Ideal S768x512 .bf16) (constant S1024x512 .f32 0x00000000#32)) bitsLt_bf16_f32 : FVec Ideal S1024x512 .bf16) slices_S1024x512_o0_128_S1024x128))
        (maximumf
          (extractStridedSlice S1024x128 ![0, 256] (truncf .bf16 (matmul (φ₁ := .bf16) (φ₂ := .bf16) dot_S1024x768_S768x512_S1024x512_1_0_0_1_n_n none (L : FVec Ideal S1024x768 .bf16) (shapeCast S768x512 w shapeCasts_S768x512_S768x512 : FVec Ideal S768x512 .bf16) (constant S1024x512 .f32 0x00000000#32)) bitsLt_bf16_f32 : FVec Ideal S1024x512 .bf16) slices_S1024x512_o0_256_S1024x128)
          (extractStridedSlice S1024x128 ![0, 384] (truncf .bf16 (matmul (φ₁ := .bf16) (φ₂ := .bf16) dot_S1024x768_S768x512_S1024x512_1_0_0_1_n_n none (L : FVec Ideal S1024x768 .bf16) (shapeCast S768x512 w shapeCasts_S768x512_S768x512 : FVec Ideal S768x512 .bf16) (constant S1024x512 .f32 0x00000000#32)) bitsLt_bf16_f32 : FVec Ideal S1024x512 .bf16) slices_S1024x512_o0_384_S1024x128)))
        (broadcastTo S1024x128 (shapeCast S1x128 b shapeCasts_S1x128_S1x128) broadcasts_S1x128_S1024x128))
      (broadcast S1024x128 (Scalar.ofBits (F := Ideal) .bf16 0x0000#16)) : FVec Ideal S1024x128 .bf16) (ix2 r l)
      = pooled (acc2 Y (N2 w) q0) (N2 b 0) 0 128 256 384 l.val := by
  simp only [maximumf_apply, addf_apply, ValueIdx.broadcast_apply, bias_apply, sl4_0, sl4_128, sl4_256, sl4_384]
  have hl := l.isLt
  rw [N2_acc2 L w Y q0 r hL (0 + l.val) (by omega), N2_acc2 L w Y q0 r hL (128 + l.val) (by omega),
    N2_acc2 L w Y q0 r hL (256 + l.val) (by omega), N2_acc2 L w Y q0 r hL (384 + l.val) (by omega)]
  rfl

/-! ## One image, by entries: the image's 784 lanes `img`, the shifted conv1 filters `W1g` [224, 1024] and bias `B1`, the
    shifted conv2 filters `W2g` [768, 512] and bias `B2`, the dense layers `F1`, `G1`, `F2`, `G2` -/

section Spec
variable (img : ℕ → EReal) (W1g : ℕ → ℕ → EReal) (B1 : ℕ → EReal) (W2g : ℕ → ℕ → EReal) (B2 : ℕ → EReal)
  (F1 : ℕ → ℕ → EReal) (G1 : ℕ → EReal) (F2 : ℕ → ℕ → EReal) (G2 : ℕ → EReal)

/-- Pooled row `q` of the first layer: row group `q / 2`, lane half `q % 2`. -/
def kY1 (q l : ℕ) : EReal :=
  pooled (acc1 img W1g (112 * (q / 2))) B1 (512 * (q % 2)) (512 * (q % 2) + 128) (512 * (q % 2) + 256) (512 * (q % 2) + 384) l

/-- Pooled row `t` of the second layer. -/
def kY2 (t l : ℕ) : EReal :=
  pooled (acc2 (kY1 img W1g B1) W2g (2 * t)) B2 0 128 256 384 l

/-- The first dense layer's clamped result. -/
def kHid (n : ℕ) : EReal :=
  max (DenseHead.dot (fun k => kY2 img W1g B1 W2g B2 (k / 128) (k % 128)) F1 512 n + G1 n) (Ideal.ofBits .f32 0x00000000#32)

/-- The second dense layer's result. -/
def kZed (j : ℕ) : EReal := DenseHead.dot (kHid img W1g B1 W2g B2 F1 G1) F2 50 j + G2 j

/-- The log-softmax of the second dense layer. -/
def kOut (j : ℕ) : EReal := DenseHead.lsm (kZed img W1g B1 W2g B2 F1 G1 F2 G2) j

end Spec

section Rows
variable (x0 : S1024x784.Idx → EReal) (x1 : S224x1024.Idx → EReal) (x2 : S1x128.Idx → EReal) (x3 : S768x512.Idx → EReal)
  (x4 : S1x128.Idx → EReal) (x5 : S512x50.Idx → EReal) (x6 : S1x50.Idx → EReal) (x7 : S50x10.Idx → EReal) (x8 : S1x10.Idx → EReal)

/-- Pooled row `q` of the first layer for the image in row `r` of the block. -/
abbrev Y1 (r : ℕ) : ℕ → ℕ → EReal := kY1 (N2 x0 r) (N2 x1) (N2 x2 0)

/-- Pooled row `t` of the second layer. -/
abbrev Y2 (r : ℕ) : ℕ → ℕ → EReal := kY2 (N2 x0 r) (N2 x1) (N2 x2 0) (N2 x3) (N2 x4 0)

/-- The first dense layer's clamped result. -/
abbrev Hid (r : ℕ) : ℕ → EReal := kHid (N2 x0 r) (N2 x1) (N2 x2 0) (N2 x3) (N2 x4 0) (N2 x5) (N2 x6 0)

/-- The second dense layer's result. -/
abbrev Zed (r : ℕ) : ℕ → EReal := kZed (N2 x0 r) (N2 x1) (N2 x2 0) (N2 x3) (N2 x4 0) (N2 x5) (N2 x6 0) (N2 x7) (N2 x8 0)

/-- Entry `(r, j)` of the block the body stores. -/
abbrev kernelRow (r j : ℕ) : EReal := kOut (N2 x0 r) (N2 x1) (N2 x2 0) (N2 x3) (N2 x4 0) (N2 x5) (N2 x6 0) (N2 x7) (N2 x8 0) j

theorem y1_0 (r : Fin 1024) (l : Fin 128) : (k0_pay4 (F := Ideal) x0 x1 x2) (ix2 r l) = Y1 x0 x1 x2 r.val 0 l.val :=
  (y1row0 x0 x1 x2 r l).trans rfl
theorem y1_1 (r : Fin 1024) (l : Fin 128) : (k0_pay5 (F := Ideal) x0 x1 x2) (ix2 r l) = Y1 x0 x1 x2 r.val 1 l.val :=
  (y1row1 x0 x1 x2 r l).trans rfl
theorem y1_2 (r : Fin 1024) (l : Fin 128) : (k0_pay9 (F := Ideal) (k0_pay7 x0 x1) (k0_pay8 x0 x1) x2) (ix2 r l) = Y1 x0 x1 x2 r.val 2 l.val :=
  (y1row2 x0 x1 x2 r l).trans rfl
theorem y1_3 (r : Fin 1024) (l : Fin 128) : (k0_pay10 (F := Ideal) (k0_pay6 x0 x1) x2) (ix2 r l) = Y1 x0 x1 x2 r.val 3 l.val :=
  (y1row3 x0 x1 x2 r l).trans rfl
theorem y1_4 (r : Fin 1024) (l : Fin 128) : (k0_pay13 (F := Ideal) (k0_pay2 x0) x1 x2) (ix2 r l) = Y1 x0 x1 x2 r.val 4 l.val :=
  (y1row4 x0 x1 x2 r l).trans rfl
theorem y1_5 (r : Fin 1024) (l : Fin 128) : (k0_pay14 (F := Ideal) (k0_pay12 (k0_pay2 x0) x1) x2) (ix2 r l) = Y1 x0 x1 x2 r.val 5 l.val :=
  (y1row5 x0 x1 x2 r l).trans rfl
theorem y1_6 (r : Fin 1024) (l : Fin 128) : (k0_pay16 (F := Ideal) (k0_pay2 x0) x1 x2) (ix2 r l) = Y1 x0 x1 x2 r.val 6 l.val :=
  (y1row6 x0 x1 x2 r l).trans rfl
theorem y1_7 (r : Fin 1024) (l : Fin 128) : (k0_pay17 (F := Ideal) (k0_pay2 x0) x1 x2) (ix2 r l) = Y1 x0 x1 x2 r.val 7 l.val :=
  (y1row7 x0 x1 x2 r l).trans rfl
theorem y1_8 (r : Fin 1024) (l : Fin 128) : (k0_pay21 (F := Ideal) (k0_pay19 (k0_pay2 x0) x1) (k0_pay20 (k0_pay2 x0) x1) x2) (ix2 r l) = Y1 x0 x1 x2 r.val 8 l.val :=
  (y1row8 x0 x1 x2 r l).trans rfl
theorem y1_9 (r : Fin 1024) (l : Fin 128) : (k0_pay22 (F := Ideal) (k0_pay18 (k0_pay2 x0) x1) x2) (ix2 r l) = Y1 x0 x1 x2 r.val 9 l.val :=
  (y1row9 x0 x1 x2 r l).trans rfl
theorem y1_10 (r : Fin 1024) (l : Fin 128) : (k0_pay25 (F := Ideal) (k0_pay2 x0) x1 x2) (ix2 r l) = Y1 x0 x1 x2 r.val 10 l.val :=
  (y1row10 x0 x1 x2 r l).trans rfl
theorem y1_11 (r : Fin 1024) (l : Fin 128) : (k0_pay26 (F := Ideal) (k0_pay24 (k0_pay2 x0) x1) x2) (ix2 r l) = Y1 x0 x1 x2 r.val 11 l.val :=
  (y1row11 x0 x1 x2 r l).trans rfl

theorem y2_0 (r : Fin 1024) (l : Fin 128) : (k0_pay27 (F := Ideal) (k0_pay4 (F := Ideal) x0 x1 x2) (k0_pay5 (F := Ideal) x0 x1 x2) (k0_pay9 (F := Ideal) (k0_pay7 x0 x1) (k0_pay8 x0 x1) x2) (k0_pay10 (F := Ideal) (k0_pay6 x0 x1) x2) (k0_pay13 (F := Ideal) (k0_pay2 x0) x1 x2) (k0_pay14 (F := Ideal) (k0_pay12 (k0_pay2 x0) x1) x2) x3 x4) (ix2 r l) = Y2 x0 x1 x2 x3 x4 r.val 0 l.val := by
  unfold k0_pay27
  exact (y2_of_slab _ x3 x4 (Y1 x0 x1 x2 r.val) 0 r (fun k hk => cat6_rows _ _ _ _ _ _ (Y1 x0 x1 x2 r.val) 0 r (y1_0 x0 x1 x2 r) (y1_1 x0 x1 x2 r) (y1_2 x0 x1 x2 r) (y1_3 x0 x1 x2 r) (y1_4 x0 x1 x2 r) (y1_5 x0 x1 x2 r) k hk) l).trans rfl

theorem y2_1 (r : Fin 1024) (l : Fin 128) : (k0_pay28 (F := Ideal) (k0_pay9 (F := Ideal) (k0_pay7 x0 x1) (k0_pay8 x0 x1) x2) (k0_pay10 (F := Ideal) (k0_pay6 x0 x1) x2) (k0_pay13 (F := Ideal) (k0_pay2 x0) x1 x2) (k0_pay14 (F := Ideal) (k0_pay12 (k0_pay2 x0) x1) x2) (k0_pay16 (F := Ideal) (k0_pay2 x0) x1 x2) (k0_pay17 (F := Ideal) (k0_pay2 x0) x1 x2) x3 x4) (ix2 r l) = Y2 x0 x1 x2 x3 x4 r.val 1 l.val := by
  unfold k0_pay28
  exact (y2_of_slab _ x3 x4 (Y1 x0 x1 x2 r.val) 2 r (fun k hk => cat6_rows _ _ _ _ _ _ (Y1 x0 x1 x2 r.val) 2 r (y1_2 x0 x1 x2 r) (y1_3 x0 x1 x2 r) (y1_4 x0 x1 x2 r) (y1_5 x0 x1 x2 r) (y1_6 x0 x1 x2 r) (y1_7 x0 x1 x2 r) k hk) l).trans rfl

/-- The first dense layer's clamped result, read at an entry. -/
theorem hid_apply (r : Fin 1024) (n : Fin 50) : (k0_pay31 (F := Ideal) (k0_pay16 (F := Ideal) (k0_pay2 x0) x1 x2) (k0_pay17 (F := Ideal) (k0_pay2 x0) x1 x2) (k0_pay21 (F := Ideal) (k0_pay19 (k0_pay2 x0) x1) (k0_pay20 (k0_pay2 x0) x1) x2) (k0_pay22 (F := Ideal) (k0_pay18 (k0_pay2 x0) x1) x2) (k0_pay25 (F := Ideal) (k0_pay2 x0) x1 x2) (k0_pay26 (F := Ideal) (k0_pay24 (k0_pay2 x0) x1) x2) (k0_pay27 (F := Ideal) (k0_pay4 (F := Ideal) x0 x1 x2) (k0_pay5 (F := Ideal) x0 x1 x2) (k0_pay9 (F := Ideal) (k0_pay7 x0 x1) (k0_pay8 x0 x1) x2) (k0_pay10 (F := Ideal) (k0_pay6 x0 x1) x2) (k0_pay13 (F := Ideal) (k0_pay2 x0) x1 x2) (k0_pay14 (F := Ideal) (k0_pay12 (k0_pay2 x0) x1) x2) x3 x4) (k0_pay28 (F := Ideal) (k0_pay9 (F := Ideal) (k0_pay7 x0 x1) (k0_pay8 x0 x1) x2) (k0_pay10 (F := Ideal) (k0_pay6 x0 x1) x2) (k0_pay13 (F := Ideal) (k0_pay2 x0) x1 x2) (k0_pay14 (F := Ideal) (k0_pay12 (k0_pay2 x0) x1) x2) (k0_pay16 (F := Ideal) (k0_pay2 x0) x1 x2) (k0_pay17 (F := Ideal) (k0_pay2 x0) x1 x2) x3 x4) (k0_pay29 (F := Ideal) (k0_pay13 (F := Ideal) (k0_pay2 x0) x1 x2) (k0_pay14 (F := Ideal) (k0_pay12 (k0_pay2 x0) x1) x2) (k0_pay16 (F := Ideal) (k0_pay2 x0) x1 x2) (k0_pay17 (F := Ideal) (k0_pay2 x0) x1 x2) (k0_pay21 (F := Ideal) (k0_pay19 (k0_pay2 x0) x1) (k0_pay20 (k0_pay2 x0) x1) x2) (k0_pay22 (F := Ideal) (k0_pay18 (k0_pay2 x0) x1) x2)) (k0_pay30 (F := Ideal) x3) (constant S1024x512 .f32 0x00000000#32) x4 x3 x4 x5 x6) (ix2 r n) = Hid x0 x1 x2 x3 x4 x5 x6 r.val n.val := by
  unfold k0_pay31 k0_pay29 k0_pay30
  rw [truncf_apply]
  simp only [maximumf_apply, addf_apply, ValueIdx.broadcast_apply]
  rw [show shapeCast S512x50 x5 shapeCasts_S512x50_S512x50 = x5 from shapeCast_self _ _,
    show dot_S1024x512_S512x50_S1024x50_1_0_0_1_n_n = PlainProduct.rec2 dot_S1024x512_S512x50_S1024x50_1_0_0_1_n_n_wf from rfl,
    DenseHead.matmul_entry, DenseHead.bias_entry]
  unfold Hid kHid
  congr 2
  refine DenseHead.dot_congr (fun k hk => ?_) _ _
  refine (cat4_rows _ _ _ _ (Y2 x0 x1 x2 x3 x4 r.val) 0 r (y2_0 x0 x1 x2 x3 x4 r) (y2_1 x0 x1 x2 x3 x4 r)
    (fun l => (y2_of_slab _ x3 x4 (Y1 x0 x1 x2 r.val) 4 r (fun k hk => cat6_rows _ _ _ _ _ _ (Y1 x0 x1 x2 r.val) 4 r (y1_4 x0 x1 x2 r) (y1_5 x0 x1 x2 r) (y1_6 x0 x1 x2 r) (y1_7 x0 x1 x2 r) (y1_8 x0 x1 x2 r) (y1_9 x0 x1 x2 r) k hk) l).trans rfl)
    (fun l => (y2_of_slab _ x3 x4 (Y1 x0 x1 x2 r.val) 6 r (fun k hk => cat6_rows _ _ _ _ _ _ (Y1 x0 x1 x2 r.val) 6 r (y1_6 x0 x1 x2 r) (y1_7 x0 x1 x2 r) (y1_8 x0 x1 x2 r) (y1_9 x0 x1 x2 r) (y1_10 x0 x1 x2 r) (y1_11 x0 x1 x2 r) k hk) l).trans rfl) k hk).trans ?_
  rw [Nat.zero_add]

/-- THE BLOCK'S VALUE at an entry: the log-softmax of the second dense layer of the image in that row. -/
theorem blockValue_apply (r : Fin 1024) (j : Fin 10) :
    Cert.KernelIdeal.Fr.blockValue (F := Ideal) x0 x1 x2 x3 x4 x5 x6 x7 x8 (ix2 r j) = kernelRow x0 x1 x2 x3 x4 x5 x6 x7 x8 r.val j.val := by
  unfold Cert.KernelIdeal.Fr.blockValue k0_pay1
  refine (DenseHead.lsm_apply _ _ _ _ _ _ _ _ r j).trans ?_
  unfold kernelRow kOut
  refine DenseHead.lsm_congr (fun k hk => ?_) j.isLt
  rw [← N2_mk _ r.val k r.isLt hk, addf_apply, show shapeCast S50x10 x7 shapeCasts_S50x10_S50x10 = x7 from shapeCast_self _ _,
    show dot_S1024x50_S50x10_S1024x10_1_0_0_1_n_n = PlainProduct.rec2 dot_S1024x50_S50x10_S1024x10_1_0_0_1_n_n_wf from rfl,
    DenseHead.matmul_entry, DenseHead.bias_entry]
  unfold kZed
  congr 1
  exact DenseHead.dot_congr (fun n hn => (N2_mk _ r.val n r.isLt hn).symm.trans (hid_apply x0 x1 x2 x3 x4 x5 x6 r ⟨n, hn⟩)) _ _

end Rows

end Cert.KernelIdeal.Rd

end
-- ==== Proof.KernelArray.lean ====
/-
  The fused kernel's output array as one function of the arrays the region stages.  Grid point `t` handles images
  1024·t … 1024·t + 1023: its image block is those rows of the flat image array, every other input window is its whole
  array at every point, and its output block is those rows of the result.  So row `b` of the result is the per-image
  expression `kOut` of row `b` of the image array: the index maps are decided over the sixteen grid points, the block a
  point writes is read at a symbolic point, and the sixteen blocks cover the result.
-/
import proofs.«104378_g2000603622679809_pallasbulk_1028_50_alg».proof.Proof.KernelIdealValue
import proofs.«104378_g2000603622679809_pallasbulk_1028_50_alg».proof.Proof.KernelRows2

set_option maxRecDepth 16384

noncomputable section

namespace Cert.KernelIdeal.KArray

open Cert.KernelIdeal Cert.KernelIdeal.Gen Cert.KernelIdeal.Fr Cert.KernelIdeal.Rd
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

/-- The printed index maps over the 16 grid points: the image window and the output window sit at block row `t`, every
    other window at block (0, 0). -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `b` of the result from the staged arrays: the per-image expression of row `b` of the flat image array. -/
def G (A0 : S16384x784.Idx → EReal) (A1 : S224x1024.Idx → EReal) (A2 : S1x128.Idx → EReal) (A3 : S768x512.Idx → EReal)
    (A4 : S1x128.Idx → EReal) (A5 : S512x50.Idx → EReal) (A6 : S1x50.Idx → EReal) (A7 : S50x10.Idx → EReal) (A8 : S1x10.Idx → EReal) :
    S16384x10.Idx → EReal :=
  fun i => kOut (N2 A0 (i 0).val) (N2 A1) (N2 A2 0) (N2 A3) (N2 A4 0) (N2 A5) (N2 A6 0) (N2 A7) (N2 A8 0) (i 1).val

/-- Window 1's block at any point is its whole array. -/
theorem blk1_eq (t : Fin cfg0.N) : (iblk m c 1 t : S224x1024.Idx → EReal) = V m c main_v7 := by
  obtain ⟨_, _, _, _, e0, e1, _, _, _, _, _, _, _, _, _, _, _, _, _, _⟩ := idx_facts t
  funext y
  show V m c main_v7 (((cfg0.win 1).blk t).view.emb y) = V m c main_v7 y
  congr 1
  funext a; apply Fin.ext
  match a with
  | ⟨0, _⟩ => show win0_1.index t (0 : Fin 2) * 224 + 1 * (y 0).val = (y 0).val; rw [e0]; omega
  | ⟨1, _⟩ => show win0_1.index t (1 : Fin 2) * 1024 + 1 * (y 1).val = (y 1).val; rw [e1]; omega
/-- Window 2's block at any point is its whole array. -/
theorem blk2_eq (t : Fin cfg0.N) : (iblk m c 2 t : S1x128.Idx → EReal) = V m c main_v13 := by
  obtain ⟨_, _, _, _, _, _, e0, e1, _, _, _, _, _, _, _, _, _, _, _, _⟩ := idx_facts t
  funext y
  show V m c main_v13 (((cfg0.win 2).blk t).view.emb y) = V m c main_v13 y
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega
/-- Window 3's block at any point is its whole array. -/
theorem blk3_eq (t : Fin cfg0.N) : (iblk m c 3 t : S768x512.Idx → EReal) = V m c main_v12 := by
  obtain ⟨_, _, _, _, _, _, _, _, e0, e1, _, _, _, _, _, _, _, _, _, _⟩ := idx_facts t
  funext y
  show V m c main_v12 (((cfg0.win 3).blk t).view.emb y) = V m c main_v12 y
  congr 1
  funext a; apply Fin.ext
  match a with
  | ⟨0, _⟩ => show win0_3.index t (0 : Fin 2) * 768 + 1 * (y 0).val = (y 0).val; rw [e0]; omega
  | ⟨1, _⟩ => show win0_3.index t (1 : Fin 2) * 512 + 1 * (y 1).val = (y 1).val; rw [e1]; omega
/-- Window 4's block at any point is its whole array. -/
theorem blk4_eq (t : Fin cfg0.N) : (iblk m c 4 t : S1x128.Idx → EReal) = V m c main_v14 := by
  obtain ⟨_, _, _, _, _, _, _, _, _, _, e0, e1, _, _, _, _, _, _, _, _⟩ := idx_facts t
  funext y
  show V m c main_v14 (((cfg0.win 4).blk t).view.emb y) = V m c main_v14 y
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega
/-- Window 5's block at any point is its whole array. -/
theorem blk5_eq (t : Fin cfg0.N) : (iblk m c 5 t : S512x50.Idx → EReal) = V m c main_v15 := by
  obtain ⟨_, _, _, _, _, _, _, _, _, _, _, _, e0, e1, _, _, _, _, _, _⟩ := idx_facts t
  funext y
  show V m c main_v15 (((cfg0.win 5).blk t).view.emb y) = V m c main_v15 y
  congr 1
  funext a; apply Fin.ext
  match a with
  | ⟨0, _⟩ => show win0_5.index t (0 : Fin 2) * 512 + 1 * (y 0).val = (y 0).val; rw [e0]; omega
  | ⟨1, _⟩ => show win0_5.index t (1 : Fin 2) * 50 + 1 * (y 1).val = (y 1).val; rw [e1]; omega
/-- Window 6's block at any point is its whole array. -/
theorem blk6_eq (t : Fin cfg0.N) : (iblk m c 6 t : S1x50.Idx → EReal) = V m c main_arg6 := by
  obtain ⟨_, _, _, _, _, _, _, _, _, _, _, _, _, _, e0, e1, _, _, _, _⟩ := idx_facts t
  funext y
  show V m c main_arg6 (((cfg0.win 6).blk t).view.emb y) = V m c main_arg6 y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 50 + 1 * (y 1).val = (y 1).val; rw [e1]; omega
/-- Window 7's block at any point is its whole array. -/
theorem blk7_eq (t : Fin cfg0.N) : (iblk m c 7 t : S50x10.Idx → EReal) = V m c main_v16 := by
  obtain ⟨_, _, _, _, _, _, _, _, _, _, _, _, _, _, _, _, e0, e1, _, _⟩ := idx_facts t
  funext y
  show V m c main_v16 (((cfg0.win 7).blk t).view.emb y) = V m c main_v16 y
  congr 1
  funext a; apply Fin.ext
  match a with
  | ⟨0, _⟩ => show win0_7.index t (0 : Fin 2) * 50 + 1 * (y 0).val = (y 0).val; rw [e0]; omega
  | ⟨1, _⟩ => show win0_7.index t (1 : Fin 2) * 10 + 1 * (y 1).val = (y 1).val; rw [e1]; omega
/-- Window 8's block at any point is its whole array. -/
theorem blk8_eq (t : Fin cfg0.N) : (iblk m c 8 t : S1x10.Idx → EReal) = V m c main_arg8 := by
  obtain ⟨_, _, _, _, _, _, _, _, _, _, _, _, _, _, _, _, _, _, e0, e1⟩ := idx_facts t
  funext y
  show V m c main_arg8 (((cfg0.win 8).blk t).view.emb y) = V m c main_arg8 y
  congr 1
  funext a; apply Fin.ext
  match a with
  | ⟨0, _⟩ => show win0_8.index t (0 : Fin 2) * 1 + 1 * (y 0).val = (y 0).val; rw [e0]; omega
  | ⟨1, _⟩ => show win0_8.index t (1 : Fin 2) * 10 + 1 * (y 1).val = (y 1).val; rw [e1]; omega

/-- Row `r` of the image block at point `t` is row `1024·t + r` of the flat image array. -/
theorem blk0_row (t : Fin cfg0.N) (r : Fin 1024) :
    N2 (iblk m c 0 t : S1024x784.Idx → EReal) r.val = N2 (V m c main_v0 : S16384x784.Idx → EReal) (t.val * 1024 + r.val) := by
  obtain ⟨_, _, e0, e1, _⟩ := idx_facts t
  have ht : t.val < 16 := by have := t.isLt; have h := N_0; exact h ▸ this
  funext k
  by_cases hk : k < 784
  · rw [← N2_mk (iblk m c 0 t : S1024x784.Idx → EReal) r.val k r.isLt hk,
      ← N2_mk (V m c main_v0 : S16384x784.Idx → EReal) (t.val * 1024 + r.val) k (by omega) hk]
    show V m c main_v0 (((cfg0.win 0).blk t).view.emb (ix2 r ⟨k, hk⟩)) = V m c main_v0 _
    congr 1
    funext a; apply Fin.ext
    match a with
    | ⟨0, _⟩ => show win0_0.index t (0 : Fin 2) * 1024 + 1 * r.val = t.val * 1024 + r.val; rw [e0]; omega
    | ⟨1, _⟩ => show win0_0.index t (1 : Fin 2) * 784 + 1 * k = k; rw [e1]; omega
  · unfold N2
    rw [dif_neg (fun h => hk h.2), dif_neg (fun h => hk h.2)]

/-- WHAT POINT `t` WRITES BACK is block `t` of `G` of the staged arrays. -/
theorem flushed_eq (t : Fin cfg0.N) :
    (dats m 0 c).flushed 9 t = ((cfg0.win 9).blk t).view.read (Elt Ideal)
      (G (V m c main_v0) (V m c main_v7) (V m c main_v13) (V m c main_v12) (V m c main_v14) (V m c main_v15) (V m c main_arg6) (V m c main_v16) (V m c main_arg8)) := by
  show (cfg0.win 9).cut (grid0.coords t) ((dats m 0 c).after 9 t) = _
  rw [after9]
  unfold out9
  rw [View.canon_unit_zero hz]
  simp only [View.ld_unit_zero (S := S1024x784) hz, View.ld_unit_zero (S := S224x1024) hz, View.ld_unit_zero (S := S1x128) hz, View.ld_unit_zero (S := S768x512) hz, View.ld_unit_zero (S := S512x50) hz, View.ld_unit_zero (S := S1x50) hz, View.ld_unit_zero (S := S50x10) hz, View.ld_unit_zero (S := S1x10) hz]
  obtain ⟨e0, e1, _⟩ := idx_facts t
  funext y
  obtain ⟨r, j, rfl⟩ : ∃ (r : Fin 1024) (j : Fin 10), y = ix2 r j := ⟨y 0, y 1, eq_ix2 y⟩
  refine (blockValue_apply (iblk m c 0 t) (iblk m c 1 t) (iblk m c 2 t) (iblk m c 3 t) (iblk m c 4 t) (iblk m c 5 t) (iblk m c 6 t) (iblk m c 7 t) (iblk m c 8 t) r j).trans ?_
  show _ = G _ _ _ _ _ _ _ _ _ (((cfg0.win 9).blk t).view.emb (ix2 r j))
  have hb : ((((cfg0.win 9).blk t).view.emb (ix2 r j)) 0).val = t.val * 1024 + r.val := by
    show win0_9.index t (0 : Fin 2) * 1024 + 1 * r.val = _; rw [e0]; omega
  have hj : ((((cfg0.win 9).blk t).view.emb (ix2 r j)) 1).val = j.val := by
    show win0_9.index t (1 : Fin 2) * 10 + 1 * j.val = _; rw [e1]; omega
  unfold G
  rw [hb, hj]
  show kOut (N2 (iblk m c 0 t : S1024x784.Idx → EReal) r.val) (N2 (iblk m c 1 t : S224x1024.Idx → EReal)) (N2 (iblk m c 2 t : S1x128.Idx → EReal) 0)
      (N2 (iblk m c 3 t : S768x512.Idx → EReal)) (N2 (iblk m c 4 t : S1x128.Idx → EReal) 0) (N2 (iblk m c 5 t : S512x50.Idx → EReal))
      (N2 (iblk m c 6 t : S1x50.Idx → EReal) 0) (N2 (iblk m c 7 t : S50x10.Idx → EReal)) (N2 (iblk m c 8 t : S1x10.Idx → EReal) 0) j.val = _
  rw [blk0_row m c t r, blk1_eq m c t, blk2_eq m c t, blk3_eq m c t, blk4_eq m c t, blk5_eq m c t, blk6_eq m c t, blk7_eq m c t, blk8_eq m c t]

/-- An index of the result is in point `t`'s block iff each coordinate is in the block's range. -/
theorem mem_blk (t : Fin cfg0.N) (i : S16384x10.Idx) :
    i ∈ ((cfg0.win 9).blk t).view.set ↔ ∀ a : Fin 2, win0_9.index t a * S1024x10.size a ≤ (i a).val ∧ (i a).val < win0_9.index t a * S1024x10.size a + S1024x10.size a := by
  show i ∈ ((View.whole main_v17).slice (win0_9.rect t)).set ↔ _
  rw [View.set_slice_whole, Rect.mem_set_unit]
  exact Iff.rfl

/-- Every row of the result is in the block of the point `b / 1024`. -/
theorem cover (i : S16384x10.Idx) : ∃ t : Fin cfg0.N, (cfg0.win 9).flush t = true ∧ i ∈ ((cfg0.win 9).blk t).view.set := by
  have hi0 : (i 0).val < 16384 := (i 0).isLt
  have hi1 : (i 1).val < 10 := (i 1).isLt
  have hN : cfg0.N = 16 := N_0
  refine ⟨⟨(i 0).val / 1024, by rw [hN]; omega⟩, flush0_9 _, ?_⟩
  rw [mem_blk]
  obtain ⟨e0, e1, _⟩ := idx_facts ⟨(i 0).val / 1024, by rw [hN]; omega⟩
  intro a
  match a with
  | ⟨0, _⟩ =>
    show win0_9.index _ (0 : Fin 2) * 1024 ≤ (i 0).val ∧ (i 0).val < win0_9.index _ (0 : Fin 2) * 1024 + 1024
    rw [e0]; show (i 0).val / 1024 * 1024 ≤ (i 0).val ∧ (i 0).val < (i 0).val / 1024 * 1024 + 1024; omega
  | ⟨1, _⟩ =>
    show win0_9.index _ (1 : Fin 2) * 10 ≤ (i 1).val ∧ (i 1).val < win0_9.index _ (1 : Fin 2) * 10 + 10
    rw [e1]; omega

/-- THE RESULT ARRAY after the run is `G` of the staged arrays. -/
theorem final : (dats m 0 c).arrAt 9 cfg0.N
    = G (V m c main_v0) (V m c main_v7) (V m c main_v13) (V m c main_v12) (V m c main_v14) (V m c main_v15) (V m c main_arg6) (V m c main_v16) (V m c main_arg8) :=
  (dats m 0 c).arrAt_eq_of_cover 9 _ (fun t _ => flushed_eq m c t) cover

end Cert.KernelIdeal.KArray

end
-- ==== Proof.LibHostLayout.lean ====
/-
  Host layout operations read at one entry: a matrix padded above and below with a constant, and three reshapes that
  only split or merge axes (the flat index is unchanged).

  * a matrix `[R, C]` padded with `lo` rows above and `hi` rows below (no interior padding, columns untouched): entry
    `(a, b)` is the matrix's `(a - lo, b)` when `lo ≤ a < lo + R`, and the padding value otherwise;
  * `[A·B, C]` from `[A, B, C]`: entry `(q, j)` is `(q / B, q % B, j)`;  `[N, 784]` and `[N, 28, 28]` from `[N, 1, 28, 28]`;
    `[N, 512]` from `[N, 4, 128]`.
-/
import Idealize.ShloMosaic.Lib.Pipeline.Value
import Idealize.ShloMosaic.Lib.ValueIdx

noncomputable section

namespace HostLayout

open Idealize.ShloMosaic Idealize.ShloMosaic.ValueIdx

variable {α : Type}

/-- Rows padded above and below, read at an entry. -/
theorem pad_rows_apply {R C R' lo hi : Nat} {u : Shape} (x : (⟨2, ![R, C]⟩ : Shape).Idx → α) (v : u.Idx → α)
    (h : (⟨2, ![R, C]⟩ : Shape).Pads ![lo, 0] ![hi, 0] ![0, 0] ⟨2, ![R', C]⟩) (hu : 0 < u.numel) (a : Fin R') (b : Fin C) :
    pad ⟨2, ![R', C]⟩ ![lo, 0] ![hi, 0] ![0, 0] x v h hu (ix2 a b)
      = if h' : lo ≤ a.val ∧ a.val - lo < R then x (ix2 ⟨a.val - lo, h'.2⟩ b) else v (Shape.Idx.first hu) := by
  unfold pad
  by_cases hc : lo ≤ a.val ∧ a.val - lo < R
  · have hin : ∀ ax : Fin 2, (![lo, 0] : Fin 2 → Nat) ax ≤ ((ix2 a b) (ax.cast h.1)).val
        ∧ (((ix2 a b) (ax.cast h.1)).val - (![lo, 0] : Fin 2 → Nat) ax) % ((![0, 0] : Fin 2 → Nat) ax + 1) = 0
        ∧ (((ix2 a b) (ax.cast h.1)).val - (![lo, 0] : Fin 2 → Nat) ax) / ((![0, 0] : Fin 2 → Nat) ax + 1) < (⟨2, ![R, C]⟩ : Shape).size ax := by
      intro ax
      match ax with
      | ⟨0, _⟩ =>
        show lo ≤ a.val ∧ (a.val - lo) % (0 + 1) = 0 ∧ (a.val - lo) / (0 + 1) < R
        exact ⟨hc.1, Nat.mod_one _, by rw [Nat.zero_add, Nat.div_one]; exact hc.2⟩
      | ⟨1, _⟩ =>
        show 0 ≤ b.val ∧ (b.val - 0) % (0 + 1) = 0 ∧ (b.val - 0) / (0 + 1) < C
        exact ⟨Nat.zero_le _, Nat.mod_one _, by rw [Nat.zero_add, Nat.div_one, Nat.sub_zero]; exact b.isLt⟩
    rw [dif_pos hin, dif_pos hc]
    congr 1
    funext ax; apply Fin.ext
    match ax with
    | ⟨0, _⟩ => show (a.val - lo) / (0 + 1) = a.val - lo; rw [Nat.zero_add, Nat.div_one]
    | ⟨1, _⟩ => show (b.val - 0) / (0 + 1) = b.val; rw [Nat.zero_add, Nat.div_one, Nat.sub_zero]
  · rw [dif_neg hc, dif_neg]
    intro hin
    have h0 := hin (0 : Fin 2)
    have h1 : lo ≤ a.val := h0.1
    have h2 : (a.val - lo) / (0 + 1) < R := h0.2.2
    rw [Nat.zero_add, Nat.div_one] at h2
    exact hc ⟨h1, h2⟩

/-- `[A·B, C]` from `[A, B, C]`: the leading axes merged. -/
theorem merge_lead_apply {n A B C : Nat} (hn : n = A * B) (hB : 0 < B) (x : (⟨3, ![A, B, C]⟩ : Shape).Idx → α)
    (h : (⟨3, ![A, B, C]⟩ : Shape).ShapeCasts ⟨2, ![n, C]⟩) (q : Fin n) (j : Fin C) :
    shapeCast ⟨2, ![n, C]⟩ x h (ix2 q j)
      = x (ix3 (⟨q.val / B, by have h1 : q.val < A * B := hn ▸ q.isLt; exact Nat.div_lt_of_lt_mul (by rw [Nat.mul_comm]; exact h1)⟩ : Fin A)
            (⟨q.val % B, Nat.mod_lt _ hB⟩ : Fin B) j) :=
  shapeCast_apply x h (ix2 q j) _ (by
    rw [Shape.rowMajor_val_two, Shape.rowMajor_val_three]
    show (q.val / B * B + q.val % B) * C + j.val = q.val * C + j.val
    rw [Nat.div_add_mod'])

/-- `[N, 784]` from `[N, 1, 28, 28]`: lane `k` of image `b` is row `k / 28`, column `k % 28`. -/
theorem flat_image_apply {N : Nat} (x : (⟨4, ![N, 1, 28, 28]⟩ : Shape).Idx → α)
    (h : (⟨4, ![N, 1, 28, 28]⟩ : Shape).ShapeCasts ⟨2, ![N, 784]⟩) (b : Fin N) (k : Fin 784) :
    shapeCast ⟨2, ![N, 784]⟩ x h (ix2 b k)
      = x (ix4 b (0 : Fin 1) (⟨k.val / 28, by have := k.isLt; omega⟩ : Fin 28) (⟨k.val % 28, Nat.mod_lt _ (by norm_num)⟩ : Fin 28)) :=
  shapeCast_apply x h (ix2 b k) _ (by
    rw [Shape.rowMajor_val_two, Shape.rowMajor_val_four]
    show ((b.val * 1 + 0) * 28 + k.val / 28) * 28 + k.val % 28 = b.val * 784 + k.val
    have := k.isLt; omega)

/-- `[N, 28, 28]` from `[N, 1, 28, 28]`: the unit axis dropped. -/
theorem rows_image_apply {N : Nat} (x : (⟨4, ![N, 1, 28, 28]⟩ : Shape).Idx → α)
    (h : (⟨4, ![N, 1, 28, 28]⟩ : Shape).ShapeCasts ⟨3, ![N, 28, 28]⟩) (b : Fin N) (a w : Fin 28) :
    shapeCast ⟨3, ![N, 28, 28]⟩ x h (ix3 b a w) = x (ix4 b (0 : Fin 1) a w) :=
  shapeCast_apply x h (ix3 b a w) _ (by
    rw [Shape.rowMajor_val_three, Shape.rowMajor_val_four]
    show ((b.val * 1 + 0) * 28 + a.val) * 28 + w.val = (b.val * 28 + a.val) * 28 + w.val
    omega)

/-- `[N, 512]` from `[N, 4, 128]`: lane `k` is row `k / 128`, lane `k % 128`. -/
theorem flat_rows4_apply {N : Nat} (x : (⟨3, ![N, 4, 128]⟩ : Shape).Idx → α)
    (h : (⟨3, ![N, 4, 128]⟩ : Shape).ShapeCasts ⟨2, ![N, 512]⟩) (b : Fin N) (k : Fin 512) :
    shapeCast ⟨2, ![N, 512]⟩ x h (ix2 b k)
      = x (ix3 b (⟨k.val / 128, by have := k.isLt; omega⟩ : Fin 4) (⟨k.val % 128, Nat.mod_lt _ (by norm_num)⟩ : Fin 128)) :=
  shapeCast_apply x h (ix2 b k) _ (by
    rw [Shape.rowMajor_val_two, Shape.rowMajor_val_three]
    show (b.val * 4 + k.val / 128) * 128 + k.val % 128 = b.val * 512 + k.val
    have := k.isLt; omega)

end HostLayout

end
-- ==== Proof.KernelHost.lean ====
/-
  The arrays the fused kernel's region stages, in terms of the arguments, by entries.  The image array is the images
  flattened (lane 28·row + column).  The conv1 filter matrix [224, 1024] is four copies of the stacked taps [140, 256],
  copy `rr` shifted down by 28·rr rows and zero elsewhere, set side by side: entry `(k, 256·rr + c)` is tap `k/28 − rr`,
  column `k % 28` of the filter bank when `rr ≤ k/28 < rr + 5`, else zero.  The conv2 matrix [768, 512] is the same with two
  copies of the stacked taps [640, 256] shifted by 128·rr rows.  The biases and dense layers are the arguments under a
  format change, which is the identity on the extended reals.
-/
import proofs.«104378_g2000603622679809_pallasbulk_1028_50_alg».proof.Proof.KernelArray
import proofs.«104378_g2000603622679809_pallasbulk_1028_50_alg».proof.Proof.LibHostLayout
import Idealize.ShloMosaic.Lib.StableHlo.Run

set_option maxRecDepth 16384

noncomputable section

namespace Cert.KernelIdeal.KHost

open Cert.KernelIdeal Cert.KernelIdeal.Gen Cert.KernelIdeal.Fr Cert.KernelIdeal.Rd
open Idealize.ShloMosaic Idealize.ShloMosaic.TcCoe Idealize.ShloMosaic.ValueIdx Idealize.SL.Sem

variable (m : (ℓ : Loc nD τ sig) → Buf (Elt Ideal) ℓ) (c : Dev nD)

/-- The stacked conv1 taps: the filter bank [5, 28, 256] as a matrix [140, 256]. -/
abbrev w1f : S140x256.Idx → EReal := shapeCast S140x256 (m ((c : Thread nD τ).loc main_arg1)) shapeCasts_S5x28x256_S140x256
/-- The stacked conv2 taps: the filter bank [5, 128, 256] as a matrix [640, 256]. -/
abbrev w2f : S640x256.Idx → EReal := shapeCast S640x256 (m ((c : Thread nD τ).loc main_arg3)) shapeCasts_S5x128x256_S640x256
/-- The padding value: the integer zero converted. -/
abbrev zpad : S_.Idx → EReal := sitofp (F := Ideal) .f32 (constantI S_ 32 0#32)

theorem V_v0 : (V m c main_v0 : S16384x784.Idx → EReal)
    = shapeCast S16384x784 (m ((c : Thread nD τ).loc main_arg0)) shapeCasts_S16384x1x28x28_S16384x784 := by
  dsimp only [V]
  simp only [stretches, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem V_v13 : (V m c main_v13 : S1x128.Idx → EReal) = m ((c : Thread nD τ).loc main_arg2) := by
  dsimp only [V]
  simp only [stretches, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem V_v14 : (V m c main_v14 : S1x128.Idx → EReal) = m ((c : Thread nD τ).loc main_arg4) := by
  dsimp only [V]
  simp only [stretches, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem V_v15 : (V m c main_v15 : S512x50.Idx → EReal) = m ((c : Thread nD τ).loc main_arg5) := by
  dsimp only [V]
  simp only [stretches, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem V_v16 : (V m c main_v16 : S50x10.Idx → EReal) = m ((c : Thread nD τ).loc main_arg7) := by
  dsimp only [V]
  simp only [stretches, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

theorem V_v12 : (V m c main_v12 : S768x512.Idx → EReal)
    = truncf (F := Ideal) .bf16 (concatenate S768x512 1
        [⟨S768x256, pad S768x256 ![0, 0] ![128, 0] ![0, 0] (w2f m c) (zpad) pads_S640x256_S768x256_01280_000 h_S_⟩,
         ⟨S768x256, pad S768x256 ![128, 0] ![0, 0] ![0, 0] (w2f m c) (zpad) pads_S640x256_S768x256_12800_000 h_S_⟩]
        concatenates_S768x256_S768x256_S768x512_d1) bitsLt_bf16_f32 := by
  dsimp only [V]
  simp only [stretches, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

set_option maxHeartbeats 2000000 in
theorem V_v7 : (V m c main_v7 : S224x1024.Idx → EReal)
    = truncf (F := Ideal) .bf16 (concatenate S224x1024 1
        [⟨S224x256, pad S224x256 ![0, 0] ![84, 0] ![0, 0] (w1f m c) (zpad) pads_S140x256_S224x256_0840_000 h_S_⟩,
         ⟨S224x256, pad S224x256 ![28, 0] ![56, 0] ![0, 0] (w1f m c) (zpad) pads_S140x256_S224x256_28560_000 h_S_⟩,
         ⟨S224x256, pad S224x256 ![56, 0] ![28, 0] ![0, 0] (w1f m c) (zpad) pads_S140x256_S224x256_56280_000 h_S_⟩,
         ⟨S224x256, pad S224x256 ![84, 0] ![0, 0] ![0, 0] (w1f m c) (zpad) pads_S140x256_S224x256_8400_000 h_S_⟩]
        concatenates_S224x256_S224x256_S224x256_S224x256_S224x1024_d1) bitsLt_bf16_f32 := by
  dsimp only [V]
  simp only [stretches, hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  rfl

/-- The padding value is zero. -/
theorem zpad_eq (i : S_.Idx) : (zpad : S_.Idx → EReal) i = 0 := by
  show ((((0#32 : BitVec 32).toInt : ℤ) : ℝ) : EReal) = 0
  simp

/-- Row `b` of the staged image array: lane `k` is row `k / 28`, column `k % 28` of image `b`. -/
theorem img_entry (b : ℕ) (hb : b < 16384) :
    N2 (V m c main_v0 : S16384x784.Idx → EReal) b = fun k => N4u (m ((c : Thread nD τ).loc main_arg0)) b (k / 28) (k % 28) := by
  funext k
  by_cases hk : k < 784
  · rw [V_v0, ← N2_mk _ b k hb hk, HostLayout.flat_image_apply]
    exact N4u_mk _ b (k / 28) (k % 28) hb (by omega) (Nat.mod_lt _ (by norm_num))
  · unfold N2 N4u
    rw [dif_neg (fun h => hk h.2), dif_neg (fun h => by omega)]

/-- The conv1 filter matrix read at an entry: tap `k/28 − rr` where the shifted copy `rr` has one, zero elsewhere. -/
theorem W1g_entry (k : ℕ) (hk : k < 224) (rr : ℕ) (hrr : rr < 4) (cc : ℕ) (hcc : cc < 256) :
    N2 (V m c main_v7 : S224x1024.Idx → EReal) k (rr * 256 + cc)
      = if rr ≤ k / 28 ∧ k / 28 < rr + 5 then N3 (m ((c : Thread nD τ).loc main_arg1)) (k / 28 - rr) (k % 28) cc else 0 := by
  rw [V_v7, ← N2_mk _ k (rr * 256 + cc) hk (by omega), truncf_apply]
  interval_cases rr
  · -- piece 0: the taps shifted down by 0 rows
    rw [concatenate_apply_piece 1 _ _ (ix2 (⟨k, hk⟩ : Fin 224) (⟨0 * 256 + cc, by omega⟩ : Fin 1024)) 0 (by simp) S224x256 _ rfl rfl 0 (by rfl)
      (ix2 (⟨k, hk⟩ : Fin 224) (⟨cc, hcc⟩ : Fin 256)) (fun b hb => by
        match b, hb with
        | ⟨0, _⟩, _ => rfl
        | ⟨1, _⟩, hb => exact absurd rfl hb) (by show 0 + cc = 0 * 256 + cc; omega),
      HostLayout.pad_rows_apply]
    by_cases hw : 0 ≤ k / 28 ∧ k / 28 < 0 + 5
    · have hp : 0 ≤ k ∧ k - 0 < 140 := by omega
      rw [dif_pos hp, if_pos hw]
      have e1 : (k - 0) / 28 = k / 28 - 0 := by omega
      have e2 : (k - 0) % 28 = k % 28 := by omega
      refine (HostLayout.merge_lead_apply (n := 140) (A := 5) (B := 28) (C := 256) (by norm_num) (by norm_num)
        (m ((c : Thread nD τ).loc main_arg1)) shapeCasts_S5x28x256_S140x256 (⟨k - 0, hp.2⟩ : Fin 140) (⟨cc, hcc⟩ : Fin 256)).trans
        ((N3_mk _ ((k - 0) / 28) ((k - 0) % 28) cc (by omega) (Nat.mod_lt _ (by norm_num)) hcc).trans ?_)
      rw [e1, e2]
    · have hp : ¬ (0 ≤ k ∧ k - 0 < 140) := by omega
      rw [dif_neg hp, if_neg hw]
      exact zpad_eq _
  · -- piece 1: the taps shifted down by 1 row
    rw [concatenate_apply_piece 1 _ _ (ix2 (⟨k, hk⟩ : Fin 224) (⟨1 * 256 + cc, by omega⟩ : Fin 1024)) 1 (by simp) S224x256 _ rfl rfl 256 (by rfl)
      (ix2 (⟨k, hk⟩ : Fin 224) (⟨cc, hcc⟩ : Fin 256)) (fun b hb => by
        match b, hb with
        | ⟨0, _⟩, _ => rfl
        | ⟨1, _⟩, hb => exact absurd rfl hb) (by show 256 + cc = 1 * 256 + cc; omega),
      HostLayout.pad_rows_apply]
    by_cases hw : 1 ≤ k / 28 ∧ k / 28 < 1 + 5
    · have hp : 28 ≤ k ∧ k - 28 < 140 := by omega
      rw [dif_pos hp, if_pos hw]
      have e1 : (k - 28) / 28 = k / 28 - 1 := by omega
      have e2 : (k - 28) % 28 = k % 28 := by omega
      refine (HostLayout.merge_lead_apply (n := 140) (A := 5) (B := 28) (C := 256) (by norm_num) (by norm_num)
        (m ((c : Thread nD τ).loc main_arg1)) shapeCasts_S5x28x256_S140x256 (⟨k - 28, hp.2⟩ : Fin 140) (⟨cc, hcc⟩ : Fin 256)).trans
        ((N3_mk _ ((k - 28) / 28) ((k - 28) % 28) cc (by omega) (Nat.mod_lt _ (by norm_num)) hcc).trans ?_)
      rw [e1, e2]
    · have hp : ¬ (28 ≤ k ∧ k - 28 < 140) := by omega
      rw [dif_neg hp, if_neg hw]
      exact zpad_eq _
  · -- piece 2: the taps shifted down by 2 rows
    rw [concatenate_apply_piece 1 _ _ (ix2 (⟨k, hk⟩ : Fin 224) (⟨2 * 256 + cc, by omega⟩ : Fin 1024)) 2 (by simp) S224x256 _ rfl rfl 512 (by rfl)
      (ix2 (⟨k, hk⟩ : Fin 224) (⟨cc, hcc⟩ : Fin 256)) (fun b hb => by
        match b, hb with
        | ⟨0, _⟩, _ => rfl
        | ⟨1, _⟩, hb => exact absurd rfl hb) (by show 512 + cc = 2 * 256 + cc; omega),
      HostLayout.pad_rows_apply]
    by_cases hw : 2 ≤ k / 28 ∧ k / 28 < 2 + 5
    · have hp : 56 ≤ k ∧ k - 56 < 140 := by omega
      rw [dif_pos hp, if_pos hw]
      have e1 : (k - 56) / 28 = k / 28 - 2 := by omega
      have e2 : (k - 56) % 28 = k % 28 := by omega
      refine (HostLayout.merge_lead_apply (n := 140) (A := 5) (B := 28) (C := 256) (by norm_num) (by norm_num)
        (m ((c : Thread nD τ).loc main_arg1)) shapeCasts_S5x28x256_S140x256 (⟨k - 56, hp.2⟩ : Fin 140) (⟨cc, hcc⟩ : Fin 256)).trans
        ((N3_mk _ ((k - 56) / 28) ((k - 56) % 28) cc (by omega) (Nat.mod_lt _ (by norm_num)) hcc).trans ?_)
      rw [e1, e2]
    · have hp : ¬ (56 ≤ k ∧ k - 56 < 140) := by omega
      rw [dif_neg hp, if_neg hw]
      exact zpad_eq _
  · -- piece 3: the taps shifted down by 3 rows
    rw [concatenate_apply_piece 1 _ _ (ix2 (⟨k, hk⟩ : Fin 224) (⟨3 * 256 + cc, by omega⟩ : Fin 1024)) 3 (by simp) S224x256 _ rfl rfl 768 (by rfl)
      (ix2 (⟨k, hk⟩ : Fin 224) (⟨cc, hcc⟩ : Fin 256)) (fun b hb => by
        match b, hb with
        | ⟨0, _⟩, _ => rfl
        | ⟨1, _⟩, hb => exact absurd rfl hb) (by show 768 + cc = 3 * 256 + cc; omega),
      HostLayout.pad_rows_apply]
    by_cases hw : 3 ≤ k / 28 ∧ k / 28 < 3 + 5
    · have hp : 84 ≤ k ∧ k - 84 < 140 := by omega
      rw [dif_pos hp, if_pos hw]
      have e1 : (k - 84) / 28 = k / 28 - 3 := by omega
      have e2 : (k - 84) % 28 = k % 28 := by omega
      refine (HostLayout.merge_lead_apply (n := 140) (A := 5) (B := 28) (C := 256) (by norm_num) (by norm_num)
        (m ((c : Thread nD τ).loc main_arg1)) shapeCasts_S5x28x256_S140x256 (⟨k - 84, hp.2⟩ : Fin 140) (⟨cc, hcc⟩ : Fin 256)).trans
        ((N3_mk _ ((k - 84) / 28) ((k - 84) % 28) cc (by omega) (Nat.mod_lt _ (by norm_num)) hcc).trans ?_)
      rw [e1, e2]
    · have hp : ¬ (84 ≤ k ∧ k - 84 < 140) := by omega
      rw [dif_neg hp, if_neg hw]
      exact zpad_eq _

/-- The conv2 filter matrix read at an entry: tap `k/128 − rr` where the shifted copy `rr` has one, zero elsewhere. -/
theorem W2g_entry (k : ℕ) (hk : k < 768) (rr : ℕ) (hrr : rr < 2) (cc : ℕ) (hcc : cc < 256) :
    N2 (V m c main_v12 : S768x512.Idx → EReal) k (rr * 256 + cc)
      = if rr ≤ k / 128 ∧ k / 128 < rr + 5 then N3 (m ((c : Thread nD τ).loc main_arg3)) (k / 128 - rr) (k % 128) cc else 0 := by
  rw [V_v12, ← N2_mk _ k (rr * 256 + cc) hk (by omega), truncf_apply]
  interval_cases rr
  · -- piece 0: the taps shifted down by 0 rows
    rw [concatenate_apply_piece 1 _ _ (ix2 (⟨k, hk⟩ : Fin 768) (⟨0 * 256 + cc, by omega⟩ : Fin 512)) 0 (by simp) S768x256 _ rfl rfl 0 (by rfl)
      (ix2 (⟨k, hk⟩ : Fin 768) (⟨cc, hcc⟩ : Fin 256)) (fun b hb => by
        match b, hb with
        | ⟨0, _⟩, _ => rfl
        | ⟨1, _⟩, hb => exact absurd rfl hb) (by show 0 + cc = 0 * 256 + cc; omega),
      HostLayout.pad_rows_apply]
    by_cases hw : 0 ≤ k / 128 ∧ k / 128 < 0 + 5
    · have hp : 0 ≤ k ∧ k - 0 < 640 := by omega
      rw [dif_pos hp, if_pos hw]
      have e1 : (k - 0) / 128 = k / 128 - 0 := by omega
      have e2 : (k - 0) % 128 = k % 128 := by omega
      refine (HostLayout.merge_lead_apply (n := 640) (A := 5) (B := 128) (C := 256) (by norm_num) (by norm_num)
        (m ((c : Thread nD τ).loc main_arg3)) shapeCasts_S5x128x256_S640x256 (⟨k - 0, hp.2⟩ : Fin 640) (⟨cc, hcc⟩ : Fin 256)).trans
        ((N3_mk _ ((k - 0) / 128) ((k - 0) % 128) cc (by omega) (Nat.mod_lt _ (by norm_num)) hcc).trans ?_)
      rw [e1, e2]
    · have hp : ¬ (0 ≤ k ∧ k - 0 < 640) := by omega
      rw [dif_neg hp, if_neg hw]
      exact zpad_eq _
  · -- piece 1: the taps shifted down by 1 row
    rw [concatenate_apply_piece 1 _ _ (ix2 (⟨k, hk⟩ : Fin 768) (⟨1 * 256 + cc, by omega⟩ : Fin 512)) 1 (by simp) S768x256 _ rfl rfl 256 (by rfl)
      (ix2 (⟨k, hk⟩ : Fin 768) (⟨cc, hcc⟩ : Fin 256)) (fun b hb => by
        match b, hb with
        | ⟨0, _⟩, _ => rfl
        | ⟨1, _⟩, hb => exact absurd rfl hb) (by show 256 + cc = 1 * 256 + cc; omega),
      HostLayout.pad_rows_apply]
    by_cases hw : 1 ≤ k / 128 ∧ k / 128 < 1 + 5
    · have hp : 128 ≤ k ∧ k - 128 < 640 := by omega
      rw [dif_pos hp, if_pos hw]
      have e1 : (k - 128) / 128 = k / 128 - 1 := by omega
      have e2 : (k - 128) % 128 = k % 128 := by omega
      refine (HostLayout.merge_lead_apply (n := 640) (A := 5) (B := 128) (C := 256) (by norm_num) (by norm_num)
        (m ((c : Thread nD τ).loc main_arg3)) shapeCasts_S5x128x256_S640x256 (⟨k - 128, hp.2⟩ : Fin 640) (⟨cc, hcc⟩ : Fin 256)).trans
        ((N3_mk _ ((k - 128) / 128) ((k - 128) % 128) cc (by omega) (Nat.mod_lt _ (by norm_num)) hcc).trans ?_)
      rw [e1, e2]
    · have hp : ¬ (128 ≤ k ∧ k - 128 < 640) := by omega
      rw [dif_neg hp, if_neg hw]
      exact zpad_eq _

/-- THE KERNEL'S RESULT by entries: row `b` is the per-image expression of image `b`'s lanes, the staged filter
    matrices, and the biases and dense layers as launched. -/
theorem result_entry (b : Fin 16384) (j : Fin 10) :
    (dats m 0 c).arrAt 9 cfg0.N (ix2 b j)
      = kOut (fun k => N4u (m ((c : Thread nD τ).loc main_arg0)) b.val (k / 28) (k % 28))
          (N2 (V m c main_v7 : S224x1024.Idx → EReal)) (N2 (m ((c : Thread nD τ).loc main_arg2) : S1x128.Idx → EReal) 0)
          (N2 (V m c main_v12 : S768x512.Idx → EReal)) (N2 (m ((c : Thread nD τ).loc main_arg4) : S1x128.Idx → EReal) 0)
          (N2 (m ((c : Thread nD τ).loc main_arg5) : S512x50.Idx → EReal)) (N2 (m ((c : Thread nD τ).loc main_arg6) : S1x50.Idx → EReal) 0)
          (N2 (m ((c : Thread nD τ).loc main_arg7) : S50x10.Idx → EReal)) (N2 (m ((c : Thread nD τ).loc main_arg8) : S1x10.Idx → EReal) 0) j.val := by
  rw [KArray.final]
  show kOut (N2 (V m c main_v0 : S16384x784.Idx → EReal) b.val) (N2 (V m c main_v7 : S224x1024.Idx → EReal)) (N2 (V m c main_v13 : S1x128.Idx → EReal) 0)
      (N2 (V m c main_v12 : S768x512.Idx → EReal)) (N2 (V m c main_v14 : S1x128.Idx → EReal) 0) (N2 (V m c main_v15 : S512x50.Idx → EReal))
      (N2 (V m c main_arg6 : S1x50.Idx → EReal) 0) (N2 (V m c main_v16 : S50x10.Idx → EReal)) (N2 (V m c main_arg8 : S1x10.Idx → EReal) 0) j.val = _
  rw [img_entry m c b.val b.isLt, V_v13, V_v14, V_v15, V_v16, V_main_arg6, V_main_arg8]

end Cert.KernelIdeal.KHost

end
-- ==== Proof.RefRows.lean ====
/-
  The reference's three kernels read at one entry, at the ideal values.  One image per grid point in the two
  convolution calls: the accumulator at output row `a`, lane `c` is the sum over the five taps `i` of the product of
  image row `i + a` with filter tap `i`; lanes `l` and `128 + l` hold the even and odd output columns, so a pooled entry
  is the maximum over two lanes and two rows, plus the bias, clamped below at zero.
-/
import proofs.«104378_g2000603622679809_pallasbulk_1028_50_alg».proof.Proof.Gen.ReferenceIdeal.Frame
import proofs.«104378_g2000603622679809_pallasbulk_1028_50_alg».proof.Proof.LibEntry
import proofs.«104378_g2000603622679809_pallasbulk_1028_50_alg».proof.Proof.LibDenseHead
import proofs.«104378_g2000603622679809_pallasbulk_1028_50_alg».proof.Proof.LibColsSlice
import proofs.«104378_g2000603622679809_pallasbulk_1028_50_alg».proof.Proof.LibLayoutReads
import proofs.«104378_g2000603622679809_pallasbulk_1028_50_alg».proof.Proof.LibBroadcastTo
import Idealize.ShloMosaic.Lib.Pipeline.Value

set_option maxRecDepth 16384

noncomputable section

open scoped BigOperators

namespace Cert.ReferenceIdeal.RRd

open Idealize.ShloMosaic Idealize.ShloMosaic.ValueIdx Cert.ReferenceIdeal Cert.ReferenceIdeal.Gen Finset

/-! ## One image, by entries -/

section Spec
variable (X : ℕ → ℕ → EReal) (W : ℕ → ℕ → ℕ → EReal)

/-- Tap `i` of a row convolution: image row `i + a` against the tap's filter matrix, at lane `c`. -/
def tap (n i a c : ℕ) : EReal := ∑ w ∈ range n, X (i + a) w * W i w c

/-- The five taps, added in the program's order. -/
def rAcc (n a c : ℕ) : EReal := tap X W n 0 a c + tap X W n 1 a c + tap X W n 2 a c + tap X W n 3 a c + tap X W n 4 a c

/-- A pooled row: the maximum over lanes `l`, `128 + l` and rows `2p`, `2p + 1`, plus the bias, clamped below at zero. -/
def rPool (A : ℕ → ℕ → EReal) (B : ℕ → EReal) (p l : ℕ) : EReal :=
  max (max (max (A (2 * p) l) (A (2 * p) (128 + l))) (max (A (2 * p + 1) l) (A (2 * p + 1) (128 + l))) + B l) (Ideal.ofBits .f32 0x00000000#32)

end Spec

/-- The five-tap sum reads its image at rows `a … a + 4`, columns below `n`. -/
theorem rAcc_congr' {X X' : ℕ → ℕ → EReal} (W : ℕ → ℕ → ℕ → EReal) (n a cc : ℕ)
    (h : ∀ i w, w < n → X (i + a) w = X' (i + a) w) : rAcc X W n a cc = rAcc X' W n a cc := by
  unfold rAcc tap
  have e : ∀ i, (∑ w ∈ Finset.range n, X (i + a) w * W i w cc) = ∑ w ∈ Finset.range n, X' (i + a) w * W i w cc :=
    fun i => Finset.sum_congr rfl fun w hw => by rw [h i w (Finset.mem_range.mp hw)]
  rw [e 0, e 1, e 2, e 3, e 4]

/-! ## Partial loads and one tap's product -/

theorem hz3 : (![0, 0, 0] : Fin 3 → Nat) = fun _ => 0 := funext fun a => by fin_cases a <;> rfl
theorem hz2 : (![0, 0] : Fin 2 → Nat) = fun _ => 0 := funext fun a => by fin_cases a <;> rfl

/-- `R` consecutive rows from row `i` of a one-image block `[1, Rin, K]`, as a matrix `[R, K]`: entry `(a, w)` is the
    block's `(0, i + a, w)`. -/
theorem ld_rows {Rin R K i : Nat} (x0 : Vec Ideal ⟨3, ![1, Rin, K]⟩ .f32)
    (inb : ∀ a, (![0, i, 0] : Fin 3 → Nat) a + (⟨3, ![1, R, K]⟩ : Shape).size a ≤ (⟨3, ![1, Rin, K]⟩ : Shape).size a)
    (hc : (⟨3, ![1, R, K]⟩ : Shape).ShapeCasts ⟨2, ![R, K]⟩) (a : Fin R) (w : Fin K) :
    shapeCast ⟨2, ![R, K]⟩ (View.ld (Val := Elt Ideal) (e' := .f32) x0 (Rect.unit (s := ⟨3, ![1, Rin, K]⟩) ![0, i, 0] (⟨3, ![1, R, K]⟩ : Shape).size inb)) hc (ix2 a w)
      = N3 x0 0 (i + a.val) w.val := by
  have hR : i + a.val < Rin := by have := inb 1; have h2 : i + R ≤ Rin := this; have := a.isLt; omega
  rw [shapeCast_apply _ hc (ix2 a w) (ix3 (0 : Fin 1) a w) (by
    rw [Shape.rowMajor_val_two, Shape.rowMajor_val_three]
    show (0 * R + a.val) * K + w.val = a.val * K + w.val
    rw [Nat.zero_mul, Nat.zero_add])]
  show x0 ((Rect.unit (s := ⟨3, ![1, Rin, K]⟩) ![0, i, 0] (⟨3, ![1, R, K]⟩ : Shape).size inb).idx (ix3 (0 : Fin 1) a w)) = _
  rw [← N3_mk x0 0 (i + a.val) w.val (by norm_num) hR w.isLt]
  congr 1
  funext ax; apply Fin.ext
  match ax with
  | ⟨0, _⟩ => show 0 + 1 * 0 = 0; rfl
  | ⟨1, _⟩ => show i + 1 * a.val = i + a.val; omega
  | ⟨2, _⟩ => show 0 + 1 * w.val = w.val; omega

/-- Filter tap `i` of a bank `[5, K, 256]`, as a matrix `[K, 256]`: entry `(w, c)` is the bank's `(i, w, c)`. -/
theorem ld_tap {K i : Nat} (x1 : Vec Ideal ⟨3, ![5, K, 256]⟩ .f32)
    (inb : ∀ a, (![i, 0, 0] : Fin 3 → Nat) a + (⟨3, ![1, K, 256]⟩ : Shape).size a ≤ (⟨3, ![5, K, 256]⟩ : Shape).size a)
    (hc : (⟨3, ![1, K, 256]⟩ : Shape).ShapeCasts ⟨2, ![K, 256]⟩) (w : Fin K) (cc : Fin 256) :
    shapeCast ⟨2, ![K, 256]⟩ (View.ld (Val := Elt Ideal) (e' := .f32) x1 (Rect.unit (s := ⟨3, ![5, K, 256]⟩) ![i, 0, 0] (⟨3, ![1, K, 256]⟩ : Shape).size inb)) hc (ix2 w cc)
      = N3 x1 i w.val cc.val := by
  have hi : i < 5 := by have := inb 0; have h2 : i + 1 ≤ 5 := this; omega
  rw [shapeCast_apply _ hc (ix2 w cc) (ix3 (0 : Fin 1) w cc) (by
    rw [Shape.rowMajor_val_two, Shape.rowMajor_val_three]
    show (0 * K + w.val) * 256 + cc.val = w.val * 256 + cc.val
    rw [Nat.zero_mul, Nat.zero_add])]
  show x1 ((Rect.unit (s := ⟨3, ![5, K, 256]⟩) ![i, 0, 0] (⟨3, ![1, K, 256]⟩ : Shape).size inb).idx (ix3 (0 : Fin 1) w cc)) = _
  rw [← N3_mk x1 i w.val cc.val hi w.isLt cc.isLt]
  congr 1
  funext ax; apply Fin.ext
  match ax with
  | ⟨0, _⟩ => show i + 1 * 0 = i; omega
  | ⟨1, _⟩ => show 0 + 1 * w.val = w.val; omega
  | ⟨2, _⟩ => show 0 + 1 * cc.val = cc.val; omega

/-- One tap's product into zero, at an entry. -/
theorem tap_apply {Rin R K i : Nat} (x0 : Vec Ideal ⟨3, ![1, Rin, K]⟩ .f32) (x1 : Vec Ideal ⟨3, ![5, K, 256]⟩ .f32)
    (inb0 : ∀ a, (![0, i, 0] : Fin 3 → Nat) a + (⟨3, ![1, R, K]⟩ : Shape).size a ≤ (⟨3, ![1, Rin, K]⟩ : Shape).size a)
    (hc0 : (⟨3, ![1, R, K]⟩ : Shape).ShapeCasts ⟨2, ![R, K]⟩)
    (inb1 : ∀ a, (![i, 0, 0] : Fin 3 → Nat) a + (⟨3, ![1, K, 256]⟩ : Shape).size a ≤ (⟨3, ![5, K, 256]⟩ : Shape).size a)
    (hc1 : (⟨3, ![1, K, 256]⟩ : Shape).ShapeCasts ⟨2, ![K, 256]⟩)
    (wf : DotDims.WF ⟨2, ![R, K]⟩ ⟨2, ![K, 256]⟩ ⟨2, ![R, 256]⟩ [1] [0] [0] [1] [] []) (a : Fin R) (cc : Fin 256) :
    matmul (φ₁ := .f32) (φ₂ := .f32) (PlainProduct.rec2 wf) none
        (shapeCast ⟨2, ![R, K]⟩ (View.ld (Val := Elt Ideal) (e' := .f32) x0 (Rect.unit (s := ⟨3, ![1, Rin, K]⟩) ![0, i, 0] (⟨3, ![1, R, K]⟩ : Shape).size inb0)) hc0)
        (shapeCast ⟨2, ![K, 256]⟩ (View.ld (Val := Elt Ideal) (e' := .f32) x1 (Rect.unit (s := ⟨3, ![5, K, 256]⟩) ![i, 0, 0] (⟨3, ![1, K, 256]⟩ : Shape).size inb1)) hc1)
        (constant (F := Ideal) ⟨2, ![R, 256]⟩ .f32 0x00000000#32) (ix2 a cc)
      = tap (N3 x0 0) (N3 x1) K i a.val cc.val := by
  rw [DenseHead.matmul_entry]
  unfold DenseHead.dot tap
  refine Finset.sum_congr rfl fun w hw => ?_
  have hw' := Finset.mem_range.mp hw
  rw [← N2_mk _ a.val w a.isLt hw', ← N2_mk _ w cc.val hw' cc.isLt, ld_rows x0 inb0 hc0 a ⟨w, hw'⟩, ld_tap x1 inb1 hc1 ⟨w, hw'⟩ cc]

/-! ## Lane pairs, row pairs, a leading unit axis -/

/-- The maximum of lanes `l` and `128 + l`, by entries. -/
theorem pair_cols {R : Nat} (A : FVec Ideal ⟨2, ![R, 256]⟩ .f32) (h0 : (⟨2, ![R, 256]⟩ : Shape).Slices ![0, 0] ⟨2, ![R, 128]⟩)
    (h1 : (⟨2, ![R, 256]⟩ : Shape).Slices ![0, 128] ⟨2, ![R, 128]⟩) (a : ℕ) (ha : a < R) (l : Fin 128) :
    N2 (maximumf (extractStridedSlice ⟨2, ![R, 128]⟩ ![0, 0] A h0 : FVec Ideal ⟨2, ![R, 128]⟩ .f32) (extractStridedSlice ⟨2, ![R, 128]⟩ ![0, 128] A h1)) a l.val
      = max (N2 A a l.val) (N2 A a (128 + l.val)) := by
  have hl := l.isLt
  rw [← N2_mk _ a l.val ha l.isLt, maximumf_apply, Cert.ColsSlice.cols_slice_apply A h0 (by norm_num) ⟨a, ha⟩ l,
    Cert.ColsSlice.cols_slice_apply A h1 (by norm_num) ⟨a, ha⟩ l]
  exact congrArg₂ max ((N2_mk A a (0 + l.val) ha (by omega)).trans (by rw [Nat.zero_add])) (N2_mk A a (128 + l.val) ha (by omega))

/-- The maximum of rows `o` and `o + 1`, each sliced out as a one-row matrix. -/
theorem rowpair_apply {R : Nat} (A : FVec Ideal ⟨2, ![R, 128]⟩ .f32) (o : ℕ) (h1 : (⟨2, ![R, 128]⟩ : Shape).Slices ![o, 0] ⟨2, ![1, 128]⟩)
    (h2 : (⟨2, ![R, 128]⟩ : Shape).Slices ![o + 1, 0] ⟨2, ![1, 128]⟩) (ho : o + 2 ≤ R) (l : Fin 128) :
    (maximumf (extractStridedSlice ⟨2, ![1, 128]⟩ ![o, 0] A h1 : FVec Ideal ⟨2, ![1, 128]⟩ .f32) (extractStridedSlice ⟨2, ![1, 128]⟩ ![o + 1, 0] A h2)) (ix2 (0 : Fin 1) l)
      = max (N2 A o l.val) (N2 A (o + 1) l.val) := by
  rw [maximumf_apply, Cert.LayoutReads.rows_slice_apply A h1 (by omega) (0 : Fin 1) l, Cert.LayoutReads.rows_slice_apply A h2 (by omega) (0 : Fin 1) l]
  exact congrArg₂ max (N2_mk A (o + 0) l.val (by omega) l.isLt) (N2_mk A (o + 1 + 0) l.val (by omega) l.isLt)

/-- A matrix given a leading unit axis: entry `(0, p, l)` is the matrix's `(p, l)`. -/
theorem addUnit3_apply {a b : Nat} (v : (⟨2, ![a, b]⟩ : Shape).Idx → EReal) (h : (⟨2, ![a, b]⟩ : Shape).ShapeCasts ⟨3, ![1, a, b]⟩)
    (p : Fin a) (l : Fin b) : shapeCast ⟨3, ![1, a, b]⟩ v h (ix3 (0 : Fin 1) p l) = v (ix2 p l) :=
  shapeCast_apply v h (ix3 (0 : Fin 1) p l) (ix2 p l) (by
    rw [Shape.rowMajor_val_three, Shape.rowMajor_val_two]
    show p.val * b + l.val = (0 * a + p.val) * b + l.val
    rw [Nat.zero_mul, Nat.zero_add])

/-! ## Region 0: one image's first convolution, pooling, bias and clamp -/

/-- The five-tap accumulator of region 0 by entries. -/
theorem acc0_entry (x0 : Vec Ideal S1x28x28 .f32) (x1 : Vec Ideal S5x28x256 .f32) (a : ℕ) (ha : a < 24) (cc : ℕ) (hcc : cc < 256) :
    N2 (addf (k0_pay1 (F := Ideal) (View.ld x0 r0_0) (View.ld x1 r0_1) (View.ld x0 r0_2) (View.ld x1 r0_3) (View.ld x0 r0_4) (View.ld x1 r0_5) (View.ld x0 r0_6) (View.ld x1 r0_7))
        (matmul (φ₁ := .f32) (φ₂ := .f32) dot_S24x28_S28x256_S24x256_1_0_0_1_n_n none (k0_pay2 (F := Ideal) (View.ld x0 r0_8)) (shapeCast S28x256 (View.ld x1 r0_9) shapeCasts_S1x28x256_S28x256) (constant S24x256 .f32 0x00000000#32))) a cc
      = rAcc (N3 x0 0) (N3 x1) 28 a cc := by
  rw [← N2_mk _ a cc ha hcc]
  unfold k0_pay1 k0_pay2
  simp only [addf_apply]
  rw [show dot_S24x28_S28x256_S24x256_1_0_0_1_n_n = PlainProduct.rec2 dot_S24x28_S28x256_S24x256_1_0_0_1_n_n_wf from rfl]
  rw [tap_apply x0 x1 inb_S1x28x28_S1x24x28_0_0_0 shapeCasts_S1x24x28_S24x28 inb_S5x28x256_S1x28x256_0_0_0 shapeCasts_S1x28x256_S28x256 _ ⟨a, ha⟩ ⟨cc, hcc⟩,
    tap_apply x0 x1 inb_S1x28x28_S1x24x28_0_1_0 shapeCasts_S1x24x28_S24x28 inb_S5x28x256_S1x28x256_1_0_0 shapeCasts_S1x28x256_S28x256 _ ⟨a, ha⟩ ⟨cc, hcc⟩,
    tap_apply x0 x1 inb_S1x28x28_S1x24x28_0_2_0 shapeCasts_S1x24x28_S24x28 inb_S5x28x256_S1x28x256_2_0_0 shapeCasts_S1x28x256_S28x256 _ ⟨a, ha⟩ ⟨cc, hcc⟩,
    tap_apply x0 x1 inb_S1x28x28_S1x24x28_0_3_0 shapeCasts_S1x24x28_S24x28 inb_S5x28x256_S1x28x256_3_0_0 shapeCasts_S1x28x256_S28x256 _ ⟨a, ha⟩ ⟨cc, hcc⟩,
    tap_apply x0 x1 inb_S1x28x28_S1x24x28_0_4_0 shapeCasts_S1x24x28_S24x28 inb_S5x28x256_S1x28x256_4_0_0 shapeCasts_S1x28x256_S28x256 _ ⟨a, ha⟩ ⟨cc, hcc⟩]
  rfl

/-- 12 one-row pieces stacked, piece `p` the maximum of rows `2p` and `2p + 1` of `A`. -/
theorem cat0_pairs (A : FVec Ideal S24x128 .f32) (p : Fin 12) (l : Fin 128) :
    concatenate S12x128 0
      [⟨S1x128, maximumf (extractStridedSlice S1x128 ![0, 0] A slices_S24x128_o0_0_S1x128) (extractStridedSlice S1x128 ![1, 0] A slices_S24x128_o1_0_S1x128)⟩,
      ⟨S1x128, maximumf (extractStridedSlice S1x128 ![2, 0] A slices_S24x128_o2_0_S1x128) (extractStridedSlice S1x128 ![3, 0] A slices_S24x128_o3_0_S1x128)⟩,
      ⟨S1x128, maximumf (extractStridedSlice S1x128 ![4, 0] A slices_S24x128_o4_0_S1x128) (extractStridedSlice S1x128 ![5, 0] A slices_S24x128_o5_0_S1x128)⟩,
      ⟨S1x128, maximumf (extractStridedSlice S1x128 ![6, 0] A slices_S24x128_o6_0_S1x128) (extractStridedSlice S1x128 ![7, 0] A slices_S24x128_o7_0_S1x128)⟩,
      ⟨S1x128, maximumf (extractStridedSlice S1x128 ![8, 0] A slices_S24x128_o8_0_S1x128) (extractStridedSlice S1x128 ![9, 0] A slices_S24x128_o9_0_S1x128)⟩,
      ⟨S1x128, maximumf (extractStridedSlice S1x128 ![10, 0] A slices_S24x128_o10_0_S1x128) (extractStridedSlice S1x128 ![11, 0] A slices_S24x128_o11_0_S1x128)⟩,
      ⟨S1x128, maximumf (extractStridedSlice S1x128 ![12, 0] A slices_S24x128_o12_0_S1x128) (extractStridedSlice S1x128 ![13, 0] A slices_S24x128_o13_0_S1x128)⟩,
      ⟨S1x128, maximumf (extractStridedSlice S1x128 ![14, 0] A slices_S24x128_o14_0_S1x128) (extractStridedSlice S1x128 ![15, 0] A slices_S24x128_o15_0_S1x128)⟩,
      ⟨S1x128, maximumf (extractStridedSlice S1x128 ![16, 0] A slices_S24x128_o16_0_S1x128) (extractStridedSlice S1x128 ![17, 0] A slices_S24x128_o17_0_S1x128)⟩,
      ⟨S1x128, maximumf (extractStridedSlice S1x128 ![18, 0] A slices_S24x128_o18_0_S1x128) (extractStridedSlice S1x128 ![19, 0] A slices_S24x128_o19_0_S1x128)⟩,
      ⟨S1x128, maximumf (extractStridedSlice S1x128 ![20, 0] A slices_S24x128_o20_0_S1x128) (extractStridedSlice S1x128 ![21, 0] A slices_S24x128_o21_0_S1x128)⟩,
      ⟨S1x128, maximumf (extractStridedSlice S1x128 ![22, 0] A slices_S24x128_o22_0_S1x128) (extractStridedSlice S1x128 ![23, 0] A slices_S24x128_o23_0_S1x128)⟩]
      concatenates_S1x128_S1x128_S1x128_S1x128_S1x128_S1x128_S1x128_S1x128_S1x128_S1x128_S1x128_S1x128_S12x128_d0 (ix2 p l)
      = max (N2 A (2 * p.val) l.val) (N2 A (2 * p.val + 1) l.val) := by
  obtain ⟨pv, hp⟩ := p
  interval_cases pv
  · exact (concatenate_apply_piece 0 _ _ (ix2 (⟨0, hp⟩ : Fin 12) l) 0 (by simp) S1x128 _ rfl rfl 0 (by rfl) (ix2 (0 : Fin 1) l)
      (fun b hb => by
        match b, hb with
        | ⟨0, _⟩, hb => exact absurd rfl hb
        | ⟨1, _⟩, _ => rfl) (by rfl)).trans (rowpair_apply A 0 _ _ (by norm_num) l)
  · exact (concatenate_apply_piece 0 _ _ (ix2 (⟨1, hp⟩ : Fin 12) l) 1 (by simp) S1x128 _ rfl rfl 1 (by rfl) (ix2 (0 : Fin 1) l)
      (fun b hb => by
        match b, hb with
        | ⟨0, _⟩, hb => exact absurd rfl hb
        | ⟨1, _⟩, _ => rfl) (by rfl)).trans (rowpair_apply A 2 _ _ (by norm_num) l)
  · exact (concatenate_apply_piece 0 _ _ (ix2 (⟨2, hp⟩ : Fin 12) l) 2 (by simp) S1x128 _ rfl rfl 2 (by rfl) (ix2 (0 : Fin 1) l)
      (fun b hb => by
        match b, hb with
        | ⟨0, _⟩, hb => exact absurd rfl hb
        | ⟨1, _⟩, _ => rfl) (by rfl)).trans (rowpair_apply A 4 _ _ (by norm_num) l)
  · exact (concatenate_apply_piece 0 _ _ (ix2 (⟨3, hp⟩ : Fin 12) l) 3 (by simp) S1x128 _ rfl rfl 3 (by rfl) (ix2 (0 : Fin 1) l)
      (fun b hb => by
        match b, hb with
        | ⟨0, _⟩, hb => exact absurd rfl hb
        | ⟨1, _⟩, _ => rfl) (by rfl)).trans (rowpair_apply A 6 _ _ (by norm_num) l)
  · exact (concatenate_apply_piece 0 _ _ (ix2 (⟨4, hp⟩ : Fin 12) l) 4 (by simp) S1x128 _ rfl rfl 4 (by rfl) (ix2 (0 : Fin 1) l)
      (fun b hb => by
        match b, hb with
        | ⟨0, _⟩, hb => exact absurd rfl hb
        | ⟨1, _⟩, _ => rfl) (by rfl)).trans (rowpair_apply A 8 _ _ (by norm_num) l)
  · exact (concatenate_apply_piece 0 _ _ (ix2 (⟨5, hp⟩ : Fin 12) l) 5 (by simp) S1x128 _ rfl rfl 5 (by rfl) (ix2 (0 : Fin 1) l)
      (fun b hb => by
        match b, hb with
        | ⟨0, _⟩, hb => exact absurd rfl hb
        | ⟨1, _⟩, _ => rfl) (by rfl)).trans (rowpair_apply A 10 _ _ (by norm_num) l)
  · exact (concatenate_apply_piece 0 _ _ (ix2 (⟨6, hp⟩ : Fin 12) l) 6 (by simp) S1x128 _ rfl rfl 6 (by rfl) (ix2 (0 : Fin 1) l)
      (fun b hb => by
        match b, hb with
        | ⟨0, _⟩, hb => exact absurd rfl hb
        | ⟨1, _⟩, _ => rfl) (by rfl)).trans (rowpair_apply A 12 _ _ (by norm_num) l)
  · exact (concatenate_apply_piece 0 _ _ (ix2 (⟨7, hp⟩ : Fin 12) l) 7 (by simp) S1x128 _ rfl rfl 7 (by rfl) (ix2 (0 : Fin 1) l)
      (fun b hb => by
        match b, hb with
        | ⟨0, _⟩, hb => exact absurd rfl hb
        | ⟨1, _⟩, _ => rfl) (by rfl)).trans (rowpair_apply A 14 _ _ (by norm_num) l)
  · exact (concatenate_apply_piece 0 _ _ (ix2 (⟨8, hp⟩ : Fin 12) l) 8 (by simp) S1x128 _ rfl rfl 8 (by rfl) (ix2 (0 : Fin 1) l)
      (fun b hb => by
        match b, hb with
        | ⟨0, _⟩, hb => exact absurd rfl hb
        | ⟨1, _⟩, _ => rfl) (by rfl)).trans (rowpair_apply A 16 _ _ (by norm_num) l)
  · exact (concatenate_apply_piece 0 _ _ (ix2 (⟨9, hp⟩ : Fin 12) l) 9 (by simp) S1x128 _ rfl rfl 9 (by rfl) (ix2 (0 : Fin 1) l)
      (fun b hb => by
        match b, hb with
        | ⟨0, _⟩, hb => exact absurd rfl hb
        | ⟨1, _⟩, _ => rfl) (by rfl)).trans (rowpair_apply A 18 _ _ (by norm_num) l)
  · exact (concatenate_apply_piece 0 _ _ (ix2 (⟨10, hp⟩ : Fin 12) l) 10 (by simp) S1x128 _ rfl rfl 10 (by rfl) (ix2 (0 : Fin 1) l)
      (fun b hb => by
        match b, hb with
        | ⟨0, _⟩, hb => exact absurd rfl hb
        | ⟨1, _⟩, _ => rfl) (by rfl)).trans (rowpair_apply A 20 _ _ (by norm_num) l)
  · exact (concatenate_apply_piece 0 _ _ (ix2 (⟨11, hp⟩ : Fin 12) l) 11 (by simp) S1x128 _ rfl rfl 11 (by rfl) (ix2 (0 : Fin 1) l)
      (fun b hb => by
        match b, hb with
        | ⟨0, _⟩, hb => exact absurd rfl hb
        | ⟨1, _⟩, _ => rfl) (by rfl)).trans (rowpair_apply A 22 _ _ (by norm_num) l)

/-- THE OUTPUT BLOCK of region 0 at an entry: the pooled, biased, clamped row. -/
theorem out0_entry (x0 : Vec Ideal S1x28x28 .f32) (x1 : Vec Ideal S5x28x256 .f32) (x2 : Vec Ideal S1x128 .f32) (p : Fin 12) (l : Fin 128) :
    out0_3 (F := Ideal) x0 x1 x2 (ix3 (0 : Fin 1) p l) = rPool (rAcc (N3 x0 0) (N3 x1) 28) (N2 x2 0) p.val l.val := by
  unfold out0_3
  rw [View.canon_unit_zero hz3]
  unfold k0_pay3
  rw [addUnit3_apply, maximumf_apply, addf_apply, ValueIdx.broadcast_apply, Cert.BroadcastTo.row_apply, View.ld_unit_zero (S := S1x128) hz2,
    cat0_pairs]
  have hp := p.isLt
  rw [pair_cols _ _ _ (2 * p.val) (by omega) l, pair_cols _ _ _ (2 * p.val + 1) (by omega) l]
  have hl := l.isLt
  rw [acc0_entry x0 x1 (2 * p.val) (by omega) l.val (by omega), acc0_entry x0 x1 (2 * p.val) (by omega) (128 + l.val) (by omega),
    acc0_entry x0 x1 (2 * p.val + 1) (by omega) l.val (by omega), acc0_entry x0 x1 (2 * p.val + 1) (by omega) (128 + l.val) (by omega)]
  unfold rPool
  rw [N2_ix2 x2 0 l]
  rfl

/-! ## Region 1: one image's second convolution, pooling, bias and clamp -/

/-- The five-tap accumulator of region 1 by entries. -/
theorem acc1_entry (x0 : Vec Ideal S1x12x128 .f32) (x1 : Vec Ideal S5x128x256 .f32) (a : ℕ) (ha : a < 8) (cc : ℕ) (hcc : cc < 256) :
    N2 (addf (k1_pay2 (F := Ideal) (View.ld x0 r1_0) (View.ld x1 r1_1) (View.ld x0 r1_2) (View.ld x1 r1_3) (View.ld x0 r1_4) (View.ld x1 r1_5) (View.ld x0 r1_6) (View.ld x1 r1_7))
        (matmul (φ₁ := .f32) (φ₂ := .f32) dot_S8x128_S128x256_S8x256_1_0_0_1_n_n none (k1_pay3 (F := Ideal) (View.ld x0 r1_8)) (shapeCast S128x256 (View.ld x1 r1_9) shapeCasts_S1x128x256_S128x256) (constant S8x256 .f32 0x00000000#32))) a cc
      = rAcc (N3 x0 0) (N3 x1) 128 a cc := by
  rw [← N2_mk _ a cc ha hcc]
  unfold k1_pay2 k1_pay3
  simp only [addf_apply]
  rw [show dot_S8x128_S128x256_S8x256_1_0_0_1_n_n = PlainProduct.rec2 dot_S8x128_S128x256_S8x256_1_0_0_1_n_n_wf from rfl]
  rw [tap_apply x0 x1 inb_S1x12x128_S1x8x128_0_0_0 shapeCasts_S1x8x128_S8x128 inb_S5x128x256_S1x128x256_0_0_0 shapeCasts_S1x128x256_S128x256 _ ⟨a, ha⟩ ⟨cc, hcc⟩,
    tap_apply x0 x1 inb_S1x12x128_S1x8x128_0_1_0 shapeCasts_S1x8x128_S8x128 inb_S5x128x256_S1x128x256_1_0_0 shapeCasts_S1x128x256_S128x256 _ ⟨a, ha⟩ ⟨cc, hcc⟩,
    tap_apply x0 x1 inb_S1x12x128_S1x8x128_0_2_0 shapeCasts_S1x8x128_S8x128 inb_S5x128x256_S1x128x256_2_0_0 shapeCasts_S1x128x256_S128x256 _ ⟨a, ha⟩ ⟨cc, hcc⟩,
    tap_apply x0 x1 inb_S1x12x128_S1x8x128_0_3_0 shapeCasts_S1x8x128_S8x128 inb_S5x128x256_S1x128x256_3_0_0 shapeCasts_S1x128x256_S128x256 _ ⟨a, ha⟩ ⟨cc, hcc⟩,
    tap_apply x0 x1 inb_S1x12x128_S1x8x128_0_4_0 shapeCasts_S1x8x128_S8x128 inb_S5x128x256_S1x128x256_4_0_0 shapeCasts_S1x128x256_S128x256 _ ⟨a, ha⟩ ⟨cc, hcc⟩]
  rfl

/-- 4 one-row pieces stacked, piece `p` the maximum of rows `2p` and `2p + 1` of `A`. -/
theorem cat1_pairs (A : FVec Ideal S8x128 .f32) (p : Fin 4) (l : Fin 128) :
    concatenate S4x128 0
      [⟨S1x128, maximumf (extractStridedSlice S1x128 ![0, 0] A slices_S8x128_o0_0_S1x128) (extractStridedSlice S1x128 ![1, 0] A slices_S8x128_o1_0_S1x128)⟩,
      ⟨S1x128, maximumf (extractStridedSlice S1x128 ![2, 0] A slices_S8x128_o2_0_S1x128) (extractStridedSlice S1x128 ![3, 0] A slices_S8x128_o3_0_S1x128)⟩,
      ⟨S1x128, maximumf (extractStridedSlice S1x128 ![4, 0] A slices_S8x128_o4_0_S1x128) (extractStridedSlice S1x128 ![5, 0] A slices_S8x128_o5_0_S1x128)⟩,
      ⟨S1x128, maximumf (extractStridedSlice S1x128 ![6, 0] A slices_S8x128_o6_0_S1x128) (extractStridedSlice S1x128 ![7, 0] A slices_S8x128_o7_0_S1x128)⟩]
      concatenates_S1x128_S1x128_S1x128_S1x128_S4x128_d0 (ix2 p l)
      = max (N2 A (2 * p.val) l.val) (N2 A (2 * p.val + 1) l.val) := by
  obtain ⟨pv, hp⟩ := p
  interval_cases pv
  · exact (concatenate_apply_piece 0 _ _ (ix2 (⟨0, hp⟩ : Fin 4) l) 0 (by simp) S1x128 _ rfl rfl 0 (by rfl) (ix2 (0 : Fin 1) l)
      (fun b hb => by
        match b, hb with
        | ⟨0, _⟩, hb => exact absurd rfl hb
        | ⟨1, _⟩, _ => rfl) (by rfl)).trans (rowpair_apply A 0 _ _ (by norm_num) l)
  · exact (concatenate_apply_piece 0 _ _ (ix2 (⟨1, hp⟩ : Fin 4) l) 1 (by simp) S1x128 _ rfl rfl 1 (by rfl) (ix2 (0 : Fin 1) l)
      (fun b hb => by
        match b, hb with
        | ⟨0, _⟩, hb => exact absurd rfl hb
        | ⟨1, _⟩, _ => rfl) (by rfl)).trans (rowpair_apply A 2 _ _ (by norm_num) l)
  · exact (concatenate_apply_piece 0 _ _ (ix2 (⟨2, hp⟩ : Fin 4) l) 2 (by simp) S1x128 _ rfl rfl 2 (by rfl) (ix2 (0 : Fin 1) l)
      (fun b hb => by
        match b, hb with
        | ⟨0, _⟩, hb => exact absurd rfl hb
        | ⟨1, _⟩, _ => rfl) (by rfl)).trans (rowpair_apply A 4 _ _ (by norm_num) l)
  · exact (concatenate_apply_piece 0 _ _ (ix2 (⟨3, hp⟩ : Fin 4) l) 3 (by simp) S1x128 _ rfl rfl 3 (by rfl) (ix2 (0 : Fin 1) l)
      (fun b hb => by
        match b, hb with
        | ⟨0, _⟩, hb => exact absurd rfl hb
        | ⟨1, _⟩, _ => rfl) (by rfl)).trans (rowpair_apply A 6 _ _ (by norm_num) l)

/-- THE OUTPUT BLOCK of region 1 at an entry: the pooled, biased, clamped row. -/
theorem out1_entry (x0 : Vec Ideal S1x12x128 .f32) (x1 : Vec Ideal S5x128x256 .f32) (x2 : Vec Ideal S1x128 .f32) (p : Fin 4) (l : Fin 128) :
    out1_3 (F := Ideal) x0 x1 x2 (ix3 (0 : Fin 1) p l) = rPool (rAcc (N3 x0 0) (N3 x1) 128) (N2 x2 0) p.val l.val := by
  unfold out1_3
  rw [View.canon_unit_zero hz3]
  unfold k1_pay1
  rw [addUnit3_apply, maximumf_apply, addf_apply, ValueIdx.broadcast_apply, Cert.BroadcastTo.row_apply, View.ld_unit_zero (S := S1x128) hz2,
    cat1_pairs]
  have hp := p.isLt
  rw [pair_cols _ _ _ (2 * p.val) (by omega) l, pair_cols _ _ _ (2 * p.val + 1) (by omega) l]
  have hl := l.isLt
  rw [acc1_entry x0 x1 (2 * p.val) (by omega) l.val (by omega), acc1_entry x0 x1 (2 * p.val) (by omega) (128 + l.val) (by omega),
    acc1_entry x0 x1 (2 * p.val + 1) (by omega) l.val (by omega), acc1_entry x0 x1 (2 * p.val + 1) (by omega) (128 + l.val) (by omega)]
  unfold rPool
  rw [N2_ix2 x2 0 l]
  rfl

/-! ## Region 2: the dense head on 256 rows -/

/-- The dense head of one row, by entries: the row's 512 lanes `A`, the layers `F1`, `G1`, `F2`, `G2`. -/
def rHead (A : ℕ → EReal) (F1 : ℕ → ℕ → EReal) (G1 : ℕ → EReal) (F2 : ℕ → ℕ → EReal) (G2 : ℕ → EReal) (j : ℕ) : EReal :=
  DenseHead.lsm (fun j' => DenseHead.dot (fun n => max (DenseHead.dot A F1 512 n + G1 n) (Ideal.ofBits .f32 0x00000000#32)) F2 50 j' + G2 j') j

/-- THE OUTPUT BLOCK of region 2 at an entry. -/
theorem out2_entry (x0 : Vec Ideal S256x512 .f32) (x1 : Vec Ideal S512x50 .f32) (x2 : Vec Ideal S1x50 .f32) (x3 : Vec Ideal S50x10 .f32)
    (x4 : Vec Ideal S1x10 .f32) (r : Fin 256) (j : Fin 10) :
    out2_5 (F := Ideal) x0 x1 x2 x3 x4 (ix2 r j) = rHead (N2 x0 r.val) (N2 x1) (N2 x2 0) (N2 x3) (N2 x4 0) j.val := by
  unfold out2_5
  rw [View.canon_unit_zero hz2]
  simp only [View.ld_unit_zero (S := S256x512) hz2, View.ld_unit_zero (S := S512x50) hz2, View.ld_unit_zero (S := S1x50) hz2,
    View.ld_unit_zero (S := S50x10) hz2, View.ld_unit_zero (S := S1x10) hz2]
  unfold k2_pay1
  refine (DenseHead.lsm_apply _ _ _ _ _ _ _ _ r j).trans ?_
  unfold rHead
  refine DenseHead.lsm_congr (fun k hk => ?_) j.isLt
  rw [← N2_mk _ r.val k r.isLt hk, addf_apply,
    show dot_S256x50_S50x10_S256x10_1_0_0_1_n_n = PlainProduct.rec2 dot_S256x50_S50x10_S256x10_1_0_0_1_n_n_wf from rfl,
    DenseHead.matmul_entry, DenseHead.bias_entry]
  congr 1
  refine DenseHead.dot_congr (fun n hn => ?_) _ _
  rw [← N2_mk _ r.val n r.isLt hn, maximumf_apply, addf_apply, ValueIdx.broadcast_apply,
    show shapeCast S256x512 x0 shapeCasts_S256x512_S256x512 = x0 from shapeCast_self _ _,
    show dot_S256x512_S512x50_S256x50_1_0_0_1_n_n = PlainProduct.rec2 dot_S256x512_S512x50_S256x50_1_0_0_1_n_n_wf from rfl,
    DenseHead.matmul_entry, DenseHead.bias_entry]
  rfl

end Cert.ReferenceIdeal.RRd

end
-- ==== Proof.RefArray.lean ====
/-
  The reference's three output arrays, each as one function of the arrays its region reads.  In the two convolution
  calls grid point `t` handles image `t`: its input block is that image, the filter bank and bias are whole at every
  point, its output block is that image's pooled rows.  In the dense head grid point `t` handles rows 256·t … 256·t + 255.
  The index maps are read symbolically (block index `t` at point `t`), the block a point writes is read at a symbolic point,
  and the blocks cover each output array.
-/
import proofs.«104378_g2000603622679809_pallasbulk_1028_50_alg».proof.Proof.RefRun
import proofs.«104378_g2000603622679809_pallasbulk_1028_50_alg».proof.Proof.RefRows
import proofs.«104378_g2000603622679809_pallasbulk_1028_50_alg».proof.Proof.LibHostLayout
import Idealize.ShloMosaic.Lib.Pipeline.Value
import Idealize.ShloMosaic.Lib.StableHlo.Run

set_option maxRecDepth 16384

noncomputable section

namespace Cert.ReferenceIdeal.RArr

open Cert.ReferenceIdeal Cert.ReferenceIdeal.Gen Cert.ReferenceIdeal.RRd
open Idealize.ShloMosaic Idealize.ShloMosaic.TcCoe Idealize.ShloMosaic.ValueIdx Idealize.SL.Sem
open Idealize.ShloMosaic.Pipeline (Dat)

/-! ## Region 0 -/

section Region0
variable (V : (c : Dev nD) → (b : Ref sig .tc) → Buf (Elt Ideal) ((c : Thread nD τ).loc b)) (c : Dev nD)

theorem coords0 (t : Fin cfg0.N) : ((grid0.coords t) 0).val = t.val := by
  have ht : t.val < 16384 := by have := t.isLt; have h := N_0; exact h ▸ this
  show t.val / grid0.stride 0 % 16384 = t.val
  have hs : grid0.stride (0 : Fin 1) = 1 := by decide
  rw [hs, Nat.div_one, Nat.mod_eq_of_lt ht]

theorem idx0_in (t : Fin cfg0.N) : win0_0.index t (0 : Fin 3) = t.val := by
  have ht : t.val < 16384 := by have := t.isLt; have h := N_0; exact h ▸ this
  show (BitVec.ofNat 32 ((grid0.coords t) 0).val).toNat = t.val
  rw [coords0, BitVec.toNat_ofNat]
  exact Nat.mod_eq_of_lt (by omega)

theorem idx0_out (t : Fin cfg0.N) : win0_3.index t (0 : Fin 3) = t.val := by
  have ht : t.val < 16384 := by have := t.isLt; have h := N_0; exact h ▸ this
  show (BitVec.ofNat 32 ((grid0.coords t) 0).val).toNat = t.val
  rw [coords0, BitVec.toNat_ofNat]
  exact Nat.mod_eq_of_lt (by omega)

/-- The image block at point `t` is image `t` of the input array. -/
theorem blk0_in (t : Fin cfg0.N) :
    N3 (iblk0 V c 0 t : S1x28x28.Idx → EReal) 0 = N3 (V c main_v0 : S16384x28x28.Idx → EReal) t.val := by
  have ht : t.val < 16384 := by have := t.isLt; have h := N_0; exact h ▸ this
  funext a w
  by_cases h : a < 28 ∧ w < 28
  · rw [← N3_mk (iblk0 V c 0 t : S1x28x28.Idx → EReal) 0 a w (by norm_num) h.1 h.2,
      ← N3_mk (V c main_v0 : S16384x28x28.Idx → EReal) t.val a w ht h.1 h.2]
    show V c main_v0 (((cfg0.win 0).blk t).view.emb (ix3 (⟨0, by norm_num⟩ : Fin 1) ⟨a, h.1⟩ ⟨w, h.2⟩)) = V c main_v0 _
    congr 1
    funext ax; apply Fin.ext
    match ax with
    | ⟨0, _⟩ => show win0_0.index t (0 : Fin 3) * 1 + 1 * 0 = t.val; rw [idx0_in]; omega
    | ⟨1, _⟩ => show win0_0.index t (1 : Fin 3) * 28 + 1 * a = a; rw [show win0_0.index t (1 : Fin 3) = 0 from rfl]; omega
    | ⟨2, _⟩ => show win0_0.index t (2 : Fin 3) * 28 + 1 * w = w; rw [show win0_0.index t (2 : Fin 3) = 0 from rfl]; omega
  · unfold N3
    rw [dif_neg (fun hh => h ⟨hh.2.1, hh.2.2⟩), dif_neg (fun hh => h ⟨hh.2.1, hh.2.2⟩)]

/-- The filter bank's block is the whole bank. -/
theorem blk0_w (t : Fin cfg0.N) : (iblk0 V c 1 t : S5x28x256.Idx → EReal) = V c main_arg1 := by
  funext y
  show V c main_arg1 (((cfg0.win 1).blk t).view.emb y) = V c main_arg1 y
  congr 1
  funext ax; apply Fin.ext
  match ax with
  | ⟨0, _⟩ => show win0_1.index t (0 : Fin 3) * 5 + 1 * (y 0).val = (y 0).val; rw [show win0_1.index t (0 : Fin 3) = 0 from rfl]; omega
  | ⟨1, _⟩ => show win0_1.index t (1 : Fin 3) * 28 + 1 * (y 1).val = (y 1).val; rw [show win0_1.index t (1 : Fin 3) = 0 from rfl]; omega
  | ⟨2, _⟩ => show win0_1.index t (2 : Fin 3) * 256 + 1 * (y 2).val = (y 2).val; rw [show win0_1.index t (2 : Fin 3) = 0 from rfl]; omega

/-- The bias's block is the whole bias. -/
theorem blk0_b (t : Fin cfg0.N) : (iblk0 V c 2 t : S1x128.Idx → EReal) = V c main_arg2 := by
  funext y
  show V c main_arg2 (((cfg0.win 2).blk t).view.emb y) = V c main_arg2 y
  congr 1
  funext ax; apply Fin.ext
  match ax with
  | ⟨0, _⟩ => show win0_2.index t (0 : Fin 2) * 1 + 1 * (y 0).val = (y 0).val; rw [show win0_2.index t (0 : Fin 2) = 0 from rfl]; omega
  | ⟨1, _⟩ => show win0_2.index t (1 : Fin 2) * 128 + 1 * (y 1).val = (y 1).val; rw [show win0_2.index t (1 : Fin 2) = 0 from rfl]; omega

/-- The output array of region 0 as one function of its input arrays: image `b`'s pooled rows. -/
def G0 (A : S16384x28x28.Idx → EReal) (W : S5x28x256.Idx → EReal) (B : S1x128.Idx → EReal) : S16384x12x128.Idx → EReal :=
  fun i => rPool (rAcc (N3 A (i 0).val) (N3 W) 28) (N2 B 0) (i 1).val (i 2).val

theorem flushed0 (t : Fin cfg0.N) :
    (dat0 V c).flushed 3 t = ((cfg0.win 3).blk t).view.read (Elt Ideal) (G0 (V c main_v0) (V c main_arg1) (V c main_arg2)) := by
  show (cfg0.win 3).cut (grid0.coords t) ((dat0 V c).after 3 t) = _
  rw [after0_3]
  funext y
  obtain ⟨p, l, rfl⟩ : ∃ (p : Fin 12) (l : Fin 128), y = ix3 (0 : Fin 1) p l :=
    ⟨y 1, y 2, by
      have h1 : (y 0).val < 1 := (y 0).isLt
      have h0 : y 0 = (0 : Fin 1) := Fin.ext (by show (y 0).val = 0; omega)
      funext ax
      match ax with
      | ⟨0, _⟩ => exact h0
      | ⟨1, _⟩ => rfl
      | ⟨2, _⟩ => rfl⟩
  refine (out0_entry (iblk0 V c 0 t) (iblk0 V c 1 t) (iblk0 V c 2 t) p l).trans ?_
  show _ = G0 _ _ _ (((cfg0.win 3).blk t).view.emb (ix3 (0 : Fin 1) p l))
  have e0 : ((((cfg0.win 3).blk t).view.emb (ix3 (0 : Fin 1) p l)) 0).val = t.val := by
    show win0_3.index t (0 : Fin 3) * 1 + 1 * 0 = t.val; rw [idx0_out]; omega
  have e1 : ((((cfg0.win 3).blk t).view.emb (ix3 (0 : Fin 1) p l)) 1).val = p.val := by
    show win0_3.index t (1 : Fin 3) * 12 + 1 * p.val = p.val; rw [show win0_3.index t (1 : Fin 3) = 0 from rfl]; omega
  have e2 : ((((cfg0.win 3).blk t).view.emb (ix3 (0 : Fin 1) p l)) 2).val = l.val := by
    show win0_3.index t (2 : Fin 3) * 128 + 1 * l.val = l.val; rw [show win0_3.index t (2 : Fin 3) = 0 from rfl]; omega
  unfold G0
  rw [e0, e1, e2]
  show rPool (rAcc (N3 (iblk0 V c 0 t : S1x28x28.Idx → EReal) 0) (N3 (iblk0 V c 1 t : S5x28x256.Idx → EReal)) 28) (N2 (iblk0 V c 2 t : S1x128.Idx → EReal) 0) p.val l.val = _
  rw [blk0_in V c t, blk0_w V c t, blk0_b V c t]

theorem mem_blk0 (t : Fin cfg0.N) (i : S16384x12x128.Idx) :
    i ∈ ((cfg0.win 3).blk t).view.set ↔ ∀ a : Fin 3, win0_3.index t a * S1x12x128.size a ≤ (i a).val ∧ (i a).val < win0_3.index t a * S1x12x128.size a + S1x12x128.size a := by
  show i ∈ ((View.whole main_v1).slice (win0_3.rect t)).set ↔ _
  rw [View.set_slice_whole, Rect.mem_set_unit]
  exact Iff.rfl

theorem cover0 (i : S16384x12x128.Idx) : ∃ t : Fin cfg0.N, (cfg0.win 3).flush t = true ∧ i ∈ ((cfg0.win 3).blk t).view.set := by
  have hi0 : (i 0).val < 16384 := (i 0).isLt
  have hi1 : (i 1).val < 12 := (i 1).isLt
  have hi2 : (i 2).val < 128 := (i 2).isLt
  have hN : cfg0.N = 16384 := N_0
  refine ⟨⟨(i 0).val, by rw [hN]; exact hi0⟩, flush0_3 _, ?_⟩
  rw [mem_blk0]
  intro a
  match a with
  | ⟨0, _⟩ =>
    show win0_3.index _ (0 : Fin 3) * 1 ≤ (i 0).val ∧ (i 0).val < win0_3.index _ (0 : Fin 3) * 1 + 1
    rw [idx0_out]; show (i 0).val * 1 ≤ (i 0).val ∧ (i 0).val < (i 0).val * 1 + 1; omega
  | ⟨1, _⟩ =>
    show win0_3.index _ (1 : Fin 3) * 12 ≤ (i 1).val ∧ (i 1).val < win0_3.index _ (1 : Fin 3) * 12 + 12
    rw [show win0_3.index _ (1 : Fin 3) = 0 from rfl]; omega
  | ⟨2, _⟩ =>
    show win0_3.index _ (2 : Fin 3) * 128 ≤ (i 2).val ∧ (i 2).val < win0_3.index _ (2 : Fin 3) * 128 + 128
    rw [show win0_3.index _ (2 : Fin 3) = 0 from rfl]; omega

/-- The output array of region 0 after its run. -/
theorem final0 : (dat0 V c).arrAt 3 cfg0.N = G0 (V c main_v0) (V c main_arg1) (V c main_arg2) :=
  (dat0 V c).arrAt_eq_of_cover 3 _ (fun t _ => flushed0 V c t) (cover0)

end Region0

/-! ## Region 1 -/

section Region1
variable (V : (c : Dev nD) → (b : Ref sig .tc) → Buf (Elt Ideal) ((c : Thread nD τ).loc b)) (c : Dev nD)

theorem coords1 (t : Fin cfg1.N) : ((grid1.coords t) 0).val = t.val := by
  have ht : t.val < 16384 := by have := t.isLt; have h := N_1; exact h ▸ this
  show t.val / grid1.stride 0 % 16384 = t.val
  have hs : grid1.stride (0 : Fin 1) = 1 := by decide
  rw [hs, Nat.div_one, Nat.mod_eq_of_lt ht]

theorem idx1_in (t : Fin cfg1.N) : win1_0.index t (0 : Fin 3) = t.val := by
  have ht : t.val < 16384 := by have := t.isLt; have h := N_1; exact h ▸ this
  show (BitVec.ofNat 32 ((grid1.coords t) 0).val).toNat = t.val
  rw [coords1, BitVec.toNat_ofNat]
  exact Nat.mod_eq_of_lt (by omega)

theorem idx1_out (t : Fin cfg1.N) : win1_3.index t (0 : Fin 3) = t.val := by
  have ht : t.val < 16384 := by have := t.isLt; have h := N_1; exact h ▸ this
  show (BitVec.ofNat 32 ((grid1.coords t) 0).val).toNat = t.val
  rw [coords1, BitVec.toNat_ofNat]
  exact Nat.mod_eq_of_lt (by omega)

/-- The image block at point `t` is image `t` of the input array. -/
theorem blk1_in (t : Fin cfg1.N) :
    N3 (iblk1 V c 0 t : S1x12x128.Idx → EReal) 0 = N3 (V c main_v1 : S16384x12x128.Idx → EReal) t.val := by
  have ht : t.val < 16384 := by have := t.isLt; have h := N_1; exact h ▸ this
  funext a w
  by_cases h : a < 12 ∧ w < 128
  · rw [← N3_mk (iblk1 V c 0 t : S1x12x128.Idx → EReal) 0 a w (by norm_num) h.1 h.2,
      ← N3_mk (V c main_v1 : S16384x12x128.Idx → EReal) t.val a w ht h.1 h.2]
    show V c main_v1 (((cfg1.win 0).blk t).view.emb (ix3 (⟨0, by norm_num⟩ : Fin 1) ⟨a, h.1⟩ ⟨w, h.2⟩)) = V c main_v1 _
    congr 1
    funext ax; apply Fin.ext
    match ax with
    | ⟨0, _⟩ => show win1_0.index t (0 : Fin 3) * 1 + 1 * 0 = t.val; rw [idx1_in]; omega
    | ⟨1, _⟩ => show win1_0.index t (1 : Fin 3) * 12 + 1 * a = a; rw [show win1_0.index t (1 : Fin 3) = 0 from rfl]; omega
    | ⟨2, _⟩ => show win1_0.index t (2 : Fin 3) * 128 + 1 * w = w; rw [show win1_0.index t (2 : Fin 3) = 0 from rfl]; omega
  · unfold N3
    rw [dif_neg (fun hh => h ⟨hh.2.1, hh.2.2⟩), dif_neg (fun hh => h ⟨hh.2.1, hh.2.2⟩)]

/-- The filter bank's block is the whole bank. -/
theorem blk1_w (t : Fin cfg1.N) : (iblk1 V c 1 t : S5x128x256.Idx → EReal) = V c main_arg3 := by
  funext y
  show V c main_arg3 (((cfg1.win 1).blk t).view.emb y) = V c main_arg3 y
  congr 1
  funext ax; apply Fin.ext
  match ax with
  | ⟨0, _⟩ => show win1_1.index t (0 : Fin 3) * 5 + 1 * (y 0).val = (y 0).val; rw [show win1_1.index t (0 : Fin 3) = 0 from rfl]; omega
  | ⟨1, _⟩ => show win1_1.index t (1 : Fin 3) * 128 + 1 * (y 1).val = (y 1).val; rw [show win1_1.index t (1 : Fin 3) = 0 from rfl]; omega
  | ⟨2, _⟩ => show win1_1.index t (2 : Fin 3) * 256 + 1 * (y 2).val = (y 2).val; rw [show win1_1.index t (2 : Fin 3) = 0 from rfl]; omega

/-- The bias's block is the whole bias. -/
theorem blk1_b (t : Fin cfg1.N) : (iblk1 V c 2 t : S1x128.Idx → EReal) = V c main_arg4 := by
  funext y
  show V c main_arg4 (((cfg1.win 2).blk t).view.emb y) = V c main_arg4 y
  congr 1
  funext ax; apply Fin.ext
  match ax with
  | ⟨0, _⟩ => show win1_2.index t (0 : Fin 2) * 1 + 1 * (y 0).val = (y 0).val; rw [show win1_2.index t (0 : Fin 2) = 0 from rfl]; omega
  | ⟨1, _⟩ => show win1_2.index t (1 : Fin 2) * 128 + 1 * (y 1).val = (y 1).val; rw [show win1_2.index t (1 : Fin 2) = 0 from rfl]; omega

/-- The output array of region 1 as one function of its input arrays: image `b`'s pooled rows. -/
def G1 (A : S16384x12x128.Idx → EReal) (W : S5x128x256.Idx → EReal) (B : S1x128.Idx → EReal) : S16384x4x128.Idx → EReal :=
  fun i => rPool (rAcc (N3 A (i 0).val) (N3 W) 128) (N2 B 0) (i 1).val (i 2).val

theorem flushed1 (t : Fin cfg1.N) :
    (dat1 V c).flushed 3 t = ((cfg1.win 3).blk t).view.read (Elt Ideal) (G1 (V c main_v1) (V c main_arg3) (V c main_arg4)) := by
  show (cfg1.win 3).cut (grid1.coords t) ((dat1 V c).after 3 t) = _
  rw [after1_3]
  funext y
  obtain ⟨p, l, rfl⟩ : ∃ (p : Fin 4) (l : Fin 128), y = ix3 (0 : Fin 1) p l :=
    ⟨y 1, y 2, by
      have h1 : (y 0).val < 1 := (y 0).isLt
      have h0 : y 0 = (0 : Fin 1) := Fin.ext (by show (y 0).val = 0; omega)
      funext ax
      match ax with
      | ⟨0, _⟩ => exact h0
      | ⟨1, _⟩ => rfl
      | ⟨2, _⟩ => rfl⟩
  refine (out1_entry (iblk1 V c 0 t) (iblk1 V c 1 t) (iblk1 V c 2 t) p l).trans ?_
  show _ = G1 _ _ _ (((cfg1.win 3).blk t).view.emb (ix3 (0 : Fin 1) p l))
  have e0 : ((((cfg1.win 3).blk t).view.emb (ix3 (0 : Fin 1) p l)) 0).val = t.val := by
    show win1_3.index t (0 : Fin 3) * 1 + 1 * 0 = t.val; rw [idx1_out]; omega
  have e1 : ((((cfg1.win 3).blk t).view.emb (ix3 (0 : Fin 1) p l)) 1).val = p.val := by
    show win1_3.index t (1 : Fin 3) * 4 + 1 * p.val = p.val; rw [show win1_3.index t (1 : Fin 3) = 0 from rfl]; omega
  have e2 : ((((cfg1.win 3).blk t).view.emb (ix3 (0 : Fin 1) p l)) 2).val = l.val := by
    show win1_3.index t (2 : Fin 3) * 128 + 1 * l.val = l.val; rw [show win1_3.index t (2 : Fin 3) = 0 from rfl]; omega
  unfold G1
  rw [e0, e1, e2]
  show rPool (rAcc (N3 (iblk1 V c 0 t : S1x12x128.Idx → EReal) 0) (N3 (iblk1 V c 1 t : S5x128x256.Idx → EReal)) 128) (N2 (iblk1 V c 2 t : S1x128.Idx → EReal) 0) p.val l.val = _
  rw [blk1_in V c t, blk1_w V c t, blk1_b V c t]

theorem mem_blk1 (t : Fin cfg1.N) (i : S16384x4x128.Idx) :
    i ∈ ((cfg1.win 3).blk t).view.set ↔ ∀ a : Fin 3, win1_3.index t a * S1x4x128.size a ≤ (i a).val ∧ (i a).val < win1_3.index t a * S1x4x128.size a + S1x4x128.size a := by
  show i ∈ ((View.whole main_v2).slice (win1_3.rect t)).set ↔ _
  rw [View.set_slice_whole, Rect.mem_set_unit]
  exact Iff.rfl

theorem cover1 (i : S16384x4x128.Idx) : ∃ t : Fin cfg1.N, (cfg1.win 3).flush t = true ∧ i ∈ ((cfg1.win 3).blk t).view.set := by
  have hi0 : (i 0).val < 16384 := (i 0).isLt
  have hi1 : (i 1).val < 4 := (i 1).isLt
  have hi2 : (i 2).val < 128 := (i 2).isLt
  have hN : cfg1.N = 16384 := N_1
  refine ⟨⟨(i 0).val, by rw [hN]; exact hi0⟩, flush1_3 _, ?_⟩
  rw [mem_blk1]
  intro a
  match a with
  | ⟨0, _⟩ =>
    show win1_3.index _ (0 : Fin 3) * 1 ≤ (i 0).val ∧ (i 0).val < win1_3.index _ (0 : Fin 3) * 1 + 1
    rw [idx1_out]; show (i 0).val * 1 ≤ (i 0).val ∧ (i 0).val < (i 0).val * 1 + 1; omega
  | ⟨1, _⟩ =>
    show win1_3.index _ (1 : Fin 3) * 4 ≤ (i 1).val ∧ (i 1).val < win1_3.index _ (1 : Fin 3) * 4 + 4
    rw [show win1_3.index _ (1 : Fin 3) = 0 from rfl]; omega
  | ⟨2, _⟩ =>
    show win1_3.index _ (2 : Fin 3) * 128 ≤ (i 2).val ∧ (i 2).val < win1_3.index _ (2 : Fin 3) * 128 + 128
    rw [show win1_3.index _ (2 : Fin 3) = 0 from rfl]; omega

/-- The output array of region 1 after its run. -/
theorem final1 : (dat1 V c).arrAt 3 cfg1.N = G1 (V c main_v1) (V c main_arg3) (V c main_arg4) :=
  (dat1 V c).arrAt_eq_of_cover 3 _ (fun t _ => flushed1 V c t) (cover1)

end Region1

/-! ## Region 2: the dense head -/

section Region2
variable (V : (c : Dev nD) → (b : Ref sig .tc) → Buf (Elt Ideal) ((c : Thread nD τ).loc b)) (c : Dev nD)

theorem coords2 (t : Fin cfg2.N) : ((grid2.coords t) 0).val = t.val := by
  have ht : t.val < 64 := by have := t.isLt; have h := N_2; exact h ▸ this
  show t.val / grid2.stride 0 % 64 = t.val
  have hs : grid2.stride (0 : Fin 1) = 1 := by decide
  rw [hs, Nat.div_one, Nat.mod_eq_of_lt ht]

theorem idx2_in (t : Fin cfg2.N) : win2_0.index t (0 : Fin 2) = t.val := by
  have ht : t.val < 64 := by have := t.isLt; have h := N_2; exact h ▸ this
  show (BitVec.ofNat 32 ((grid2.coords t) 0).val).toNat = t.val
  rw [coords2, BitVec.toNat_ofNat]
  exact Nat.mod_eq_of_lt (by omega)

theorem idx2_out (t : Fin cfg2.N) : win2_5.index t (0 : Fin 2) = t.val := by
  have ht : t.val < 64 := by have := t.isLt; have h := N_2; exact h ▸ this
  show (BitVec.ofNat 32 ((grid2.coords t) 0).val).toNat = t.val
  rw [coords2, BitVec.toNat_ofNat]
  exact Nat.mod_eq_of_lt (by omega)

/-- Row `r` of the block at point `t` is row `256·t + r` of the input array. -/
theorem blk2_in (t : Fin cfg2.N) (r : Fin 256) :
    N2 (iblk2 V c 0 t : S256x512.Idx → EReal) r.val = N2 (V c main_v3 : S16384x512.Idx → EReal) (t.val * 256 + r.val) := by
  have ht : t.val < 64 := by have := t.isLt; have h := N_2; exact h ▸ this
  funext k
  by_cases hk : k < 512
  · rw [← N2_mk (iblk2 V c 0 t : S256x512.Idx → EReal) r.val k r.isLt hk,
      ← N2_mk (V c main_v3 : S16384x512.Idx → EReal) (t.val * 256 + r.val) k (by omega) hk]
    show V c main_v3 (((cfg2.win 0).blk t).view.emb (ix2 r ⟨k, hk⟩)) = V c main_v3 _
    congr 1
    funext ax; apply Fin.ext
    match ax with
    | ⟨0, _⟩ => show win2_0.index t (0 : Fin 2) * 256 + 1 * r.val = t.val * 256 + r.val; rw [idx2_in]; omega
    | ⟨1, _⟩ => show win2_0.index t (1 : Fin 2) * 512 + 1 * k = k; rw [show win2_0.index t (1 : Fin 2) = 0 from rfl]; omega
  · unfold N2
    rw [dif_neg (fun h => hk h.2), dif_neg (fun h => hk h.2)]

theorem blk2_w1 (t : Fin cfg2.N) : (iblk2 V c 1 t : S512x50.Idx → EReal) = V c main_arg5 := by
  funext y
  show V c main_arg5 (((cfg2.win 1).blk t).view.emb y) = V c main_arg5 y
  congr 1
  funext ax; apply Fin.ext
  match ax with
  | ⟨0, _⟩ => show win2_1.index t (0 : Fin 2) * 512 + 1 * (y 0).val = (y 0).val; rw [show win2_1.index t (0 : Fin 2) = 0 from rfl]; omega
  | ⟨1, _⟩ => show win2_1.index t (1 : Fin 2) * 50 + 1 * (y 1).val = (y 1).val; rw [show win2_1.index t (1 : Fin 2) = 0 from rfl]; omega
theorem blk2_w2 (t : Fin cfg2.N) : (iblk2 V c 2 t : S1x50.Idx → EReal) = V c main_arg6 := by
  funext y
  show V c main_arg6 (((cfg2.win 2).blk t).view.emb y) = V c main_arg6 y
  congr 1
  funext ax; apply Fin.ext
  match ax with
  | ⟨0, _⟩ => show win2_2.index t (0 : Fin 2) * 1 + 1 * (y 0).val = (y 0).val; rw [show win2_2.index t (0 : Fin 2) = 0 from rfl]; omega
  | ⟨1, _⟩ => show win2_2.index t (1 : Fin 2) * 50 + 1 * (y 1).val = (y 1).val; rw [show win2_2.index t (1 : Fin 2) = 0 from rfl]; omega
theorem blk2_w3 (t : Fin cfg2.N) : (iblk2 V c 3 t : S50x10.Idx → EReal) = V c main_arg7 := by
  funext y
  show V c main_arg7 (((cfg2.win 3).blk t).view.emb y) = V c main_arg7 y
  congr 1
  funext ax; apply Fin.ext
  match ax with
  | ⟨0, _⟩ => show win2_3.index t (0 : Fin 2) * 50 + 1 * (y 0).val = (y 0).val; rw [show win2_3.index t (0 : Fin 2) = 0 from rfl]; omega
  | ⟨1, _⟩ => show win2_3.index t (1 : Fin 2) * 10 + 1 * (y 1).val = (y 1).val; rw [show win2_3.index t (1 : Fin 2) = 0 from rfl]; omega
theorem blk2_w4 (t : Fin cfg2.N) : (iblk2 V c 4 t : S1x10.Idx → EReal) = V c main_arg8 := by
  funext y
  show V c main_arg8 (((cfg2.win 4).blk t).view.emb y) = V c main_arg8 y
  congr 1
  funext ax; apply Fin.ext
  match ax with
  | ⟨0, _⟩ => show win2_4.index t (0 : Fin 2) * 1 + 1 * (y 0).val = (y 0).val; rw [show win2_4.index t (0 : Fin 2) = 0 from rfl]; omega
  | ⟨1, _⟩ => show win2_4.index t (1 : Fin 2) * 10 + 1 * (y 1).val = (y 1).val; rw [show win2_4.index t (1 : Fin 2) = 0 from rfl]; omega

/-- The result array as one function of the head's input arrays: row `b`'s dense head. -/
def G2 (A : S16384x512.Idx → EReal) (F1 : S512x50.Idx → EReal) (G1 : S1x50.Idx → EReal) (F2 : S50x10.Idx → EReal) (Gb : S1x10.Idx → EReal) :
    S16384x10.Idx → EReal :=
  fun i => rHead (N2 A (i 0).val) (N2 F1) (N2 G1 0) (N2 F2) (N2 Gb 0) (i 1).val

theorem flushed2 (t : Fin cfg2.N) :
    (dat2 V c).flushed 5 t = ((cfg2.win 5).blk t).view.read (Elt Ideal)
      (G2 (V c main_v3) (V c main_arg5) (V c main_arg6) (V c main_arg7) (V c main_arg8)) := by
  show (cfg2.win 5).cut (grid2.coords t) ((dat2 V c).after 5 t) = _
  rw [after2_5]
  funext y
  obtain ⟨r, j, rfl⟩ : ∃ (r : Fin 256) (j : Fin 10), y = ix2 r j := ⟨y 0, y 1, eq_ix2 y⟩
  refine (out2_entry (iblk2 V c 0 t) (iblk2 V c 1 t) (iblk2 V c 2 t) (iblk2 V c 3 t) (iblk2 V c 4 t) r j).trans ?_
  show _ = G2 _ _ _ _ _ (((cfg2.win 5).blk t).view.emb (ix2 r j))
  have e0 : ((((cfg2.win 5).blk t).view.emb (ix2 r j)) 0).val = t.val * 256 + r.val := by
    show win2_5.index t (0 : Fin 2) * 256 + 1 * r.val = _; rw [idx2_out]; omega
  have e1 : ((((cfg2.win 5).blk t).view.emb (ix2 r j)) 1).val = j.val := by
    show win2_5.index t (1 : Fin 2) * 10 + 1 * j.val = _; rw [show win2_5.index t (1 : Fin 2) = 0 from rfl]; omega
  unfold G2
  rw [e0, e1]
  show rHead (N2 (iblk2 V c 0 t : S256x512.Idx → EReal) r.val) (N2 (iblk2 V c 1 t : S512x50.Idx → EReal)) (N2 (iblk2 V c 2 t : S1x50.Idx → EReal) 0)
      (N2 (iblk2 V c 3 t : S50x10.Idx → EReal)) (N2 (iblk2 V c 4 t : S1x10.Idx → EReal) 0) j.val = _
  rw [blk2_in V c t r, blk2_w1 V c t, blk2_w2 V c t, blk2_w3 V c t, blk2_w4 V c t]

theorem mem_blk2 (t : Fin cfg2.N) (i : S16384x10.Idx) :
    i ∈ ((cfg2.win 5).blk t).view.set ↔ ∀ a : Fin 2, win2_5.index t a * S256x10.size a ≤ (i a).val ∧ (i a).val < win2_5.index t a * S256x10.size a + S256x10.size a := by
  show i ∈ ((View.whole main_v4).slice (win2_5.rect t)).set ↔ _
  rw [View.set_slice_whole, Rect.mem_set_unit]
  exact Iff.rfl

theorem cover2 (i : S16384x10.Idx) : ∃ t : Fin cfg2.N, (cfg2.win 5).flush t = true ∧ i ∈ ((cfg2.win 5).blk t).view.set := by
  have hi0 : (i 0).val < 16384 := (i 0).isLt
  have hi1 : (i 1).val < 10 := (i 1).isLt
  have hN : cfg2.N = 64 := N_2
  refine ⟨⟨(i 0).val / 256, by rw [hN]; omega⟩, flush2_5 _, ?_⟩
  rw [mem_blk2]
  intro a
  match a with
  | ⟨0, _⟩ =>
    show win2_5.index _ (0 : Fin 2) * 256 ≤ (i 0).val ∧ (i 0).val < win2_5.index _ (0 : Fin 2) * 256 + 256
    rw [idx2_out]; show (i 0).val / 256 * 256 ≤ (i 0).val ∧ (i 0).val < (i 0).val / 256 * 256 + 256; omega
  | ⟨1, _⟩ =>
    show win2_5.index _ (1 : Fin 2) * 10 ≤ (i 1).val ∧ (i 1).val < win2_5.index _ (1 : Fin 2) * 10 + 10
    rw [show win2_5.index _ (1 : Fin 2) = 0 from rfl]; omega

theorem final2 : (dat2 V c).arrAt 5 cfg2.N = G2 (V c main_v3) (V c main_arg5) (V c main_arg6) (V c main_arg7) (V c main_arg8) :=
  (dat2 V c).arrAt_eq_of_cover 5 _ (fun t _ => flushed2 V c t) (cover2)

end Region2

/-! ## Congruences: the expressions read their arguments at finitely many entries -/

theorem rAcc_congr {X X' : ℕ → ℕ → EReal} (W : ℕ → ℕ → ℕ → EReal) (n a cc : ℕ)
    (h : ∀ i, i < 5 → ∀ w, w < n → X (i + a) w = X' (i + a) w) : rAcc X W n a cc = rAcc X' W n a cc := by
  unfold rAcc tap
  have e : ∀ i, i < 5 → (∑ w ∈ Finset.range n, X (i + a) w * W i w cc) = ∑ w ∈ Finset.range n, X' (i + a) w * W i w cc :=
    fun i hi => Finset.sum_congr rfl fun w hw => by rw [h i hi w (Finset.mem_range.mp hw)]
  rw [e 0 (by norm_num), e 1 (by norm_num), e 2 (by norm_num), e 3 (by norm_num), e 4 (by norm_num)]

theorem rPool_congr {A A' : ℕ → ℕ → EReal} (B : ℕ → EReal) (p l : ℕ)
    (h : ∀ a, a ≤ 2 * p + 1 → ∀ cc, A a cc = A' a cc) : rPool A B p l = rPool A' B p l := by
  unfold rPool
  rw [h (2 * p) (by omega) l, h (2 * p) (by omega) (128 + l), h (2 * p + 1) (by omega) l, h (2 * p + 1) (by omega) (128 + l)]

theorem rHead_congr {A A' : ℕ → EReal} (F1 : ℕ → ℕ → EReal) (G1 : ℕ → EReal) (F2 : ℕ → ℕ → EReal) (G2 : ℕ → EReal) (j : ℕ)
    (h : ∀ k, k < 512 → A k = A' k) : rHead A F1 G1 F2 G2 j = rHead A' F1 G1 F2 G2 j := by
  unfold rHead
  congr 1
  funext j'
  congr 1
  refine DenseHead.dot_congr (fun n _ => ?_) _ _
  rw [DenseHead.dot_congr h F1 n]

/-! ## The chain: the result buffer back to the arguments -/

section Chain
variable (m : (ℓ : Loc nD τ sig) → Buf (Elt Ideal) ℓ) (ρ : Dev nD → PrngReg) (c : Dev nD)

theorem V1_v0 : (V1 m ρ c main_v0 : S16384x28x28.Idx → EReal)
    = shapeCast S16384x28x28 (m ((c : Thread nD τ).loc main_arg0)) shapeCasts_S16384x1x28x28_S16384x28x28 := by
  show StableHlo.after hostOps0 (W0 m ρ c) (Proc.devRef .tc main_v0) = _
  simp only [hostOps0]
  after_results
  rfl

theorem V1_arg1 : V1 m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W1 m ρ c (Proc.devRef .tc main_arg1) = W0 m ρ c (Proc.devRef .tc main_arg1)).trans rfl
theorem V1_arg2 : V1 m ρ c main_arg2 = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W1 m ρ c (Proc.devRef .tc main_arg2) = W0 m ρ c (Proc.devRef .tc main_arg2)).trans rfl

theorem V2_arg3 : V2 m ρ c main_arg3 = m ((c : Thread nD τ).loc main_arg3) :=
  (W2_of_ne m ρ c main_arg3 (by decide)).trans
    ((StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W1 m ρ c (Proc.devRef .tc main_arg3) = W0 m ρ c (Proc.devRef .tc main_arg3)).trans rfl)
theorem V2_arg4 : V2 m ρ c main_arg4 = m ((c : Thread nD τ).loc main_arg4) :=
  (W2_of_ne m ρ c main_arg4 (by decide)).trans
    ((StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W1 m ρ c (Proc.devRef .tc main_arg4) = W0 m ρ c (Proc.devRef .tc main_arg4)).trans rfl)

theorem V2_v1 : V2 m ρ c main_v1 = (dat0 (V1 m ρ) c).arrAt 3 cfg0.N := W2_arr m ρ c 3

theorem V4_arg5 : V4 m ρ c main_arg5 = m ((c : Thread nD τ).loc main_arg5) :=
  (StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W4 m ρ c (Proc.devRef .tc main_arg5) = W3 m ρ c (Proc.devRef .tc main_arg5)).trans
    ((W3_of_ne m ρ c main_arg5 (by decide)).trans ((W2_of_ne m ρ c main_arg5 (by decide)).trans
      ((StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W1 m ρ c (Proc.devRef .tc main_arg5) = W0 m ρ c (Proc.devRef .tc main_arg5)).trans rfl)))
theorem V4_arg6 : V4 m ρ c main_arg6 = m ((c : Thread nD τ).loc main_arg6) :=
  (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W4 m ρ c (Proc.devRef .tc main_arg6) = W3 m ρ c (Proc.devRef .tc main_arg6)).trans
    ((W3_of_ne m ρ c main_arg6 (by decide)).trans ((W2_of_ne m ρ c main_arg6 (by decide)).trans
      ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W1 m ρ c (Proc.devRef .tc main_arg6) = W0 m ρ c (Proc.devRef .tc main_arg6)).trans rfl)))
theorem V4_arg7 : V4 m ρ c main_arg7 = m ((c : Thread nD τ).loc main_arg7) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W4 m ρ c (Proc.devRef .tc main_arg7) = W3 m ρ c (Proc.devRef .tc main_arg7)).trans
    ((W3_of_ne m ρ c main_arg7 (by decide)).trans ((W2_of_ne m ρ c main_arg7 (by decide)).trans
      ((StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W1 m ρ c (Proc.devRef .tc main_arg7) = W0 m ρ c (Proc.devRef .tc main_arg7)).trans rfl)))
theorem V4_arg8 : V4 m ρ c main_arg8 = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W4 m ρ c (Proc.devRef .tc main_arg8) = W3 m ρ c (Proc.devRef .tc main_arg8)).trans
    ((W3_of_ne m ρ c main_arg8 (by decide)).trans ((W2_of_ne m ρ c main_arg8 (by decide)).trans
      ((StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))) : W1 m ρ c (Proc.devRef .tc main_arg8) = W0 m ρ c (Proc.devRef .tc main_arg8)).trans rfl)))

theorem V4_v3 : (V4 m ρ c main_v3 : S16384x512.Idx → EReal)
    = shapeCast S16384x512 (W3 m ρ c (Proc.devRef .tc main_v2) : S16384x4x128.Idx → EReal) shapeCasts_S16384x4x128_S16384x512 := by
  show StableHlo.after hostOps2 (W3 m ρ c) (Proc.devRef .tc main_v3) = _
  simp only [hostOps2]
  after_results
  rfl

theorem W3_v2 : W3 m ρ c (Proc.devRef .tc main_v2) = (dat1 (V2 m ρ) c).arrAt 3 cfg1.N := W3_arr m ρ c 3

/-- Image `b`, rows by columns. -/
abbrev rImg (b : ℕ) : ℕ → ℕ → EReal := fun a w => N4u (m ((c : Thread nD τ).loc main_arg0)) b a w
/-- Image `b`'s pooled rows of the first layer. -/
abbrev rY1 (b : ℕ) : ℕ → ℕ → EReal :=
  rPool (rAcc (rImg m c b) (N3 (m ((c : Thread nD τ).loc main_arg1))) 28) (N2 (m ((c : Thread nD τ).loc main_arg2) : S1x128.Idx → EReal) 0)
/-- Image `b`'s pooled rows of the second layer. -/
abbrev rY2 (b : ℕ) : ℕ → ℕ → EReal :=
  rPool (rAcc (rY1 m c b) (N3 (m ((c : Thread nD τ).loc main_arg3))) 128) (N2 (m ((c : Thread nD τ).loc main_arg4) : S1x128.Idx → EReal) 0)

/-- THE REFERENCE'S RESULT by entries. -/
theorem result_entry (b : Fin 16384) (j : Fin 10) :
    (W5 m ρ c (Proc.devRef .tc main_v4) : S16384x10.Idx → EReal) (ix2 b j)
      = rHead (fun k => rY2 m c b.val (k / 128) (k % 128))
          (N2 (m ((c : Thread nD τ).loc main_arg5) : S512x50.Idx → EReal)) (N2 (m ((c : Thread nD τ).loc main_arg6) : S1x50.Idx → EReal) 0)
          (N2 (m ((c : Thread nD τ).loc main_arg7) : S50x10.Idx → EReal)) (N2 (m ((c : Thread nD τ).loc main_arg8) : S1x10.Idx → EReal) 0) j.val := by
  rw [Cert.ReferenceIdeal.RefValue.result_is_head_output, final2 (V4 m ρ) c]
  show rHead (N2 (V4 m ρ c main_v3 : S16384x512.Idx → EReal) b.val) (N2 (V4 m ρ c main_arg5 : S512x50.Idx → EReal)) (N2 (V4 m ρ c main_arg6 : S1x50.Idx → EReal) 0)
      (N2 (V4 m ρ c main_arg7 : S50x10.Idx → EReal)) (N2 (V4 m ρ c main_arg8 : S1x10.Idx → EReal) 0) j.val = _
  rw [V4_arg5, V4_arg6, V4_arg7, V4_arg8]
  refine rHead_congr _ _ _ _ _ (fun k hk => ?_)
  rw [V4_v3, ← N2_mk _ b.val k b.isLt hk, HostLayout.flat_rows4_apply, W3_v2, final1 (V2 m ρ) c]
  show rPool (rAcc (N3 (V2 m ρ c main_v1 : S16384x12x128.Idx → EReal) b.val) (N3 (V2 m ρ c main_arg3 : S5x128x256.Idx → EReal)) 128)
      (N2 (V2 m ρ c main_arg4 : S1x128.Idx → EReal) 0) (k / 128) (k % 128) = _
  rw [V2_arg3, V2_arg4]
  refine rPool_congr _ _ _ (fun a ha cc => rAcc_congr _ _ _ _ (fun i hi l hl => ?_))
  rw [V2_v1, final0 (V1 m ρ) c, ← N3_mk _ b.val (i + a) l b.isLt (by omega) hl]
  show rPool (rAcc (N3 (V1 m ρ c main_v0 : S16384x28x28.Idx → EReal) b.val) (N3 (V1 m ρ c main_arg1 : S5x28x256.Idx → EReal)) 28)
      (N2 (V1 m ρ c main_arg2 : S1x128.Idx → EReal) 0) (i + a) l = _
  rw [V1_arg1, V1_arg2]
  refine rPool_congr _ _ _ (fun a' ha' cc' => rAcc_congr _ _ _ _ (fun i' hi' w hw => ?_))
  rw [V1_v0, ← N3_mk _ b.val (i' + a') w b.isLt (by omega) hw, HostLayout.rows_image_apply]
  exact N4u_mk _ b.val (i' + a') w b.isLt (by omega) hw

end Chain

end Cert.ReferenceIdeal.RArr

end
-- ==== Proof.LibShiftedTaps.lean ====
/-
  Shifted, zero-padded filter taps (Mathlib only).

  A convolution along the rows can be run as ONE product over `D` consecutive rows laid end to end (`D · n` positions,
  position `d · n + w` being column `w` of row `d`), against a filter bank whose five taps sit at rows `s … s + 4` and
  which is zero at every other row.  The zero rows contribute nothing — a product with zero is zero on the extended
  reals too — so the long sum is the five-tap double sum.  The two regroupings hold in any additive commutative monoid;
  the main statement is over the extended reals.
-/
import Mathlib

open Finset

namespace ShiftedTaps

variable {R : Type*} [AddCommMonoid R]

/-- A sum over `D · n` consecutive positions, read as `D` blocks of `n`. -/
theorem sum_range_blocks (D n : ℕ) (f : ℕ → R) :
    ∑ k ∈ range (D * n), f k = ∑ d ∈ range D, ∑ w ∈ range n, f (d * n + w) := by
  induction D with
  | zero => simp
  | succ D ih => rw [Nat.succ_mul, Finset.sum_range_add, ih, Finset.sum_range_succ]

/-- A sum over `D` rows of a term that is present only on the window `s ≤ d < s + 5`, re-indexed by the offset in the
    window. -/
theorem sum_window (D s : ℕ) (hs : s + 5 ≤ D) (G : ℕ → R) :
    ∑ d ∈ range D, (if s ≤ d ∧ d < s + 5 then G (d - s) else 0) = ∑ i ∈ range 5, G i := by
  have hIco : ∀ d, (s ≤ d ∧ d < s + 5) ↔ d ∈ Ico s (s + 5) := fun d => Finset.mem_Ico.symm
  have e : ∀ d ∈ range D, (if s ≤ d ∧ d < s + 5 then G (d - s) else 0) = if d ∈ Ico s (s + 5) then G (d - s) else 0 := by
    intro d _
    by_cases h : s ≤ d ∧ d < s + 5
    · rw [if_pos h, if_pos ((hIco d).mp h)]
    · rw [if_neg h, if_neg (fun h' => h ((hIco d).mpr h'))]
  rw [Finset.sum_congr rfl e, Finset.sum_ite_mem,
    Finset.inter_eq_right.mpr (fun d hd => by rw [Finset.mem_Ico] at hd; exact Finset.mem_range.mpr (by omega)),
    Finset.sum_Ico_eq_sum_range, Nat.add_sub_cancel_left]
  exact Finset.sum_congr rfl fun i _ => by rw [Nat.add_sub_cancel_left]

/-- The long product against shifted, zero-padded taps is the five-tap double sum. -/
theorem shifted_taps (D n s : ℕ) (hn : 0 < n) (hs : s + 5 ≤ D) (x : ℕ → EReal) (W : ℕ → ℕ → EReal) :
    ∑ k ∈ range (D * n), x k * (if s ≤ k / n ∧ k / n < s + 5 then W (k / n - s) (k % n) else 0)
      = ∑ i ∈ range 5, ∑ w ∈ range n, x ((s + i) * n + w) * W i w := by
  rw [sum_range_blocks (R := EReal)]
  have hdiv : ∀ d w, w < n → (d * n + w) / n = d := fun d w hw => by
    rw [Nat.add_comm, Nat.add_mul_div_right _ _ hn, Nat.div_eq_of_lt hw, Nat.zero_add]
  have hmod : ∀ d w, w < n → (d * n + w) % n = w := fun d w hw => by
    rw [Nat.add_comm, Nat.add_mul_mod_self_right, Nat.mod_eq_of_lt hw]
  have h1 : ∀ d ∈ range D,
      ∑ w ∈ range n, x (d * n + w) * (if s ≤ (d * n + w) / n ∧ (d * n + w) / n < s + 5 then W ((d * n + w) / n - s) ((d * n + w) % n) else 0)
        = if s ≤ d ∧ d < s + 5 then (fun i => ∑ w ∈ range n, x ((s + i) * n + w) * W i w) (d - s) else 0 := by
    intro d _
    by_cases h : s ≤ d ∧ d < s + 5
    · rw [if_pos h]
      refine Finset.sum_congr rfl fun w hw => ?_
      have hw' := Finset.mem_range.mp hw
      rw [hdiv d w hw', hmod d w hw', if_pos h, Nat.add_sub_cancel' h.1]
    · rw [if_neg h]
      refine Finset.sum_eq_zero fun w hw => ?_
      have hw' := Finset.mem_range.mp hw
      rw [hdiv d w hw', if_neg h, mul_zero]
  rw [Finset.sum_congr rfl h1]
  exact sum_window (R := EReal) D s hs (fun i => ∑ w ∈ range n, x ((s + i) * n + w) * W i w)

end ShiftedTaps
-- ==== Proof.Bridge.lean ====
/-
  The bridge: for one image, the fused kernel's expression and the reference's are one extended real.
  The kernel's first-layer accumulator for row group `g` at lane `256·rr + c` runs over the eight image rows
  4g … 4g + 7 against filters that hold tap `d − rr` at row `d` for `rr ≤ d < rr + 5` and zero elsewhere: that is the
  reference's five-tap sum at output row `4g + rr`.  Lanes `512·e + …` of the kernel's accumulator are output rows
  `2·(2g + e)` and `2·(2g + e) + 1`, even and odd columns, so the kernel's pooled row `q = 2g + e` is the reference's pooled
  row `q`.  The second layer is the same over six pooled rows of 128 lanes.  The dense heads are one expression.
-/
import proofs.«104378_g2000603622679809_pallasbulk_1028_50_alg».proof.Proof.KernelRows2
import proofs.«104378_g2000603622679809_pallasbulk_1028_50_alg».proof.Proof.RefRows
import proofs.«104378_g2000603622679809_pallasbulk_1028_50_alg».proof.Proof.LibShiftedTaps

noncomputable section

open scoped BigOperators

namespace Cert.Proof.Bridge

open Idealize.ShloMosaic Finset
open Cert.KernelIdeal.Rd Cert.ReferenceIdeal.RRd

/-- The two zero words denote zero. -/
theorem zero_bf16 : Ideal.ofBits .bf16 0x0000#16 = 0 := by simp [Ideal.ofBits, Ideal.ieee]
theorem zero_words : Ideal.ofBits .bf16 0x0000#16 = Ideal.ofBits .f32 0x00000000#32 := by
  rw [zero_bf16, Ideal.ofBits_zero_f32]

/-- Five terms added in order are the sum over `range 5`. -/
theorem sum_five (f : ℕ → EReal) : ∑ i ∈ range 5, f i = f 0 + f 1 + f 2 + f 3 + f 4 := by
  simp only [Finset.sum_range_succ, Finset.sum_range_zero, zero_add]

section OneImage
variable (X : ℕ → ℕ → EReal) (W1 : ℕ → ℕ → ℕ → EReal) (B1 : ℕ → EReal) (W2 : ℕ → ℕ → ℕ → EReal) (B2 : ℕ → EReal)
  (W1g W2g : ℕ → ℕ → EReal)
  (hW1 : ∀ k, k < 224 → ∀ rr, rr < 4 → ∀ cc, cc < 256 →
    W1g k (rr * 256 + cc) = if rr ≤ k / 28 ∧ k / 28 < rr + 5 then W1 (k / 28 - rr) (k % 28) cc else 0)
  (hW2 : ∀ k, k < 768 → ∀ rr, rr < 2 → ∀ cc, cc < 256 →
    W2g k (rr * 256 + cc) = if rr ≤ k / 128 ∧ k / 128 < rr + 5 then W2 (k / 128 - rr) (k % 128) cc else 0)

include hW1 in
/-- The kernel's first-layer accumulator is the reference's five-tap sum. -/
theorem conv1_eq (g : ℕ) (rr : ℕ) (hrr : rr < 4) (cc : ℕ) (hcc : cc < 256) :
    acc1 (fun k => X (k / 28) (k % 28)) W1g (112 * g) (rr * 256 + cc) = rAcc X W1 28 (4 * g + rr) cc := by
  unfold acc1
  have e : ∀ k ∈ range 224, (fun k => X (k / 28) (k % 28)) (112 * g + k) * W1g k (rr * 256 + cc)
      = (fun k => X ((112 * g + k) / 28) ((112 * g + k) % 28)) k
        * (if rr ≤ k / 28 ∧ k / 28 < rr + 5 then (fun i w => W1 i w cc) (k / 28 - rr) (k % 28) else 0) :=
    fun k hk => by rw [hW1 k (Finset.mem_range.mp hk) rr hrr cc hcc]
  rw [Finset.sum_congr rfl e, show (224 : ℕ) = 8 * 28 from rfl,
    ShiftedTaps.shifted_taps 8 28 rr (by norm_num) (by omega) (fun k => X ((112 * g + k) / 28) ((112 * g + k) % 28)) (fun i w => W1 i w cc),
    sum_five]
  unfold rAcc tap
  have t : ∀ i, (∑ w ∈ range 28, (fun k => X ((112 * g + k) / 28) ((112 * g + k) % 28)) ((rr + i) * 28 + w) * (fun i w => W1 i w cc) i w)
      = ∑ w ∈ range 28, X (i + (4 * g + rr)) w * W1 i w cc := fun i =>
    Finset.sum_congr rfl fun w hw => by
      have hw' := Finset.mem_range.mp hw
      have e1 : (112 * g + ((rr + i) * 28 + w)) / 28 = i + (4 * g + rr) := by omega
      have e2 : (112 * g + ((rr + i) * 28 + w)) % 28 = w := by omega
      show X ((112 * g + ((rr + i) * 28 + w)) / 28) ((112 * g + ((rr + i) * 28 + w)) % 28) * W1 i w cc = _
      rw [e1, e2]
  rw [t 0, t 1, t 2, t 3, t 4]

include hW1 in
/-- The kernel's pooled row `q` of the first layer is the reference's. -/
theorem y1_eq (q : ℕ) (l : ℕ) (hl : l < 128) :
    kY1 (fun k => X (k / 28) (k % 28)) W1g B1 q l = rPool (rAcc X W1 28) B1 q l := by
  unfold kY1 pooled rPool
  have a0 : 512 * (q % 2) + l = (2 * (q % 2)) * 256 + l := by omega
  have a1 : 512 * (q % 2) + 128 + l = (2 * (q % 2)) * 256 + (128 + l) := by omega
  have a2 : 512 * (q % 2) + 256 + l = (2 * (q % 2) + 1) * 256 + l := by omega
  have a3 : 512 * (q % 2) + 384 + l = (2 * (q % 2) + 1) * 256 + (128 + l) := by omega
  have r0 : 4 * (q / 2) + 2 * (q % 2) = 2 * q := by omega
  have r1 : 4 * (q / 2) + (2 * (q % 2) + 1) = 2 * q + 1 := by omega
  rw [a0, a1, a2, a3,
    conv1_eq X W1 W1g hW1 (q / 2) (2 * (q % 2)) (by omega) l (by omega),
    conv1_eq X W1 W1g hW1 (q / 2) (2 * (q % 2)) (by omega) (128 + l) (by omega),
    conv1_eq X W1 W1g hW1 (q / 2) (2 * (q % 2) + 1) (by omega) l (by omega),
    conv1_eq X W1 W1g hW1 (q / 2) (2 * (q % 2) + 1) (by omega) (128 + l) (by omega),
    r0, r1, zero_words]

include hW2 in
/-- The kernel's second-layer accumulator over six pooled rows `Y (q0) … Y (q0 + 5)` is the five-tap sum. -/
theorem conv2_eq (Y : ℕ → ℕ → EReal) (q0 : ℕ) (rr : ℕ) (hrr : rr < 2) (cc : ℕ) (hcc : cc < 256) :
    acc2 Y W2g q0 (rr * 256 + cc) = rAcc Y W2 128 (q0 + rr) cc := by
  unfold acc2
  have e : ∀ k ∈ range 768, Y (q0 + k / 128) (k % 128) * W2g k (rr * 256 + cc)
      = (fun k => Y (q0 + k / 128) (k % 128)) k
        * (if rr ≤ k / 128 ∧ k / 128 < rr + 5 then (fun i w => W2 i w cc) (k / 128 - rr) (k % 128) else 0) :=
    fun k hk => by rw [hW2 k (Finset.mem_range.mp hk) rr hrr cc hcc]
  rw [Finset.sum_congr rfl e, show (768 : ℕ) = 6 * 128 from rfl,
    ShiftedTaps.shifted_taps 6 128 rr (by norm_num) (by omega) (fun k => Y (q0 + k / 128) (k % 128)) (fun i w => W2 i w cc),
    sum_five]
  unfold rAcc tap
  have t : ∀ i, (∑ w ∈ range 128, (fun k => Y (q0 + k / 128) (k % 128)) ((rr + i) * 128 + w) * (fun i w => W2 i w cc) i w)
      = ∑ w ∈ range 128, Y (i + (q0 + rr)) w * W2 i w cc := fun i =>
    Finset.sum_congr rfl fun w hw => by
      have hw' := Finset.mem_range.mp hw
      have e1 : q0 + ((rr + i) * 128 + w) / 128 = i + (q0 + rr) := by omega
      have e2 : ((rr + i) * 128 + w) % 128 = w := by omega
      show Y (q0 + ((rr + i) * 128 + w) / 128) (((rr + i) * 128 + w) % 128) * W2 i w cc = _
      rw [e1, e2]
  rw [t 0, t 1, t 2, t 3, t 4]

include hW1 hW2 in
/-- The kernel's pooled row `t` of the second layer is the reference's. -/
theorem y2_eq (t : ℕ) (l : ℕ) (hl : l < 128) :
    kY2 (fun k => X (k / 28) (k % 28)) W1g B1 W2g B2 t l = rPool (rAcc (rPool (rAcc X W1 28) B1) W2 128) B2 t l := by
  unfold kY2 pooled
  have a0 : 0 + l = 0 * 256 + l := by omega
  have a1 : 128 + l = 0 * 256 + (128 + l) := by omega
  have a2 : 256 + l = 1 * 256 + l := by omega
  have a3 : 384 + l = 1 * 256 + (128 + l) := by omega
  rw [a0, a1, a2, a3,
    conv2_eq W2 W2g hW2 _ (2 * t) 0 (by norm_num) l (by omega), conv2_eq W2 W2g hW2 _ (2 * t) 0 (by norm_num) (128 + l) (by omega),
    conv2_eq W2 W2g hW2 _ (2 * t) 1 (by norm_num) l (by omega), conv2_eq W2 W2g hW2 _ (2 * t) 1 (by norm_num) (128 + l) (by omega),
    zero_words]
  unfold rPool
  rw [Nat.add_zero]
  have hY : ∀ a cc, rAcc (kY1 (fun k => X (k / 28) (k % 28)) W1g B1) W2 128 a cc = rAcc (rPool (rAcc X W1 28) B1) W2 128 a cc :=
    fun a cc => rAcc_congr' _ _ _ _ (fun i w hw => y1_eq X W1 B1 W1g hW1 (i + a) w hw)
  rw [hY, hY, hY, hY]
  rfl

include hW1 hW2 in
/-- THE TWO EXPRESSIONS of one image are one value. -/
theorem out_eq (F1 : ℕ → ℕ → EReal) (G1 : ℕ → EReal) (F2 : ℕ → ℕ → EReal) (G2 : ℕ → EReal) (j : ℕ) (hj : j < 10) :
    kOut (fun k => X (k / 28) (k % 28)) W1g B1 W2g B2 F1 G1 F2 G2 j
      = rHead (fun k => rPool (rAcc (rPool (rAcc X W1 28) B1) W2 128) B2 (k / 128) (k % 128)) F1 G1 F2 G2 j := by
  unfold kOut kZed rHead
  refine DenseHead.lsm_congr (fun j' _ => ?_) hj
  congr 1
  refine DenseHead.dot_congr (fun n _ => ?_) _ _
  unfold kHid
  rw [DenseHead.dot_congr (fun k hk => y2_eq X W1 B1 W2 B2 W1g W2g hW1 hW2 (k / 128) (k % 128) (Nat.mod_lt _ (by norm_num))) F1 n]

end OneImage

end Cert.Proof.Bridge

end
-- ==== Proof.lean ====
/-
  The fused LeNet kernel against its three-call reference, on the extended reals.
  The word-level kernel and its idealization are one text: thirteen stretches of host operations that lay the conv
  filters out as row-shifted, zero-padded copies, then one pipelined region whose body is loads, arithmetic and one
  store; each runs and leaves its arguments as launched (`KernelFrame`, `KernelIdealFrame`).  The reference is three
  pipelined regions (conv1, conv2, the dense head).  The ideal pass rewrote nothing, so `preserves` is `True`.
  For `algebraic`: both results are read entry by entry as one expression of one image — five-tap convolutions, 2×2
  max-pooling, bias, clamp, two dense layers, log-softmax.  The kernel's long products against shifted, zero-padded
  filters are the reference's five-tap sums (a product with zero is zero on every extended real, and sums regroup
  freely), and everything else is the same expression on both sides, so finiteness of the inputs is never used.
-/
import proofs.«104378_g2000603622679809_pallasbulk_1028_50_alg».proof.Defs
import proofs.«104378_g2000603622679809_pallasbulk_1028_50_alg».proof.Proof.Gen.Kernel
import proofs.«104378_g2000603622679809_pallasbulk_1028_50_alg».proof.Proof.Gen.KernelIdeal
import proofs.«104378_g2000603622679809_pallasbulk_1028_50_alg».proof.Proof.Gen.ReferenceIdeal
import proofs.«104378_g2000603622679809_pallasbulk_1028_50_alg».proof.Proof.Gen.ReferenceIdeal.Frame
import proofs.«104378_g2000603622679809_pallasbulk_1028_50_alg».proof.Proof.Gen.Pre_finite_inputs
import proofs.«104378_g2000603622679809_pallasbulk_1028_50_alg».proof.Proof.KernelFrame
import proofs.«104378_g2000603622679809_pallasbulk_1028_50_alg».proof.Proof.KernelIdealFrame
import proofs.«104378_g2000603622679809_pallasbulk_1028_50_alg».proof.Proof.KernelIdealValue
import proofs.«104378_g2000603622679809_pallasbulk_1028_50_alg».proof.Proof.RefRun
import proofs.«104378_g2000603622679809_pallasbulk_1028_50_alg».proof.Proof.KernelHost
import proofs.«104378_g2000603622679809_pallasbulk_1028_50_alg».proof.Proof.RefArray
import proofs.«104378_g2000603622679809_pallasbulk_1028_50_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ => Cert.ReferenceIdeal.Gen.frame (F := Ideal) m ρ
theorem preserves : Cert.preserves_Kernel_KernelIdeal := trivial

/-- The two results are one array: what the reference's dense-head call leaves in its result buffer is what the fused
    kernel's sixteen write-backs leave in its own, when the two memories agree on the arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    Cert.ReferenceIdeal.Gen.W5 m' ρ' c (Proc.devRef .tc Cert.ReferenceIdeal.main_v4)
      = (Cert.KernelIdeal.Fr.dats m 0 c).arrAt 9 Cert.KernelIdeal.cfg0.N := by
  funext i
  obtain ⟨b, j, rfl⟩ : ∃ (b : Fin 16384) (j : Fin 10), i = ix2 b j := ⟨i 0, i 1, eq_ix2 i⟩
  refine (Cert.ReferenceIdeal.RArr.result_entry m' ρ' c b j).trans ?_
  rw [Cert.KernelIdeal.KHost.result_entry m c b j]
  obtain ⟨h0, h1, h2, h3, h4, h5, h6, h7, h8⟩ := hagree c
  have e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0) := h0
  have e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1) := h1
  have e2 : m' ((c : Thread Cert.ReferenceIdeal.nD Cert.ReferenceIdeal.τ).loc Cert.ReferenceIdeal.main_arg2) = m ((c : Thread Cert.KernelIdeal.nD Cert.KernelIdeal.τ).loc Cert.KernelIdeal.main_arg2) := h2
  have e3 : m' ((c : Thread Cert.ReferenceIdeal.nD Cert.ReferenceIdeal.τ).loc Cert.ReferenceIdeal.main_arg3) = m ((c : Thread Cert.KernelIdeal.nD Cert.KernelIdeal.τ).loc Cert.KernelIdeal.main_arg3) := h3
  have e4 : m' ((c : Thread Cert.ReferenceIdeal.nD Cert.ReferenceIdeal.τ).loc Cert.ReferenceIdeal.main_arg4) = m ((c : Thread Cert.KernelIdeal.nD Cert.KernelIdeal.τ).loc Cert.KernelIdeal.main_arg4) := h4
  have e5 : m' ((c : Thread Cert.ReferenceIdeal.nD Cert.ReferenceIdeal.τ).loc Cert.ReferenceIdeal.main_arg5) = m ((c : Thread Cert.KernelIdeal.nD Cert.KernelIdeal.τ).loc Cert.KernelIdeal.main_arg5) := h5
  have e6 : m' ((c : Thread Cert.ReferenceIdeal.nD Cert.ReferenceIdeal.τ).loc Cert.ReferenceIdeal.main_arg6) = m ((c : Thread Cert.KernelIdeal.nD Cert.KernelIdeal.τ).loc Cert.KernelIdeal.main_arg6) := h6
  have e7 : m' ((c : Thread Cert.ReferenceIdeal.nD Cert.ReferenceIdeal.τ).loc Cert.ReferenceIdeal.main_arg7) = m ((c : Thread Cert.KernelIdeal.nD Cert.KernelIdeal.τ).loc Cert.KernelIdeal.main_arg7) := h7
  have e8 : m' ((c : Thread Cert.ReferenceIdeal.nD Cert.ReferenceIdeal.τ).loc Cert.ReferenceIdeal.main_arg8) = m ((c : Thread Cert.KernelIdeal.nD Cert.KernelIdeal.τ).loc Cert.KernelIdeal.main_arg8) := h8
  dsimp only [Cert.ReferenceIdeal.RArr.rY2, Cert.ReferenceIdeal.RArr.rY1]
  unfold Cert.ReferenceIdeal.RArr.rImg
  rw [e0, e1, e2, e3, e4, e5, e6, e7, e8]
  exact (Cert.Proof.Bridge.out_eq
    (fun a w => N4u (m ((c : Thread Cert.KernelIdeal.nD Cert.KernelIdeal.τ).loc Cert.KernelIdeal.main_arg0)) b.val a w) (N3 (m ((c : Thread Cert.KernelIdeal.nD Cert.KernelIdeal.τ).loc Cert.KernelIdeal.main_arg1))) (N2 (m ((c : Thread Cert.KernelIdeal.nD Cert.KernelIdeal.τ).loc Cert.KernelIdeal.main_arg2)) 0) (N3 (m ((c : Thread Cert.KernelIdeal.nD Cert.KernelIdeal.τ).loc Cert.KernelIdeal.main_arg3))) (N2 (m ((c : Thread Cert.KernelIdeal.nD Cert.KernelIdeal.τ).loc Cert.KernelIdeal.main_arg4)) 0)
    (N2 (Cert.KernelIdeal.Fr.V m c Cert.KernelIdeal.main_v7 : Cert.KernelIdeal.S224x1024.Idx → EReal))
    (N2 (Cert.KernelIdeal.Fr.V m c Cert.KernelIdeal.main_v12 : Cert.KernelIdeal.S768x512.Idx → EReal))
    (fun k hk rr hrr cc hcc => Cert.KernelIdeal.KHost.W1g_entry m c k hk rr hrr cc hcc)
    (fun k hk rr hrr cc hcc => Cert.KernelIdeal.KHost.W2g_entry m c k hk rr hrr cc hcc)
    _ _ _ _ j.val j.isLt).symm

theorem algebraic : Cert.algebraic_KernelIdeal_ReferenceIdeal := by
  intro m ρ m' ρ' hpre hagree
  refine ⟨fun c => (Cert.KernelIdeal.Fr.dats m 0 c).arrAt 9 Cert.KernelIdeal.cfg0.N,
    Cert.KernelIdeal.KValue.run_value (F := Ideal) m ρ, ?_⟩
  refine (θ_run Cert.ReferenceIdeal.defs _ _).mono (fun _ h c => ⟨(h c).1.trans ?_, (h c).2⟩)
    (Cert.ReferenceIdeal.RefValue.run_value (F := Ideal) m' ρ')
  exact result_eq m m' ρ' hpre hagree c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
